-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x2 : Shape := ⟨2, ![16384, 2]⟩
abbrev S524288 : Shape := ⟨1, ![524288]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part6 {F : FTy → Type} [FloatOps F] (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg20 : FVec F S128 .f32) (main_arg21 : FVec F S128x128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S384x128 .f32 := Host.absf main_arg14
  let main_cst_22 : FVec F S_ .f32 := constant S_ .f32 0x7F800000#32
  let main_v60 : FVec F S384x128 .f32 := broadcastInDim S384x128 ![] bcast_S_S384x128 main_cst_22
  let main_v61 : IVec S384x128 1 := cmpf .olt main_v59 main_v60
  let main_c_23 : IVec S_ 1 := constantI S_ 1 1#1
  let main_v62 : IVec S_ 1 := (fun x v => Host.reduce IntOp.andi x v reducesTo_S384x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S2x128 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v13 : IVec S_ 1) (main_v16 : IVec S16384x2 1) : IVec S_ 1 :=
  let main_c_5 : IVec S_ 1 := constantI S_ 1 1#1
  let main_v17 : IVec S_ 1 := (fun x v => Host.reduce IntOp.andi x v reducesTo_S16384x2_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S16384x128 .f32) (main_arg1 : FVec F S16384x128 .f32) (main_arg2 : FVec F S16384x2 .f32) (main_arg3 : FVec F S16384x2 .f32) (main_arg4 : IVec S524288 32) (main_arg5 : IVec S524288 32) (main_arg6 : FVec F S2x128 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S16384x2 .f32 := Host.absf main_arg3
  let main_cst_4 : FVec F S_ .f32 := constant S_ .f32 0x7F800000#32
  let main_v15 : FVec F S16384x2 .f32 := broadcastInDim S16384x2 ![] bcast_S_S16384x2 main_cst_4
  let main_v16 : IVec S16384x2 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S16384x128 : Shape := ⟨2, ![16384, 128]⟩
abbrev S16384x2 : Shape := ⟨2, ![16384, 2]⟩
abbrev S524288 : Shape := ⟨1, ![524288]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S524288x1 : Shape := ⟨2, ![524288, 1]⟩
abbrev S524288x2 : Shape := ⟨2, ![524288, 2]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S524288x128 : Shape := ⟨2, ![524288, 128]⟩
abbrev S4096x2 : Shape := ⟨2, ![4096, 2]⟩
abbrev S4096x128 : Shape := ⟨2, ![4096, 128]⟩
abbrev S4096 : Shape := ⟨1, ![4096]⟩
abbrev S4096x1 : Shape := ⟨2, ![4096, 1]⟩

abbrev nBuf : Space → Nat
  | .hbm => 90
  | .vmem => 42
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x2, .f32⟩
  | .hbm, ⟨3, _⟩ => ⟨S16384x2, .f32⟩
  | .hbm, ⟨4, _⟩ => ⟨S524288, .i32⟩
  | .hbm, ⟨5, _⟩ => ⟨S524288, .i32⟩
  | .hbm, ⟨6, _⟩ => ⟨S2x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S384x128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288x2, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288x2, .f32⟩
  | .hbm, ⟨42, _⟩ => ⟨S524288x2, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S1x128, .f32⟩
  | .hbm, ⟨48, _⟩ => ⟨S16384x128, .bf16⟩
  | .hbm, ⟨49, _⟩ => ⟨S16384x128, .bf16⟩
  | .hbm, ⟨50, _⟩ => ⟨S_, .i32⟩
  | .hbm, ⟨51, _⟩ => ⟨S524288, .i32⟩
  | .hbm, ⟨52, _⟩ => ⟨S524288, .i1⟩
  | .hbm, ⟨53, _⟩ => ⟨S_, .i32⟩
  | .hbm, ⟨54, _⟩ => ⟨S524288, .i32⟩
  | .hbm, ⟨55, _⟩ => ⟨S524288, .i32⟩
  | .hbm, ⟨56, _⟩ => ⟨S524288, .i32⟩
  | .hbm, ⟨57, _⟩ => ⟨S524288x1, .i32⟩
  | .hbm, ⟨58, _⟩ => ⟨S524288x128, .bf16⟩
  | .hbm, ⟨59, _⟩ => ⟨S_, .i32⟩
  | .hbm, ⟨60, _⟩ => ⟨S524288, .i32⟩
  | .hbm, ⟨61, _⟩ => ⟨S524288, .i1⟩
  | .hbm, ⟨62, _⟩ => ⟨S_, .i32⟩
  | .hbm, ⟨63, _⟩ => ⟨S524288, .i32⟩
  | .hbm, ⟨64, _⟩ => ⟨S524288, .i32⟩
  | .hbm, ⟨65, _⟩ => ⟨S524288, .i32⟩
  | .hbm, ⟨66, _⟩ => ⟨S524288x1, .i32⟩
  | .hbm, ⟨67, _⟩ => ⟨S524288x128, .bf16⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S524288x128, .f32⟩
  | .hbm, ⟨74, _⟩ => ⟨S_, .f32⟩
  | .hbm, ⟨75, _⟩ => ⟨S16384x128, .f32⟩
  | .hbm, ⟨76, _⟩ => ⟨S_, .i32⟩
  | .hbm, ⟨77, _⟩ => ⟨S524288, .i32⟩
  | .hbm, ⟨78, _⟩ => ⟨S524288, .i1⟩
  | .hbm, ⟨79, _⟩ => ⟨S_, .i32⟩
  | .hbm, ⟨80, _⟩ => ⟨S524288, .i32⟩
  | .hbm, ⟨81, _⟩ => ⟨S524288, .i32⟩
  | .hbm, ⟨82, _⟩ => ⟨S524288, .i32⟩
  | .hbm, ⟨83, _⟩ => ⟨S524288x1, .i32⟩
  | .hbm, ⟨84, _⟩ => ⟨S16384x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S4096x2, .f32⟩
  | .local _ .vmem, ⟨14, _⟩ => ⟨S4096x2, .f32⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S2x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S128x128, .f32⟩
  | .local _ .vmem, ⟨28, _⟩ => ⟨S4096x128, .f32⟩
  | .local _ .vmem, ⟨29, _⟩ => ⟨S4096x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S1x128, .f32⟩
  | .local _ .vmem, ⟨40, _⟩ => ⟨S2048x128, .f32⟩
  | .local _ .vmem, ⟨41, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst : Ref sig .tc := ⟨.hbm, 74, rfl⟩
abbrev main_v41 : Ref sig .tc := ⟨.hbm, 75, rfl⟩
abbrev main_c_7 : Ref sig .tc := ⟨.hbm, 76, rfl⟩
abbrev main_v42 : Ref sig .tc := ⟨.hbm, 77, rfl⟩
abbrev main_v43 : Ref sig .tc := ⟨.hbm, 78, rfl⟩
abbrev main_c_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg12_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem12_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S4096x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2048x128_S2048 : S2048x128.Reduces [1] S2048
  shapeCasts_S2048_S2048x1 : S2048.ShapeCasts S2048x1
  broadcasts_S2048x1_S2048x128 : S2048x1.Broadcasts S2048x128
  broadcasts_S1x128_S2048x128 : S1x128.Broadcasts S2048x128
  shapeCasts_S128x128_S128x128 : S128x128.ShapeCasts S128x128
  packedbf16_S2048x128_S2048x128_0_0 : (Rect.unit (s := S2048x128) ![0, 0] S2048x128.size inb_S2048x128_S2048x128_0_0).PackedRows (EltTy.packing .bf16)
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S2x128_S2x128_0_0 : ∀ a, (![0, 0] : Fin 2 → Nat) a + S2x128.size a ≤ S2x128.size a
  h_S2x128 : 0 < S2x128.numel
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bcast_S_S16384x128 : S_.BroadcastsInDim S16384x128 (![] : Fin 0 → Fin S16384x128.rank)
  shapeCasts_S2048x128_S2048x128 : S2048x128.ShapeCasts S2048x128
  gather_S16384x2_S524288x1_S524288x2_1_0_n_n_0_1_12_wf : GatherDims.WF S16384x2 S524288x1 S524288x2 [1] [0] [] [0] [] 1 ![1, 2]
  dot_S2048x128_S128x128_S2048x128_1_0_0_1_n_n_wf : DotDims.WF S2048x128 S128x128 S2048x128 [1] [0] [0] [1] [] []
  gather_S16384x128_S524288x1_S524288x128_1_0_n_n_0_1_1128_wf : GatherDims.WF S16384x128 S524288x1 S524288x128 [1] [0] [] [0] [] 1 ![1, 128]
  dot_S4096x2_S2x128_S4096x128_1_0_0_1_n_n_wf : DotDims.WF S4096x2 S2x128 S4096x128 [1] [0] [0] [1] [] []
  dot_S4096x128_S128x128_S4096x128_1_0_0_1_n_n_wf : DotDims.WF S4096x128 S128x128 S4096x128 [1] [0] [0] [1] [] []
  scatter_S16384x128_S524288x1_S524288x128_1_0_0_1_wf : ScatterDims.WF S16384x128 S524288x1 S524288x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .bf16 = 32 ∨ (Rect.block (s := S16384x128) S2048x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S16384x128.size a
  hwx0_8 : ∀ i : grid0.Coords, EltTy.bits .bf16 = 32 ∨ (Rect.block (s := S16384x128) S2048x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x2.size a ≤ S524288x2.size a
  hwx1_0 : ∀ i : grid1.Coords, EltTy.bits .f32 = 32 ∨ (Rect.block (s := S524288x2) S4096x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S524288x128.size a
  hwx1_1 : ∀ i : grid1.Coords, EltTy.bits .bf16 = 32 ∨ (Rect.block (s := S524288x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S524288x128.size a
  hwx1_2 : ∀ i : grid1.Coords, EltTy.bits .bf16 = 32 ∨ (Rect.block (s := S524288x128) S4096x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4096x128.size a ≤ S524288x128.size a
  hwx1_12 : ∀ i : grid1.Coords, EltTy.bits .f32 = 32 ∨ (Rect.block (s := S524288x128) S4096x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x128.size a ≤ S16384x128.size a
  hwx2_8 : ∀ i : grid2.Coords, EltTy.bits .f32 = 32 ∨ (Rect.block (s := S16384x128) S2048x128.size (cc2_transform_8 i) (hinb2_8 i)).WholeWords (EltTy.packing .f32)

variable [Facts₀]

def gather_S16384x2_S524288x1_S524288x2_1_0_n_n_0_1_12 : GatherDims S16384x2 S524288x1 S524288x2 where
  offsetDims := [1]
  collapsedSliceDims := [0]
  operandBatchingDims := []
  startIndicesBatchingDims := []
  startIndexMap := [0]
  indexVectorDim := 1
  sliceSizes := ![1, 2]
  wf := gather_S16384x2_S524288x1_S524288x2_1_0_n_n_0_1_12_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S4096x2_S2x128_S4096x128_1_0_0_1_n_n : DotDims S4096x2 S2x128 S4096x128 where
  lhsContracting := [1]
  rhsContracting := [0]
  lhsNonContracting := [0]
  rhsNonContracting := [1]
  lhsBatch := []
  rhsBatch := []
  wf := dot_S4096x2_S2x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14) S4096x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S2x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v40) S4096x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_arg0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v53) S2048x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S16384x128 : Shape := ⟨2, ![16384, 128]⟩
abbrev S16384x2 : Shape := ⟨2, ![16384, 2]⟩
abbrev S524288 : Shape := ⟨1, ![524288]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S524288x1 : Shape := ⟨2, ![524288, 1]⟩
abbrev S524288x2 : Shape := ⟨2, ![524288, 2]⟩
abbrev S524288x128 : Shape := ⟨2, ![524288, 128]⟩
abbrev S1x128 : Shape := ⟨2, ![1, 128]⟩
abbrev S524288x384 : Shape := ⟨2, ![524288, 384]⟩
abbrev S16384 : Shape := ⟨1, ![16384]⟩
abbrev S16384x1 : Shape := ⟨2, ![16384, 1]⟩

abbrev nBuf : Space → Nat
  | .hbm => 245
  | .vmem => 0
  | .smem => 0
  | _ => 0

abbrev hbmTy0_0 (i : Nat) : BufTy := match i % 128 with
  | 0 => ⟨S16384x128, .f32⟩
  | 1 => ⟨S16384x128, .f32⟩
  | 2 => ⟨S16384x2, .f32⟩
  | 3 => ⟨S16384x2, .f32⟩
  | 4 => ⟨S524288, .i32⟩
  | 5 => ⟨S524288, .i32⟩
  | 6 => ⟨S2x128, .f32⟩
  | 7 => ⟨S128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128, .f32⟩
  | 14 => ⟨S384x128, .f32⟩
  | 15 => ⟨S128, .f32⟩
  | 16 => ⟨S128, .f32⟩
  | 17 => ⟨S128x128, .f32⟩
  | 18 => ⟨S128x128, .f32⟩
  | 19 => ⟨S128, .f32⟩
  | 20 => ⟨S128, .f32⟩
  | 21 => ⟨S128x128, .f32⟩
  | 22 => ⟨S128, .f32⟩
  | 23 => ⟨S128, .f32⟩
  | 24 => ⟨S_, .i32⟩
  | 25 => ⟨S524288, .i32⟩
  | 26 => ⟨S524288, .i1⟩
  | 27 => ⟨S_, .i32⟩
  | 28 => ⟨S524288, .i32⟩
  | 29 => ⟨S524288, .i32⟩
  | 30 => ⟨S524288, .i32⟩
  | 31 => ⟨S524288x1, .i32⟩
  | 32 => ⟨S524288x2, .f32⟩
  | 33 => ⟨S_, .i32⟩
  | 34 => ⟨S524288, .i32⟩
  | 35 => ⟨S524288, .i1⟩
  | 36 => ⟨S_, .i32⟩
  | 37 => ⟨S524288, .i32⟩
  | 38 => ⟨S524288, .i32⟩
  | 39 => ⟨S524288, .i32⟩
  | 40 => ⟨S524288x1, .i32⟩
  | 41 => ⟨S524288x2, .f32⟩
  | 42 => ⟨S524288x2, .f32⟩
  | 43 => ⟨S524288x128, .f32⟩
  | 44 => ⟨S1x128, .f32⟩
  | 45 => ⟨S524288x128, .f32⟩
  | 46 => ⟨S524288x128, .f32⟩
  | 47 => ⟨S_, .f32⟩
  | 48 => ⟨S524288x128, .f32⟩
  | 49 => ⟨S524288x128, .f32⟩
  | 50 => ⟨S524288x128, .f32⟩
  | 51 => ⟨S_, .f32⟩
  | 52 => ⟨S524288, .f32⟩
  | 53 => ⟨S524288x1, .f32⟩
  | 54 => ⟨S_, .f32⟩
  | 55 => ⟨S524288x1, .f32⟩
  | 56 => ⟨S524288x1, .f32⟩
  | 57 => ⟨S524288x128, .f32⟩
  | 58 => ⟨S524288x128, .f32⟩
  | 59 => ⟨S524288x128, .f32⟩
  | 60 => ⟨S_, .f32⟩
  | 61 => ⟨S524288, .f32⟩
  | 62 => ⟨S524288x1, .f32⟩
  | 63 => ⟨S_, .f32⟩
  | 64 => ⟨S524288x1, .f32⟩
  | 65 => ⟨S524288x1, .f32⟩
  | 66 => ⟨S524288x128, .f32⟩
  | 67 => ⟨S524288x128, .f32⟩
  | 68 => ⟨S_, .f32⟩
  | 69 => ⟨S524288x1, .f32⟩
  | 70 => ⟨S524288x1, .f32⟩
  | 71 => ⟨S524288x1, .f32⟩
  | 72 => ⟨S524288x128, .f32⟩
  | 73 => ⟨S524288x128, .f32⟩
  | 74 => ⟨S1x128, .f32⟩
  | 75 => ⟨S524288x128, .f32⟩
  | 76 => ⟨S524288x128, .f32⟩
  | 77 => ⟨S1x128, .f32⟩
  | 78 => ⟨S524288x128, .f32⟩
  | 79 => ⟨S524288x128, .f32⟩
  | 80 => ⟨S_, .f32⟩
  | 81 => ⟨S524288x128, .f32⟩
  | 82 => ⟨S524288x128, .f32⟩
  | 83 => ⟨S_, .i32⟩
  | 84 => ⟨S524288, .i32⟩
  | 85 => ⟨S524288, .i1⟩
  | 86 => ⟨S_, .i32⟩
  | 87 => ⟨S524288, .i32⟩
  | 88 => ⟨S524288, .i32⟩
  | 89 => ⟨S524288, .i32⟩
  | 90 => ⟨S524288x1, .i32⟩
  | 91 => ⟨S524288x128, .f32⟩
  | 92 => ⟨S524288x128, .f32⟩
  | 93 => ⟨S_, .f32⟩
  | 94 => ⟨S524288, .f32⟩
  | 95 => ⟨S524288x1, .f32⟩
  | 96 => ⟨S_, .f32⟩
  | 97 => ⟨S524288x1, .f32⟩
  | 98 => ⟨S524288x1, .f32⟩
  | 99 => ⟨S524288x128, .f32⟩
  | 100 => ⟨S524288x128, .f32⟩
  | 101 => ⟨S524288x128, .f32⟩
  | 102 => ⟨S_, .f32⟩
  | 103 => ⟨S524288, .f32⟩
  | 104 => ⟨S524288x1, .f32⟩
  | 105 => ⟨S_, .f32⟩
  | 106 => ⟨S524288x1, .f32⟩
  | 107 => ⟨S524288x1, .f32⟩
  | 108 => ⟨S524288x128, .f32⟩
  | 109 => ⟨S524288x128, .f32⟩
  | 110 => ⟨S_, .f32⟩
  | 111 => ⟨S524288x1, .f32⟩
  | 112 => ⟨S524288x1, .f32⟩
  | 113 => ⟨S524288x1, .f32⟩
  | 114 => ⟨S524288x128, .f32⟩
  | 115 => ⟨S524288x128, .f32⟩
  | 116 => ⟨S1x128, .f32⟩
  | 117 => ⟨S524288x128, .f32⟩
  | 118 => ⟨S524288x128, .f32⟩
  | 119 => ⟨S1x128, .f32⟩
  | 120 => ⟨S524288x128, .f32⟩
  | 121 => ⟨S524288x128, .f32⟩
  | 122 => ⟨S_, .f32⟩
  | 123 => ⟨S524288x128, .f32⟩
  | 124 => ⟨S524288x128, .f32⟩
  | 125 => ⟨S_, .i32⟩
  | 126 => ⟨S524288, .i32⟩
  | 127 => ⟨S524288, .i1⟩
  | _ => ⟨S16384x128, .f32⟩

abbrev hbmTy0_1 (i : Nat) : BufTy := match i % 128 with
  | 0 => ⟨S_, .i32⟩
  | 1 => ⟨S524288, .i32⟩
  | 2 => ⟨S524288, .i32⟩
  | 3 => ⟨S524288, .i32⟩
  | 4 => ⟨S524288x1, .i32⟩
  | 5 => ⟨S524288x128, .f32⟩
  | 6 => ⟨S524288x384, .f32⟩
  | 7 => ⟨S524288x128, .f32⟩
  | 8 => ⟨S_, .f32⟩
  | 9 => ⟨S524288, .f32⟩
  | 10 => ⟨S524288x1, .f32⟩
  | 11 => ⟨S_, .f32⟩
  | 12 => ⟨S524288x1, .f32⟩
  | 13 => ⟨S524288x1, .f32⟩
  | 14 => ⟨S524288x128, .f32⟩
  | 15 => ⟨S524288x128, .f32⟩
  | 16 => ⟨S524288x128, .f32⟩
  | 17 => ⟨S_, .f32⟩
  | 18 => ⟨S524288, .f32⟩
  | 19 => ⟨S524288x1, .f32⟩
  | 20 => ⟨S_, .f32⟩
  | 21 => ⟨S524288x1, .f32⟩
  | 22 => ⟨S524288x1, .f32⟩
  | 23 => ⟨S524288x128, .f32⟩
  | 24 => ⟨S524288x128, .f32⟩
  | 25 => ⟨S_, .f32⟩
  | 26 => ⟨S524288x1, .f32⟩
  | 27 => ⟨S524288x1, .f32⟩
  | 28 => ⟨S524288x1, .f32⟩
  | 29 => ⟨S524288x128, .f32⟩
  | 30 => ⟨S524288x128, .f32⟩
  | 31 => ⟨S1x128, .f32⟩
  | 32 => ⟨S524288x128, .f32⟩
  | 33 => ⟨S524288x128, .f32⟩
  | 34 => ⟨S1x128, .f32⟩
  | 35 => ⟨S524288x128, .f32⟩
  | 36 => ⟨S524288x128, .f32⟩
  | 37 => ⟨S_, .f32⟩
  | 38 => ⟨S524288x128, .f32⟩
  | 39 => ⟨S524288x128, .f32⟩
  | 40 => ⟨S524288x128, .f32⟩
  | 41 => ⟨S16384x128, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S16384x128, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x128, .f32⟩
  | 58 => ⟨S16384x128, .f32⟩
  | 59 => ⟨S16384x128, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S16384x128, .f32⟩
  | 67 => ⟨S16384x128, .f32⟩
  | 68 => ⟨S_, .f32⟩
  | 69 => ⟨S16384x1, .f32⟩
  | 70 => ⟨S16384x1, .f32⟩
  | 71 => ⟨S16384x1, .f32⟩
  | 72 => ⟨S16384x128, .f32⟩
  | 73 => ⟨S16384x128, .f32⟩
  | 74 => ⟨S1x128, .f32⟩
  | 75 => ⟨S16384x128, .f32⟩
  | 76 => ⟨S16384x128, .f32⟩
  | 77 => ⟨S1x128, .f32⟩
  | 78 => ⟨S16384x128, .f32⟩
  | 79 => ⟨S16384x128, .f32⟩
  | 80 => ⟨S_, .f32⟩
  | 81 => ⟨S16384x128, .f32⟩
  | 82 => ⟨S16384x128, .f32⟩
  | 83 => ⟨S16384x128, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S16384x128, .f32⟩
  | 91 => ⟨S16384x128, .f32⟩
  | 92 => ⟨S16384x128, .f32⟩
  | 93 => ⟨S_, .f32⟩
  | 94 => ⟨S16384, .f32⟩
  | 95 => ⟨S16384x1, .f32⟩
  | 96 => ⟨S_, .f32⟩
  | 97 => ⟨S16384x1, .f32⟩
  | 98 => ⟨S16384x1, .f32⟩
  | 99 => ⟨S16384x128, .f32⟩
  | 100 => ⟨S16384x128, .f32⟩
  | 101 => ⟨S_, .f32⟩
  | 102 => ⟨S16384x1, .f32⟩
  | 103 => ⟨S16384x1, .f32⟩
  | 104 => ⟨S16384x1, .f32⟩
  | 105 => ⟨S16384x128, .f32⟩
  | 106 => ⟨S16384x128, .f32⟩
  | 107 => ⟨S1x128, .f32⟩
  | 108 => ⟨S16384x128, .f32⟩
  | 109 => ⟨S16384x128, .f32⟩
  | 110 => ⟨S1x128, .f32⟩
  | 111 => ⟨S16384x128, .f32⟩
  | 112 => ⟨S16384x128, .f32⟩
  | 113 => ⟨S16384x128, .f32⟩
  | 114 => ⟨S_, .f32⟩
  | 115 => ⟨S16384x128, .f32⟩
  | 116 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call1_cst : Ref sig .tc := ⟨.hbm, 80, rfl⟩
abbrev main_call1_v0 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_9 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_11 : Ref sig .tc := ⟨.hbm, 102, rfl⟩
abbrev main_v61 : Ref sig .tc := ⟨.hbm, 103, rfl⟩
abbrev main_v62 : Ref sig .tc := ⟨.hbm, 104, rfl⟩
abbrev main_cst_12 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call2_cst : Ref sig .tc := ⟨.hbm, 122, rfl⟩
abbrev main_call2_v0 : Ref sig .tc := ⟨.hbm, 123, rfl⟩
abbrev main_v78 : Ref sig .tc := ⟨.hbm, 124, rfl⟩
abbrev main_c_14 : Ref sig .tc := ⟨.hbm, 125, rfl⟩
abbrev main_v79 : Ref sig .tc := ⟨.hbm, 126, rfl⟩
abbrev main_v80 : Ref sig .tc := ⟨.hbm, 127, rfl⟩
abbrev main_c_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_16 : Ref sig .tc := ⟨.hbm, 136, rfl⟩
abbrev main_v88 : Ref sig .tc := ⟨.hbm, 137, rfl⟩
abbrev main_v89 : Ref sig .tc := ⟨.hbm, 138, rfl⟩
abbrev main_cst_17 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_18 : Ref sig .tc := ⟨.hbm, 145, rfl⟩
abbrev main_v95 : Ref sig .tc := ⟨.hbm, 146, rfl⟩
abbrev main_v96 : Ref sig .tc := ⟨.hbm, 147, rfl⟩
abbrev main_cst_19 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_20 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call3_cst : Ref sig .tc := ⟨.hbm, 165, rfl⟩
abbrev main_call3_v0 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_21 : Ref sig .tc := ⟨.hbm, 170, rfl⟩
abbrev main_v115 : Ref sig .tc := ⟨.hbm, 171, rfl⟩
abbrev main_v116 : Ref sig .tc := ⟨.hbm, 172, rfl⟩
abbrev main_c_22 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_23 : Ref sig .tc := ⟨.hbm, 179, rfl⟩
abbrev main_v122 : Ref sig .tc := ⟨.hbm, 180, rfl⟩
abbrev main_v123 : Ref sig .tc := ⟨.hbm, 181, rfl⟩
abbrev main_cst_24 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_25 : Ref sig .tc := ⟨.hbm, 188, rfl⟩
abbrev main_v129 : Ref sig .tc := ⟨.hbm, 189, rfl⟩
abbrev main_v130 : Ref sig .tc := ⟨.hbm, 190, rfl⟩
abbrev main_cst_26 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_27 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call4_cst : Ref sig .tc := ⟨.hbm, 208, rfl⟩
abbrev main_call4_v0 : Ref sig .tc := ⟨.hbm, 209, rfl⟩
abbrev main_v146 : Ref sig .tc := ⟨.hbm, 210, rfl⟩
abbrev main_v147 : Ref sig .tc := ⟨.hbm, 211, rfl⟩
abbrev main_cst_28 : Ref sig .tc := ⟨.hbm, 212, rfl⟩
abbrev main_v148 : Ref sig .tc := ⟨.hbm, 213, rfl⟩
abbrev main_v149 : Ref sig .tc := ⟨.hbm, 214, rfl⟩
abbrev main_cst_29 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_30 : Ref sig .tc := ⟨.hbm, 221, rfl⟩
abbrev main_v155 : Ref sig .tc := ⟨.hbm, 222, rfl⟩
abbrev main_v156 : Ref sig .tc := ⟨.hbm, 223, rfl⟩
abbrev main_cst_31 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_32 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_call5_cst : Ref sig .tc := ⟨.hbm, 242, rfl⟩
abbrev main_call5_v0 : Ref sig .tc := ⟨.hbm, 243, rfl⟩
abbrev main_v173 : Ref sig .tc := ⟨.hbm, 244, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  reducesTo_S524288x128_S524288_d1 : S524288x128.ReducesTo [1] S524288
  h_S_ : 0 < S_.numel
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  concatenates_S524288x128_S524288x128_S524288x128_S524288x384_d1 : Shape.Concatenates [S524288x128, S524288x128, S524288x128] S524288x384 1
  reducesTo_S16384x128_S16384_d1 : S16384x128.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  gather_S16384x2_S524288x1_S524288x2_1_0_n_n_0_1_12_wf : GatherDims.WF S16384x2 S524288x1 S524288x2 [1] [0] [] [0] [] 1 ![1, 2]
  dot_S524288x2_S2x128_S524288x128_1_0_0_1_n_n_wf : DotDims.WF S524288x2 S2x128 S524288x128 [1] [0] [0] [1] [] []
  dot_S524288x128_S128x128_S524288x128_1_0_0_1_n_n_wf : DotDims.WF S524288x128 S128x128 S524288x128 [1] [0] [0] [1] [] []
  gather_S16384x128_S524288x1_S524288x128_1_0_n_n_0_1_1128_wf : GatherDims.WF S16384x128 S524288x1 S524288x128 [1] [0] [] [0] [] 1 ![1, 128]
  dot_S524288x384_S384x128_S524288x128_1_0_0_1_n_n_wf : DotDims.WF S524288x384 S384x128 S524288x128 [1] [0] [0] [1] [] []
  dot_S16384x128_S128x128_S16384x128_1_0_0_1_n_n_wf : DotDims.WF S16384x128 S128x128 S16384x128 [1] [0] [0] [1] [] []
  scatter_S16384x128_S524288x1_S524288x128_1_0_0_1_wf : ScatterDims.WF S16384x128 S524288x1 S524288x128 [1] [0] [0] 1

variable [Facts₀]

def gather_S16384x2_S524288x1_S524288x2_1_0_n_n_0_1_12 : GatherDims S16384x2 S524288x1 S524288x2 where
  offsetDims := [1]
  collapsedSliceDims := [0]
  operandBatchingDims := []
  startIndicesBatchingDims := []
  startIndexMap := [0]
  indexVectorDim := 1
  sliceSizes := ![1, 2]
  wf := gather_S16384x2_S524288x1_S524288x2_1_0_n_n_0_1_12_wf
def dot_S524288x2_S2x128_S524288x128_1_0_0_1_n_n : DotDims S524288x2 S2x128 S524288x128 where
  lhsContracting := [1]
  rhsContracting := [0]
  lhsNonContracting := [0]
  rhsNonContracting := [1]
  lhsBatch := []
  rhsBatch := []
  wf := dot_S524288x2_S2x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S524288x384_S384x128_S524288x128_1_0_0_1_n_n : DotDims S524288x384 S384x128 S524288x128 where
  lhsContracting := [1]
  rhsContracting := [0]
  lhsNonContracting := [0]
  rhsNonContracting := [1]
  lhsBatch := []
  rhsBatch := []
  wf := dot_S524288x384_S384x128_S524288x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf

class Facts : Prop extends Facts₀ where

variable [Facts]
-- ==== Proof.KRun.lean ====
/-
  THE KERNEL'S RUN WITH ITS RESULT KEPT. Every weakly fair execution of the program — three host stretches and three
  pipelined regions — terminates without a fault; at the end the result buffer holds what the last region's
  write-backs left on top of the last host stretch (the fold `Gen.W6` of the boundary contents, read at the result),
  and every argument array is as launched. The launch is the library's several-region theorem over the program's
  segments; only its last step differs from the frame's: the final thread state is read at the result buffer too.
-/
import proofs.«148702_j18734647345154_2_alg».proof.Proof.Patched.KernelIdealFrame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at `Gen.W6 m ρ c` read at it; the arguments end as launched. -/
theorem run_named : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c)⟩)

end Cert.KernelIdeal.RunValue

end
-- ==== Proof.RefRun.lean ====
/-
  THE REFERENCE'S RUN, OVER ITS STAGES. The reference is a straight line of 221 host operations, each writing one buffer
  once. Every weakly fair execution terminates with each buffer at the fold of the operations' results over the launch
  memory; read at the result buffer, that fold is the last stage's function of the argument arrays, each stage the
  operation applied to the stages before it; read at an argument, it is the launch contents, since no operation writes one.
-/
import proofs.«148702_j18734647345154_2_alg».proof.Proof.Patched.ReferenceIdealOps
import proofs.«148702_j18734647345154_2_alg».proof.Proof.Patched.ReferenceIdealRead

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]
set_option maxRecDepth 8192 in
set_option maxHeartbeats 20000000 in
/-- The fold of the operations, read at the result buffer, is the last stage of the argument arrays. -/
theorem after_result (m : (ℓ : Loc nD τ sig) → Buf (Elt F) ℓ) (c : Dev nD) :
    after (ops (F := F)) (launchContents m c) (Proc.devRef .tc main_v173)
      = val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  after_results_simp
  rfl

/-! ## No operation writes an argument -/

/-- The buffers the operations write, in the operations' order: every buffer of the program but the 24 arguments. -/
abbrev written : List (Ref sig .tc) :=
  [main_c, main_v0, main_v1, main_c_0, main_v2, main_v3, main_v4, main_v5, main_v6, main_c_1,
   main_v7, main_v8, main_c_2, main_v9, main_v10, main_v11, main_v12, main_v13, main_v14, main_v15,
   main_v16, main_v17, main_v18, main_call0_cst, main_call0_v0, main_v19, main_v20, main_cst, main_v21, main_v22,
   main_cst_3, main_v23, main_v24, main_v25, main_v26, main_v27, main_cst_4, main_v28, main_v29, main_cst_5,
   main_v30, main_v31, main_v32, main_v33, main_cst_6, main_v34, main_v35, main_v36, main_v37, main_v38,
   main_v39, main_v40, main_v41, main_v42, main_v43, main_v44, main_call1_cst, main_call1_v0, main_v45, main_c_7,
   main_v46, main_v47, main_c_8, main_v48, main_v49, main_v50, main_v51, main_v52, main_v53, main_cst_9,
   main_v54, main_v55, main_cst_10, main_v56, main_v57, main_v58, main_v59, main_v60, main_cst_11, main_v61,
   main_v62, main_cst_12, main_v63, main_v64, main_v65, main_v66, main_cst_13, main_v67, main_v68, main_v69,
   main_v70, main_v71, main_v72, main_v73, main_v74, main_v75, main_v76, main_v77, main_call2_cst, main_call2_v0,
   main_v78, main_c_14, main_v79, main_v80, main_c_15, main_v81, main_v82, main_v83, main_v84, main_v85,
   main_v86, main_v87, main_cst_16, main_v88, main_v89, main_cst_17, main_v90, main_v91, main_v92, main_v93,
   main_v94, main_cst_18, main_v95, main_v96, main_cst_19, main_v97, main_v98, main_v99, main_v100, main_cst_20,
   main_v101, main_v102, main_v103, main_v104, main_v105, main_v106, main_v107, main_v108, main_v109, main_v110,
   main_v111, main_call3_cst, main_call3_v0, main_v112, main_v113, main_v114, main_c_21, main_v115, main_v116, main_c_22,
   main_v117, main_v118, main_v119, main_v120, main_v121, main_cst_23, main_v122, main_v123, main_cst_24, main_v124,
   main_v125, main_v126, main_v127, main_v128, main_cst_25, main_v129, main_v130, main_cst_26, main_v131, main_v132,
   main_v133, main_v134, main_cst_27, main_v135, main_v136, main_v137, main_v138, main_v139, main_v140, main_v141,
   main_v142, main_v143, main_v144, main_v145, main_call4_cst, main_call4_v0, main_v146, main_v147, main_cst_28, main_v148,
   main_v149, main_cst_29, main_v150, main_v151, main_v152, main_v153, main_v154, main_cst_30, main_v155, main_v156,
   main_cst_31, main_v157, main_v158, main_v159, main_v160, main_cst_32, main_v161, main_v162, main_v163, main_v164,
   main_v165, main_v166, main_v167, main_v168, main_v169, main_v170, main_v171, main_v172, main_call5_cst, main_call5_v0,
   main_v173]

/-- A buffer at a place of the list `written` is, as a device buffer, among the list's device buffers. -/
theorem wr (i : Nat) (y : Ref sig .tc) (h : written[i]? = some y) :
    ({Proc.devRef (τ := τ) .tc y} : Finset (DevRef τ sig)) ⊆ (written.map (Proc.devRef (τ := τ) .tc)).toFinset :=
  Finset.singleton_subset_iff.mpr (List.mem_toFinset.mpr (List.mem_map_of_mem (List.mem_of_getElem? h)))

set_option maxRecDepth 8192 in
/-- Operation number `i` writes the one buffer at place `i` of `written`. -/
theorem ops_writes : (ops : List (HloOp τ sig (Elt F))).Forall fun op =>
    op.writes ⊆ (written.map (Proc.devRef (τ := τ) .tc)).toFinset :=
  ⟨wr 0 main_c rfl, wr 1 main_v0 rfl, wr 2 main_v1 rfl, wr 3 main_c_0 rfl, wr 4 main_v2 rfl,
   wr 5 main_v3 rfl, wr 6 main_v4 rfl, wr 7 main_v5 rfl, wr 8 main_v6 rfl, wr 9 main_c_1 rfl,
   wr 10 main_v7 rfl, wr 11 main_v8 rfl, wr 12 main_c_2 rfl, wr 13 main_v9 rfl, wr 14 main_v10 rfl,
   wr 15 main_v11 rfl, wr 16 main_v12 rfl, wr 17 main_v13 rfl, wr 18 main_v14 rfl, wr 19 main_v15 rfl,
   wr 20 main_v16 rfl, wr 21 main_v17 rfl, wr 22 main_v18 rfl, wr 23 main_call0_cst rfl, wr 24 main_call0_v0 rfl,
   wr 25 main_v19 rfl, wr 26 main_v20 rfl, wr 27 main_cst rfl, wr 28 main_v21 rfl, wr 29 main_v22 rfl,
   wr 30 main_cst_3 rfl, wr 31 main_v23 rfl, wr 32 main_v24 rfl, wr 33 main_v25 rfl, wr 34 main_v26 rfl,
   wr 35 main_v27 rfl, wr 36 main_cst_4 rfl, wr 37 main_v28 rfl, wr 38 main_v29 rfl, wr 39 main_cst_5 rfl,
   wr 40 main_v30 rfl, wr 41 main_v31 rfl, wr 42 main_v32 rfl, wr 43 main_v33 rfl, wr 44 main_cst_6 rfl,
   wr 45 main_v34 rfl, wr 46 main_v35 rfl, wr 47 main_v36 rfl, wr 48 main_v37 rfl, wr 49 main_v38 rfl,
   wr 50 main_v39 rfl, wr 51 main_v40 rfl, wr 52 main_v41 rfl, wr 53 main_v42 rfl, wr 54 main_v43 rfl,
   wr 55 main_v44 rfl, wr 56 main_call1_cst rfl, wr 57 main_call1_v0 rfl, wr 58 main_v45 rfl, wr 59 main_c_7 rfl,
   wr 60 main_v46 rfl, wr 61 main_v47 rfl, wr 62 main_c_8 rfl, wr 63 main_v48 rfl, wr 64 main_v49 rfl,
   wr 65 main_v50 rfl, wr 66 main_v51 rfl, wr 67 main_v52 rfl, wr 68 main_v53 rfl, wr 69 main_cst_9 rfl,
   wr 70 main_v54 rfl, wr 71 main_v55 rfl, wr 72 main_cst_10 rfl, wr 73 main_v56 rfl, wr 74 main_v57 rfl,
   wr 75 main_v58 rfl, wr 76 main_v59 rfl, wr 77 main_v60 rfl, wr 78 main_cst_11 rfl, wr 79 main_v61 rfl,
   wr 80 main_v62 rfl, wr 81 main_cst_12 rfl, wr 82 main_v63 rfl, wr 83 main_v64 rfl, wr 84 main_v65 rfl,
   wr 85 main_v66 rfl, wr 86 main_cst_13 rfl, wr 87 main_v67 rfl, wr 88 main_v68 rfl, wr 89 main_v69 rfl,
   wr 90 main_v70 rfl, wr 91 main_v71 rfl, wr 92 main_v72 rfl, wr 93 main_v73 rfl, wr 94 main_v74 rfl,
   wr 95 main_v75 rfl, wr 96 main_v76 rfl, wr 97 main_v77 rfl, wr 98 main_call2_cst rfl, wr 99 main_call2_v0 rfl,
   wr 100 main_v78 rfl, wr 101 main_c_14 rfl, wr 102 main_v79 rfl, wr 103 main_v80 rfl, wr 104 main_c_15 rfl,
   wr 105 main_v81 rfl, wr 106 main_v82 rfl, wr 107 main_v83 rfl, wr 108 main_v84 rfl, wr 109 main_v85 rfl,
   wr 110 main_v86 rfl, wr 111 main_v87 rfl, wr 112 main_cst_16 rfl, wr 113 main_v88 rfl, wr 114 main_v89 rfl,
   wr 115 main_cst_17 rfl, wr 116 main_v90 rfl, wr 117 main_v91 rfl, wr 118 main_v92 rfl, wr 119 main_v93 rfl,
   wr 120 main_v94 rfl, wr 121 main_cst_18 rfl, wr 122 main_v95 rfl, wr 123 main_v96 rfl, wr 124 main_cst_19 rfl,
   wr 125 main_v97 rfl, wr 126 main_v98 rfl, wr 127 main_v99 rfl, wr 128 main_v100 rfl, wr 129 main_cst_20 rfl,
   wr 130 main_v101 rfl, wr 131 main_v102 rfl, wr 132 main_v103 rfl, wr 133 main_v104 rfl, wr 134 main_v105 rfl,
   wr 135 main_v106 rfl, wr 136 main_v107 rfl, wr 137 main_v108 rfl, wr 138 main_v109 rfl, wr 139 main_v110 rfl,
   wr 140 main_v111 rfl, wr 141 main_call3_cst rfl, wr 142 main_call3_v0 rfl, wr 143 main_v112 rfl, wr 144 main_v113 rfl,
   wr 145 main_v114 rfl, wr 146 main_c_21 rfl, wr 147 main_v115 rfl, wr 148 main_v116 rfl, wr 149 main_c_22 rfl,
   wr 150 main_v117 rfl, wr 151 main_v118 rfl, wr 152 main_v119 rfl, wr 153 main_v120 rfl, wr 154 main_v121 rfl,
   wr 155 main_cst_23 rfl, wr 156 main_v122 rfl, wr 157 main_v123 rfl, wr 158 main_cst_24 rfl, wr 159 main_v124 rfl,
   wr 160 main_v125 rfl, wr 161 main_v126 rfl, wr 162 main_v127 rfl, wr 163 main_v128 rfl, wr 164 main_cst_25 rfl,
   wr 165 main_v129 rfl, wr 166 main_v130 rfl, wr 167 main_cst_26 rfl, wr 168 main_v131 rfl, wr 169 main_v132 rfl,
   wr 170 main_v133 rfl, wr 171 main_v134 rfl, wr 172 main_cst_27 rfl, wr 173 main_v135 rfl, wr 174 main_v136 rfl,
   wr 175 main_v137 rfl, wr 176 main_v138 rfl, wr 177 main_v139 rfl, wr 178 main_v140 rfl, wr 179 main_v141 rfl,
   wr 180 main_v142 rfl, wr 181 main_v143 rfl, wr 182 main_v144 rfl, wr 183 main_v145 rfl, wr 184 main_call4_cst rfl,
   wr 185 main_call4_v0 rfl, wr 186 main_v146 rfl, wr 187 main_v147 rfl, wr 188 main_cst_28 rfl, wr 189 main_v148 rfl,
   wr 190 main_v149 rfl, wr 191 main_cst_29 rfl, wr 192 main_v150 rfl, wr 193 main_v151 rfl, wr 194 main_v152 rfl,
   wr 195 main_v153 rfl, wr 196 main_v154 rfl, wr 197 main_cst_30 rfl, wr 198 main_v155 rfl, wr 199 main_v156 rfl,
   wr 200 main_cst_31 rfl, wr 201 main_v157 rfl, wr 202 main_v158 rfl, wr 203 main_v159 rfl, wr 204 main_v160 rfl,
   wr 205 main_cst_32 rfl, wr 206 main_v161 rfl, wr 207 main_v162 rfl, wr 208 main_v163 rfl, wr 209 main_v164 rfl,
   wr 210 main_v165 rfl, wr 211 main_v166 rfl, wr 212 main_v167 rfl, wr 213 main_v168 rfl, wr 214 main_v169 rfl,
   wr 215 main_v170 rfl, wr 216 main_v171 rfl, wr 217 main_v172 rfl, wr 218 main_call5_cst rfl, wr 219 main_call5_v0 rfl,
   wr 220 main_v173 rfl⟩

theorem after_arg0 (m : (ℓ : Loc nD τ sig) → Buf (Elt F) ℓ) (c : Dev nD) :
    after (ops (F := F)) (launchContents m c) (Proc.devRef .tc main_arg0) = m ((c.tc : Thread nD τ).loc main_arg0) :=
  after_of_writes_sub ops _ ops_writes (by decide)
theorem after_arg1 (m : (ℓ : Loc nD τ sig) → Buf (Elt F) ℓ) (c : Dev nD) :
    after (ops (F := F)) (launchContents m c) (Proc.devRef .tc main_arg1) = m ((c.tc : Thread nD τ).loc main_arg1) :=
  after_of_writes_sub ops _ ops_writes (by decide)
theorem after_arg2 (m : (ℓ : Loc nD τ sig) → Buf (Elt F) ℓ) (c : Dev nD) :
    after (ops (F := F)) (launchContents m c) (Proc.devRef .tc main_arg2) = m ((c.tc : Thread nD τ).loc main_arg2) :=
  after_of_writes_sub ops _ ops_writes (by decide)
theorem after_arg3 (m : (ℓ : Loc nD τ sig) → Buf (Elt F) ℓ) (c : Dev nD) :
    after (ops (F := F)) (launchContents m c) (Proc.devRef .tc main_arg3) = m ((c.tc : Thread nD τ).loc main_arg3) :=
  after_of_writes_sub ops _ ops_writes (by decide)
theorem after_arg4 (m : (ℓ : Loc nD τ sig) → Buf (Elt F) ℓ) (c : Dev nD) :
    after (ops (F := F)) (launchContents m c) (Proc.devRef .tc main_arg4) = m ((c.tc : Thread nD τ).loc main_arg4) :=
  after_of_writes_sub ops _ ops_writes (by decide)
theorem after_arg5 (m : (ℓ : Loc nD τ sig) → Buf (Elt F) ℓ) (c : Dev nD) :
    after (ops (F := F)) (launchContents m c) (Proc.devRef .tc main_arg5) = m ((c.tc : Thread nD τ).loc main_arg5) :=
  after_of_writes_sub ops _ ops_writes (by decide)
theorem after_arg6 (m : (ℓ : Loc nD τ sig) → Buf (Elt F) ℓ) (c : Dev nD) :
    after (ops (F := F)) (launchContents m c) (Proc.devRef .tc main_arg6) = m ((c.tc : Thread nD τ).loc main_arg6) :=
  after_of_writes_sub ops _ ops_writes (by decide)
theorem after_arg7 (m : (ℓ : Loc nD τ sig) → Buf (Elt F) ℓ) (c : Dev nD) :
    after (ops (F := F)) (launchContents m c) (Proc.devRef .tc main_arg7) = m ((c.tc : Thread nD τ).loc main_arg7) :=
  after_of_writes_sub ops _ ops_writes (by decide)
theorem after_arg8 (m : (ℓ : Loc nD τ sig) → Buf (Elt F) ℓ) (c : Dev nD) :
    after (ops (F := F)) (launchContents m c) (Proc.devRef .tc main_arg8) = m ((c.tc : Thread nD τ).loc main_arg8) :=
  after_of_writes_sub ops _ ops_writes (by decide)
theorem after_arg9 (m : (ℓ : Loc nD τ sig) → Buf (Elt F) ℓ) (c : Dev nD) :
    after (ops (F := F)) (launchContents m c) (Proc.devRef .tc main_arg9) = m ((c.tc : Thread nD τ).loc main_arg9) :=
  after_of_writes_sub ops _ ops_writes (by decide)
theorem after_arg10 (m : (ℓ : Loc nD τ sig) → Buf (Elt F) ℓ) (c : Dev nD) :
    after (ops (F := F)) (launchContents m c) (Proc.devRef .tc main_arg10) = m ((c.tc : Thread nD τ).loc main_arg10) :=
  after_of_writes_sub ops _ ops_writes (by decide)
theorem after_arg11 (m : (ℓ : Loc nD τ sig) → Buf (Elt F) ℓ) (c : Dev nD) :
    after (ops (F := F)) (launchContents m c) (Proc.devRef .tc main_arg11) = m ((c.tc : Thread nD τ).loc main_arg11) :=
  after_of_writes_sub ops _ ops_writes (by decide)
theorem after_arg12 (m : (ℓ : Loc nD τ sig) → Buf (Elt F) ℓ) (c : Dev nD) :
    after (ops (F := F)) (launchContents m c) (Proc.devRef .tc main_arg12) = m ((c.tc : Thread nD τ).loc main_arg12) :=
  after_of_writes_sub ops _ ops_writes (by decide)
theorem after_arg13 (m : (ℓ : Loc nD τ sig) → Buf (Elt F) ℓ) (c : Dev nD) :
    after (ops (F := F)) (launchContents m c) (Proc.devRef .tc main_arg13) = m ((c.tc : Thread nD τ).loc main_arg13) :=
  after_of_writes_sub ops _ ops_writes (by decide)
theorem after_arg14 (m : (ℓ : Loc nD τ sig) → Buf (Elt F) ℓ) (c : Dev nD) :
    after (ops (F := F)) (launchContents m c) (Proc.devRef .tc main_arg14) = m ((c.tc : Thread nD τ).loc main_arg14) :=
  after_of_writes_sub ops _ ops_writes (by decide)
theorem after_arg15 (m : (ℓ : Loc nD τ sig) → Buf (Elt F) ℓ) (c : Dev nD) :
    after (ops (F := F)) (launchContents m c) (Proc.devRef .tc main_arg15) = m ((c.tc : Thread nD τ).loc main_arg15) :=
  after_of_writes_sub ops _ ops_writes (by decide)
theorem after_arg16 (m : (ℓ : Loc nD τ sig) → Buf (Elt F) ℓ) (c : Dev nD) :
    after (ops (F := F)) (launchContents m c) (Proc.devRef .tc main_arg16) = m ((c.tc : Thread nD τ).loc main_arg16) :=
  after_of_writes_sub ops _ ops_writes (by decide)
theorem after_arg17 (m : (ℓ : Loc nD τ sig) → Buf (Elt F) ℓ) (c : Dev nD) :
    after (ops (F := F)) (launchContents m c) (Proc.devRef .tc main_arg17) = m ((c.tc : Thread nD τ).loc main_arg17) :=
  after_of_writes_sub ops _ ops_writes (by decide)
theorem after_arg18 (m : (ℓ : Loc nD τ sig) → Buf (Elt F) ℓ) (c : Dev nD) :
    after (ops (F := F)) (launchContents m c) (Proc.devRef .tc main_arg18) = m ((c.tc : Thread nD τ).loc main_arg18) :=
  after_of_writes_sub ops _ ops_writes (by decide)
theorem after_arg19 (m : (ℓ : Loc nD τ sig) → Buf (Elt F) ℓ) (c : Dev nD) :
    after (ops (F := F)) (launchContents m c) (Proc.devRef .tc main_arg19) = m ((c.tc : Thread nD τ).loc main_arg19) :=
  after_of_writes_sub ops _ ops_writes (by decide)
theorem after_arg20 (m : (ℓ : Loc nD τ sig) → Buf (Elt F) ℓ) (c : Dev nD) :
    after (ops (F := F)) (launchContents m c) (Proc.devRef .tc main_arg20) = m ((c.tc : Thread nD τ).loc main_arg20) :=
  after_of_writes_sub ops _ ops_writes (by decide)
theorem after_arg21 (m : (ℓ : Loc nD τ sig) → Buf (Elt F) ℓ) (c : Dev nD) :
    after (ops (F := F)) (launchContents m c) (Proc.devRef .tc main_arg21) = m ((c.tc : Thread nD τ).loc main_arg21) :=
  after_of_writes_sub ops _ ops_writes (by decide)
theorem after_arg22 (m : (ℓ : Loc nD τ sig) → Buf (Elt F) ℓ) (c : Dev nD) :
    after (ops (F := F)) (launchContents m c) (Proc.devRef .tc main_arg22) = m ((c.tc : Thread nD τ).loc main_arg22) :=
  after_of_writes_sub ops _ ops_writes (by decide)
theorem after_arg23 (m : (ℓ : Loc nD τ sig) → Buf (Elt F) ℓ) (c : Dev nD) :
    after (ops (F := F)) (launchContents m c) (Proc.devRef .tc main_arg23) = m ((c.tc : Thread nD τ).loc main_arg23) :=
  after_of_writes_sub ops _ ops_writes (by decide)

/-! ## The run -/

set_option maxRecDepth 8192 in
/-- On every device, for any float values, from any memory with zero counters: every weakly fair execution of the
    program terminates with the result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v173).trans (after_result m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c),
      (h c main_arg10).trans (after_arg10 m c),
      (h c main_arg11).trans (after_arg11 m c),
      (h c main_arg12).trans (after_arg12 m c),
      (h c main_arg13).trans (after_arg13 m c),
      (h c main_arg14).trans (after_arg14 m c),
      (h c main_arg15).trans (after_arg15 m c),
      (h c main_arg16).trans (after_arg16 m c),
      (h c main_arg17).trans (after_arg17 m c),
      (h c main_arg18).trans (after_arg18 m c),
      (h c main_arg19).trans (after_arg19 m c),
      (h c main_arg20).trans (after_arg20 m c),
      (h c main_arg21).trans (after_arg21 m c),
      (h c main_arg22).trans (after_arg22 m c),
      (h c main_arg23).trans (after_arg23 m c)⟩)
    (run_seq scopedRefs_eq scopedSems_eq defs main (fun _ => ops) main_eq (fun _ => ops_sub) m ρ)

end Cert.ReferenceIdeal.RefRun

end
-- ==== Proof.KHost.lean ====
/-
  WHAT EACH REGION FINDS. The program is three host stretches and three regions; the buffer contents at each boundary
  are a fold from the launch memory (`Gen.W0` … `Gen.W6`). This module walks that fold back for every array a region
  reads: an argument is as launched (no stretch and no region writes it); a reshaped scale or shift row, a band of the
  384-row matrix, the centres' difference, a gathered table and the scattered sum are their host operation applied to
  what the stretch before them found.
-/
import proofs.«148702_j18734647345154_2_alg».proof.Proof.Patched.KernelIdealFrame

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- A buffer none of a host stretch's operations writes holds after the stretch what it held before. -/
macro "host_keeps" ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- The column of row numbers an index vector `h` names: a negative word counts from the end of a 16384-row table. -/
def idxCol (h : (⟨S524288, .i32⟩ : BufTy).Contents (Elt F)) : (⟨S524288x1, .i32⟩ : BufTy).Contents (Elt F) :=
  broadcastInDim S524288x1 ![0] bcast_S524288_S524288x1_0
    (select (cmpi .slt h (broadcastInDim S524288 ![] bcast_S_S524288 (constantI S_ 32 0#32)))
      (addi h (broadcastInDim S524288 ![] bcast_S_S524288 (constantI S_ 32 16384#32))) h)

/-! ## The arguments, boundary by boundary (no stretch and no region writes one) -/

theorem W1_arg0 (c : Dev nD) : W1 m ρ c (Proc.devRef .tc main_arg0) = m ((c : Thread nD τ).loc main_arg0) := by
  show StableHlo.after hostOps0 (W0 m ρ c) (Proc.devRef .tc main_arg0) = _
  host_keeps hostOps0
theorem W1_arg1 (c : Dev nD) : W1 m ρ c (Proc.devRef .tc main_arg1) = m ((c : Thread nD τ).loc main_arg1) := by
  show StableHlo.after hostOps0 (W0 m ρ c) (Proc.devRef .tc main_arg1) = _
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = _
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = _
  host_keeps hostOps0
theorem W1_arg6 (c : Dev nD) : W1 m ρ c (Proc.devRef .tc main_arg6) = m ((c : Thread nD τ).loc main_arg6) := by
  show StableHlo.after hostOps0 (W0 m ρ c) (Proc.devRef .tc main_arg6) = _
  host_keeps hostOps0
theorem W1_arg7 (c : Dev nD) : W1 m ρ c (Proc.devRef .tc main_arg7) = m ((c : Thread nD τ).loc main_arg7) := by
  show StableHlo.after hostOps0 (W0 m ρ c) (Proc.devRef .tc main_arg7) = _
  host_keeps hostOps0
theorem W1_arg8 (c : Dev nD) : W1 m ρ c (Proc.devRef .tc main_arg8) = m ((c : Thread nD τ).loc main_arg8) := by
  show StableHlo.after hostOps0 (W0 m ρ c) (Proc.devRef .tc main_arg8) = _
  host_keeps hostOps0
theorem W1_arg9 (c : Dev nD) : W1 m ρ c (Proc.devRef .tc main_arg9) = m ((c : Thread nD τ).loc main_arg9) := by
  show StableHlo.after hostOps0 (W0 m ρ c) (Proc.devRef .tc main_arg9) = _
  host_keeps hostOps0
theorem W1_arg10 (c : Dev nD) : W1 m ρ c (Proc.devRef .tc main_arg10) = m ((c : Thread nD τ).loc main_arg10) := by
  show StableHlo.after hostOps0 (W0 m ρ c) (Proc.devRef .tc main_arg10) = _
  host_keeps hostOps0
theorem W1_arg11 (c : Dev nD) : W1 m ρ c (Proc.devRef .tc main_arg11) = m ((c : Thread nD τ).loc main_arg11) := by
  show StableHlo.after hostOps0 (W0 m ρ c) (Proc.devRef .tc main_arg11) = _
  host_keeps hostOps0
theorem W1_arg15 (c : Dev nD) : W1 m ρ c (Proc.devRef .tc main_arg15) = m ((c : Thread nD τ).loc main_arg15) := by
  show StableHlo.after hostOps0 (W0 m ρ c) (Proc.devRef .tc main_arg15) = _
  host_keeps hostOps0
theorem W1_arg16 (c : Dev nD) : W1 m ρ c (Proc.devRef .tc main_arg16) = m ((c : Thread nD τ).loc main_arg16) := by
  show StableHlo.after hostOps0 (W0 m ρ c) (Proc.devRef .tc main_arg16) = _
  host_keeps hostOps0
theorem W1_arg17 (c : Dev nD) : W1 m ρ c (Proc.devRef .tc main_arg17) = m ((c : Thread nD τ).loc main_arg17) := by
  show StableHlo.after hostOps0 (W0 m ρ c) (Proc.devRef .tc main_arg17) = _
  host_keeps hostOps0
theorem W1_arg18 (c : Dev nD) : W1 m ρ c (Proc.devRef .tc main_arg18) = m ((c : Thread nD τ).loc main_arg18) := by
  show StableHlo.after hostOps0 (W0 m ρ c) (Proc.devRef .tc main_arg18) = _
  host_keeps hostOps0
theorem W1_arg19 (c : Dev nD) : W1 m ρ c (Proc.devRef .tc main_arg19) = m ((c : Thread nD τ).loc main_arg19) := by
  show StableHlo.after hostOps0 (W0 m ρ c) (Proc.devRef .tc main_arg19) = _
  host_keeps hostOps0
theorem W1_arg20 (c : Dev nD) : W1 m ρ c (Proc.devRef .tc main_arg20) = m ((c : Thread nD τ).loc main_arg20) := by
  show StableHlo.after hostOps0 (W0 m ρ c) (Proc.devRef .tc main_arg20) = _
  host_keeps hostOps0
theorem W1_arg21 (c : Dev nD) : W1 m ρ c (Proc.devRef .tc main_arg21) = m ((c : Thread nD τ).loc main_arg21) := by
  show StableHlo.after hostOps0 (W0 m ρ c) (Proc.devRef .tc main_arg21) = _
  host_keeps hostOps0
theorem W1_arg22 (c : Dev nD) : W1 m ρ c (Proc.devRef .tc main_arg22) = m ((c : Thread nD τ).loc main_arg22) := by
  show StableHlo.after hostOps0 (W0 m ρ c) (Proc.devRef .tc main_arg22) = _
  host_keeps hostOps0
theorem W1_arg23 (c : Dev nD) : W1 m ρ c (Proc.devRef .tc main_arg23) = m ((c : Thread nD τ).loc main_arg23) := by
  show StableHlo.after hostOps0 (W0 m ρ c) (Proc.devRef .tc main_arg23) = _
  host_keeps hostOps0
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  ((W2_arr m ρ c 2).trans (((dat0 (V1 m ρ) c).arrAt_in 2 rfl _).trans (A_eq0 (V1 m ρ) c 2))).trans (W1_arg11 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W2_arg20 (c : Dev nD) : W2 m ρ c (Proc.devRef .tc main_arg20) = m ((c : Thread nD τ).loc main_arg20) :=
  (W2_of_ne m ρ c main_arg20 (by decide)).trans (W1_arg20 m ρ c)
theorem W2_arg21 (c : Dev nD) : W2 m ρ c (Proc.devRef .tc main_arg21) = m ((c : Thread nD τ).loc main_arg21) :=
  (W2_of_ne m ρ c main_arg21 (by decide)).trans (W1_arg21 m ρ c)
theorem W2_arg22 (c : Dev nD) : W2 m ρ c (Proc.devRef .tc main_arg22) = m ((c : Thread nD τ).loc main_arg22) :=
  (W2_of_ne m ρ c main_arg22 (by decide)).trans (W1_arg22 m ρ c)
theorem W2_arg23 (c : Dev nD) : W2 m ρ c (Proc.devRef .tc main_arg23) = m ((c : Thread nD τ).loc main_arg23) :=
  (W2_of_ne m ρ c main_arg23 (by decide)).trans (W1_arg23 m ρ c)
theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = _
  host_keeps hostOps1
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  host_keeps hostOps1
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  host_keeps hostOps1
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = _
  host_keeps hostOps1
theorem W3_arg17 (c : Dev nD) : W3 m ρ c (Proc.devRef .tc main_arg17) = m ((c : Thread nD τ).loc main_arg17) := by
  refine Eq.trans ?_ (W2_arg17 m ρ c)
  show StableHlo.after hostOps1 (W2 m ρ c) (Proc.devRef .tc main_arg17) = _
  host_keeps hostOps1
theorem W3_arg18 (c : Dev nD) : W3 m ρ c (Proc.devRef .tc main_arg18) = m ((c : Thread nD τ).loc main_arg18) := by
  refine Eq.trans ?_ (W2_arg18 m ρ c)
  show StableHlo.after hostOps1 (W2 m ρ c) (Proc.devRef .tc main_arg18) = _
  host_keeps hostOps1
theorem W3_arg19 (c : Dev nD) : W3 m ρ c (Proc.devRef .tc main_arg19) = m ((c : Thread nD τ).loc main_arg19) := by
  refine Eq.trans ?_ (W2_arg19 m ρ c)
  show StableHlo.after hostOps1 (W2 m ρ c) (Proc.devRef .tc main_arg19) = _
  host_keeps hostOps1
theorem W3_arg20 (c : Dev nD) : W3 m ρ c (Proc.devRef .tc main_arg20) = m ((c : Thread nD τ).loc main_arg20) := by
  refine Eq.trans ?_ (W2_arg20 m ρ c)
  show StableHlo.after hostOps1 (W2 m ρ c) (Proc.devRef .tc main_arg20) = _
  host_keeps hostOps1
theorem W3_arg21 (c : Dev nD) : W3 m ρ c (Proc.devRef .tc main_arg21) = m ((c : Thread nD τ).loc main_arg21) := by
  refine Eq.trans ?_ (W2_arg21 m ρ c)
  show StableHlo.after hostOps1 (W2 m ρ c) (Proc.devRef .tc main_arg21) = _
  host_keeps hostOps1
theorem W3_arg22 (c : Dev nD) : W3 m ρ c (Proc.devRef .tc main_arg22) = m ((c : Thread nD τ).loc main_arg22) := by
  refine Eq.trans ?_ (W2_arg22 m ρ c)
  show StableHlo.after hostOps1 (W2 m ρ c) (Proc.devRef .tc main_arg22) = _
  host_keeps hostOps1
theorem W3_arg23 (c : Dev nD) : W3 m ρ c (Proc.devRef .tc main_arg23) = m ((c : Thread nD τ).loc main_arg23) := by
  refine Eq.trans ?_ (W2_arg23 m ρ c)
  show StableHlo.after hostOps1 (W2 m ρ c) (Proc.devRef .tc main_arg23) = _
  host_keeps hostOps1
theorem W4_arg0 (c : Dev nD) : W4 m ρ c (Proc.devRef .tc main_arg0) = m ((c : Thread nD τ).loc main_arg0) :=
  (W4_of_ne m ρ c main_arg0 (by decide)).trans (W3_arg0 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg18 (c : Dev nD) : W4 m ρ c (Proc.devRef .tc main_arg18) = m ((c : Thread nD τ).loc main_arg18) :=
  (W4_of_ne m ρ c main_arg18 (by decide)).trans (W3_arg18 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W4_arg20 (c : Dev nD) : W4 m ρ c (Proc.devRef .tc main_arg20) = m ((c : Thread nD τ).loc main_arg20) :=
  (W4_of_ne m ρ c main_arg20 (by decide)).trans (W3_arg20 m ρ c)
theorem W4_arg21 (c : Dev nD) : W4 m ρ c (Proc.devRef .tc main_arg21) = m ((c : Thread nD τ).loc main_arg21) :=
  (W4_of_ne m ρ c main_arg21 (by decide)).trans (W3_arg21 m ρ c)
theorem W4_arg22 (c : Dev nD) : W4 m ρ c (Proc.devRef .tc main_arg22) = m ((c : Thread nD τ).loc main_arg22) :=
  (W4_of_ne m ρ c main_arg22 (by decide)).trans (W3_arg22 m ρ c)
theorem W4_arg23 (c : Dev nD) : W4 m ρ c (Proc.devRef .tc main_arg23) = m ((c : Thread nD τ).loc main_arg23) :=
  (W4_of_ne m ρ c main_arg23 (by decide)).trans (W3_arg23 m ρ c)
theorem W5_arg0 (c : Dev nD) : W5 m ρ c (Proc.devRef .tc main_arg0) = m ((c : Thread nD τ).loc main_arg0) := by
  refine Eq.trans ?_ (W4_arg0 m ρ c)
  show StableHlo.after hostOps2 (W4 m ρ c) (Proc.devRef .tc main_arg0) = _
  host_keeps hostOps2
theorem W5_arg18 (c : Dev nD) : W5 m ρ c (Proc.devRef .tc main_arg18) = m ((c : Thread nD τ).loc main_arg18) := by
  refine Eq.trans ?_ (W4_arg18 m ρ c)
  show StableHlo.after hostOps2 (W4 m ρ c) (Proc.devRef .tc main_arg18) = _
  host_keeps hostOps2
theorem W5_arg21 (c : Dev nD) : W5 m ρ c (Proc.devRef .tc main_arg21) = m ((c : Thread nD τ).loc main_arg21) := by
  refine Eq.trans ?_ (W4_arg21 m ρ c)
  show StableHlo.after hostOps2 (W4 m ρ c) (Proc.devRef .tc main_arg21) = _
  host_keeps hostOps2

/-! ## What the first stretch computes -/

theorem W1_v18 (c : Dev nD) : (W1 m ρ c (Proc.devRef .tc main_v18) : S1x128.Idx → Elt F .f32) = shapeCast S1x128 (m ((c : Thread nD τ).loc main_arg12)) shapeCasts_S128_S1x128 := by
  show StableHlo.after hostOps0 (W0 m ρ c) (Proc.devRef .tc main_v18) = _
  after_results
  rfl
theorem W1_v19 (c : Dev nD) : (W1 m ρ c (Proc.devRef .tc main_v19) : S1x128.Idx → Elt F .f32) = shapeCast S1x128 (m ((c : Thread nD τ).loc main_arg13)) shapeCasts_S128_S1x128 := by
  show StableHlo.after hostOps0 (W0 m ρ c) (Proc.devRef .tc main_v19) = _
  after_results
  rfl
theorem W1_v15 (c : Dev nD) : (W1 m ρ c (Proc.devRef .tc main_v15) : S128x128.Idx → Elt F .f32) = extractStridedSlice S128x128 ![0, 0] (m ((c : Thread nD τ).loc main_arg14)) slices_S384x128_S128x128_0_0 := by
  show StableHlo.after hostOps0 (W0 m ρ c) (Proc.devRef .tc main_v15) = _
  after_results
theorem W1_v16 (c : Dev nD) : (W1 m ρ c (Proc.devRef .tc main_v16) : S128x128.Idx → Elt F .f32) = extractStridedSlice S128x128 ![128, 0] (m ((c : Thread nD τ).loc main_arg14)) slices_S384x128_S128x128_128_0 := by
  show StableHlo.after hostOps0 (W0 m ρ c) (Proc.devRef .tc main_v16) = _
  after_results
theorem W1_v17 (c : Dev nD) : (W1 m ρ c (Proc.devRef .tc main_v17) : S128x128.Idx → Elt F .f32) = extractStridedSlice S128x128 ![256, 0] (m ((c : Thread nD τ).loc main_arg14)) slices_S384x128_S128x128_256_0 := by
  show StableHlo.after hostOps0 (W0 m ρ c) (Proc.devRef .tc main_v17) = _
  after_results
/-- The centres' difference: the agent centres gathered at `hi` minus the context centres gathered at `wi`. -/
theorem W1_v14 (c : Dev nD) : (W1 m ρ c (Proc.devRef .tc main_v14) : S524288x2.Idx → Elt F .f32)
    = subf (Host.gather gather_S16384x2_S524288x1_S524288x2_1_0_n_n_0_1_12 (m ((c : Thread nD τ).loc main_arg2)) (idxCol (m ((c : Thread nD τ).loc main_arg4))))
        (Host.gather gather_S16384x2_S524288x1_S524288x2_1_0_n_n_0_1_12 (m ((c : Thread nD τ).loc main_arg3)) (idxCol (m ((c : Thread nD τ).loc main_arg5)))) := by
  show StableHlo.after hostOps0 (W0 m ρ c) (Proc.devRef .tc main_v14) = _
  after_results_simp
  rfl

/-! ## Through the first region and the second stretch -/

theorem W3_v14 (c : Dev nD) : W3 m ρ c (Proc.devRef .tc main_v14) = W1 m ρ c (Proc.devRef .tc main_v14) := by
  refine Eq.trans ?_ (W2_of_ne m ρ c main_v14 (by decide))
  show StableHlo.after hostOps1 (W2 m ρ c) (Proc.devRef .tc main_v14) = _
  host_keeps hostOps1
theorem W3_v15 (c : Dev nD) : W3 m ρ c (Proc.devRef .tc main_v15) = W1 m ρ c (Proc.devRef .tc main_v15) := by
  refine Eq.trans ?_ (W2_of_ne m ρ c main_v15 (by decide))
  show StableHlo.after hostOps1 (W2 m ρ c) (Proc.devRef .tc main_v15) = _
  host_keeps hostOps1
/-- The agent-side table gathered at `hi`. -/
theorem W3_v27 (c : Dev nD) : (W3 m ρ c (Proc.devRef .tc main_v27) : S524288x128.Idx → Elt F .bf16)
    = Host.gather gather_S16384x128_S524288x1_S524288x128_1_0_n_n_0_1_1128 ((dat0 (V1 m ρ) c).arrAt 7 cfg0.N) (idxCol (m ((c : Thread nD τ).loc main_arg4))) := by
  show StableHlo.after hostOps1 (W2 m ρ c) (Proc.devRef .tc main_v27) = _
  after_results_simp
  rw [W2_arg4 m ρ c, (W2_arr m ρ c 7 : W2 m ρ c (Proc.devRef .tc main_v20_0) = _)]
  rfl
/-- The context-side table gathered at `wi`. -/
theorem W3_v34 (c : Dev nD) : (W3 m ρ c (Proc.devRef .tc main_v34) : S524288x128.Idx → Elt F .bf16)
    = Host.gather gather_S16384x128_S524288x1_S524288x128_1_0_n_n_0_1_1128 ((dat0 (V1 m ρ) c).arrAt 8 cfg0.N) (idxCol (m ((c : Thread nD τ).loc main_arg5))) := by
  show StableHlo.after hostOps1 (W2 m ρ c) (Proc.devRef .tc main_v34) = _
  after_results_simp
  rw [W2_arg5 m ρ c, (W2_arr m ρ c 8 : W2 m ρ c (Proc.devRef .tc main_v20_1) = _)]
  rfl
theorem W3_v35 (c : Dev nD) : (W3 m ρ c (Proc.devRef .tc main_v35) : S1x128.Idx → Elt F .f32) = shapeCast S1x128 (m ((c : Thread nD τ).loc main_arg7)) shapeCasts_S128_S1x128 := by
  show StableHlo.after hostOps1 (W2 m ρ c) (Proc.devRef .tc main_v35) = _
  after_results
  rw [W2_arg7 m ρ c]
  rfl
theorem W3_v36 (c : Dev nD) : (W3 m ρ c (Proc.devRef .tc main_v36) : S1x128.Idx → Elt F .f32) = shapeCast S1x128 (m ((c : Thread nD τ).loc main_arg9)) shapeCasts_S128_S1x128 := by
  show StableHlo.after hostOps1 (W2 m ρ c) (Proc.devRef .tc main_v36) = _
  after_results
  rw [W2_arg9 m ρ c]
  rfl
theorem W3_v37 (c : Dev nD) : (W3 m ρ c (Proc.devRef .tc main_v37) : S1x128.Idx → Elt F .f32) = shapeCast S1x128 (m ((c : Thread nD τ).loc main_arg10)) shapeCasts_S128_S1x128 := by
  show StableHlo.after hostOps1 (W2 m ρ c) (Proc.devRef .tc main_v37) = _
  after_results
  rw [W2_arg10 m ρ c]
  rfl
theorem W3_v38 (c : Dev nD) : (W3 m ρ c (Proc.devRef .tc main_v38) : S1x128.Idx → Elt F .f32) = shapeCast S1x128 (m ((c : Thread nD τ).loc main_arg15)) shapeCasts_S128_S1x128 := by
  show StableHlo.after hostOps1 (W2 m ρ c) (Proc.devRef .tc main_v38) = _
  after_results
  rw [W2_arg15 m ρ c]
  rfl
theorem W3_v39 (c : Dev nD) : (W3 m ρ c (Proc.devRef .tc main_v39) : S1x128.Idx → Elt F .f32) = shapeCast S1x128 (m ((c : Thread nD τ).loc main_arg16)) shapeCasts_S128_S1x128 := by
  show StableHlo.after hostOps1 (W2 m ρ c) (Proc.devRef .tc main_v39) = _
  after_results
  rw [W2_arg16 m ρ c]
  rfl

/-! ## Through the second region and the third stretch -/

/-- The messages scattered onto zero at `hi`. -/
theorem W5_v48 (c : Dev nD) : (W5 m ρ c (Proc.devRef .tc main_v48) : S16384x128.Idx → Elt F .f32)
    = Host.scatterAdd scatter_S16384x128_S524288x1_S524288x128_1_0_0_1
        (broadcastInDim S16384x128 ![] bcast_S_S16384x128 (constant S_ .f32 0x00000000#32)) (idxCol (m ((c : Thread nD τ).loc main_arg4)))
        ((dat1 (V3 m ρ) c).arrAt 12 cfg1.N) := by
  show StableHlo.after hostOps2 (W4 m ρ c) (Proc.devRef .tc main_v48) = _
  after_results_simp
  rw [W4_arg4 m ρ c, (W4_arr m ρ c 12 : W4 m ρ c (Proc.devRef .tc main_v40) = _)]
  rfl
theorem W5_v49 (c : Dev nD) : (W5 m ρ c (Proc.devRef .tc main_v49) : S1x128.Idx → Elt F .f32) = shapeCast S1x128 (m ((c : Thread nD τ).loc main_arg19)) shapeCasts_S128_S1x128 := by
  show StableHlo.after hostOps2 (W4 m ρ c) (Proc.devRef .tc main_v49) = _
  after_results
  rw [W4_arg19 m ρ c]
  rfl
theorem W5_v50 (c : Dev nD) : (W5 m ρ c (Proc.devRef .tc main_v50) : S1x128.Idx → Elt F .f32) = shapeCast S1x128 (m ((c : Thread nD τ).loc main_arg20)) shapeCasts_S128_S1x128 := by
  show StableHlo.after hostOps2 (W4 m ρ c) (Proc.devRef .tc main_v50) = _
  after_results
  rw [W4_arg20 m ρ c]
  rfl
theorem W5_v51 (c : Dev nD) : (W5 m ρ c (Proc.devRef .tc main_v51) : S1x128.Idx → Elt F .f32) = shapeCast S1x128 (m ((c : Thread nD τ).loc main_arg22)) shapeCasts_S128_S1x128 := by
  show StableHlo.after hostOps2 (W4 m ρ c) (Proc.devRef .tc main_v51) = _
  after_results
  rw [W4_arg22 m ρ c]
  rfl
theorem W5_v52 (c : Dev nD) : (W5 m ρ c (Proc.devRef .tc main_v52) : S1x128.Idx → Elt F .f32) = shapeCast S1x128 (m ((c : Thread nD τ).loc main_arg23)) shapeCasts_S128_S1x128 := by
  show StableHlo.after hostOps2 (W4 m ρ c) (Proc.devRef .tc main_v52) = _
  after_results
  rw [W4_arg23 m ρ c]
  rfl

end Cert.KernelIdeal.HostValue

end
-- ==== Proof.LibRows.lean ====
/-
  ROW-WISE OPERATIONS ON A TABLE, AT THE EXTENDED REALS.

  A table of `n` rows whose operations act row by row: a product with a weight matrix (`mv`), a normalisation of a
  row of 128 channels by its own mean and variance, scaled and shifted (`gn`: mean and variance by division by 128,
  the variance offset by the word 0x3727C5AC, the reciprocal square root), a maximum with zero (`relu`).
  The module names those row functions and reads the block-level vector operations of a kernel body at a row: if a
  block's rows are known, the rows of the operation's result are the row function of them —
  `rowAt_matmul` (a `tpu.matmul` of plain dimension numbers into the zero accumulator), `rowAt_gnBlock` (the
  normalisation spelt with a lane reduction, a cast to a column, a division, two broadcasts: `meanCol`, `devBlock`,
  `varCol`, `gnBlock`), `rowAt_relu`, `rowAt_broadcastRow`, and the column forms `laneSum_apply`,
  `shapeCast_a_a1_apply` ([n] → [n, 1]), `broadcastTo_a1_ab_apply` ([n, 1] → [n, b]).
  All extents are generic; nothing enumerates an index range.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Rows

open Idealize.ShloMosaic Idealize.ShloMosaic.ValueIdx

/-! ## Row functions -/

/-- The divisor of a mean over 128 channels, as the word both programs carry. -/
abbrev c128 : EReal := Ideal.ofBits .f32 0x43000000#32
/-- The variance's offset, as the word both programs carry. -/
abbrev eps : EReal := Ideal.ofBits .f32 0x3727C5AC#32

/-- Row `p` of a table. -/
def rowAt {n m : Nat} (X : (⟨2, ![n, m]⟩ : Shape).Idx → EReal) (p : Fin n) : Fin m → EReal := fun k => X (ix2 p k)

/-- A vector of length `m` as a function of its coordinate. -/
def vecOf {m : Nat} (x : (⟨1, ![m]⟩ : Shape).Idx → EReal) : Fin m → EReal := fun k => x (ix1 k)

/-- A row times a matrix. -/
def mv {K N : Nat} (x : Fin K → EReal) (W : (⟨2, ![K, N]⟩ : Shape).Idx → EReal) : Fin N → EReal :=
  fun j => ∑ k : Fin K, x k * W (ix2 k j)

/-- A row's mean over its 128 channels. -/
def mean (x : Fin 128 → EReal) : EReal := Ideal.div (∑ k : Fin 128, x k) c128

/-- A row normalised by its own mean and variance, scaled and shifted channel by channel. -/
def gn (x g b : Fin 128 → EReal) : Fin 128 → EReal := fun j =>
  (x j - mean x) * Ideal.rsqrt (Ideal.div (∑ k : Fin 128, (x k - mean x) * (x k - mean x)) c128 + eps) * g j + b j

/-- The maximum with zero, channel by channel. -/
def relu {m : Nat} (x : Fin m → EReal) : Fin m → EReal := fun j => max (x j) 0

/-! ## Elementwise operations at a row (definitional) -/

theorem rowAt_apply {n m : Nat} (X : (⟨2, ![n, m]⟩ : Shape).Idx → EReal) (p : Fin n) (k : Fin m) :
    rowAt X p k = X (ix2 p k) := rfl

theorem rowAt_addf {n m : Nat} (X Y : FVec Ideal ⟨2, ![n, m]⟩ .f32) (p : Fin n) :
    rowAt (addf X Y) p = fun k => rowAt X p k + rowAt Y p k := rfl

theorem rowAt_truncf {n m : Nat} {φ ψ : FTy} (X : FVec Ideal ⟨2, ![n, m]⟩ φ) (h : ψ.bits < φ.bits) (p : Fin n) :
    rowAt (truncf ψ X h : FVec Ideal ⟨2, ![n, m]⟩ ψ) p = rowAt X p := rfl

theorem rowAt_extf {n m : Nat} {φ ψ : FTy} (X : FVec Ideal ⟨2, ![n, m]⟩ φ) (h : φ.bits < ψ.bits) (p : Fin n) :
    rowAt (extf ψ X h : FVec Ideal ⟨2, ![n, m]⟩ ψ) p = rowAt X p := rfl

/-- A maximum with the zero splat is the row's `relu`. -/
theorem rowAt_relu {n m : Nat} (X : FVec Ideal ⟨2, ![n, m]⟩ .f32) (p : Fin n) :
    rowAt (maximumf X (broadcast ⟨2, ![n, m]⟩ (Scalar.ofBits .f32 0x00000000#32))) p = relu (rowAt X p) := by
  funext k
  show max (X (ix2 p k)) (Ideal.ofBits .f32 0x00000000#32) = max (X (ix2 p k)) 0
  rw [Ideal.ofBits_zero_f32]

/-! ## A matrix product at a row -/

/-- A `tpu.matmul` of an `M × K` block by a `K × N` block into the zero accumulator: row `p` of the result is
    row `p` of the left operand times the right operand. The contraction index is re-indexed by its one coordinate. -/
theorem rowAt_matmul {M K N : Nat} {φ₁ φ₂ : FTy} (d : DotDims ⟨2, ![M, K]⟩ ⟨2, ![K, N]⟩ ⟨2, ![M, N]⟩)
    (hd : d = DotDims.plain M K N) (lhs : FVec Ideal ⟨2, ![M, K]⟩ φ₁) (rhs : FVec Ideal ⟨2, ![K, N]⟩ φ₂) (p : Fin M) :
    rowAt (matmul d none lhs rhs (constant ⟨2, ![M, N]⟩ .f32 0x00000000#32)) p = mv (rowAt lhs p) rhs := by
  subst hd
  funext q
  show FloatOps.matmul (DotDims.plain M K N) none lhs rhs (constant ⟨2, ![M, N]⟩ .f32 0x00000000#32) (ix2 p q)
    = ∑ k : Fin K, lhs (ix2 p k) * rhs (ix2 k q)
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ =>
        show ((DotDims.plain M K N).lhsIdx (ix2 p q) _ 0).val = p.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ =>
        show ((DotDims.plain M K N).rhsIdx (ix2 p q) _ 1).val = q.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The column forms of a row statistic -/

/-- A lane sum of an `n × 128` block at row `p`: the sum of that row. -/
theorem laneSum_apply {n : Nat} (X : FVec Ideal ⟨2, ![n, 128]⟩ .f32)
    (hr : (⟨2, ![n, 128]⟩ : Shape).Reduces [1] ⟨1, ![n]⟩) (p : Fin n) :
    multiReduction .add [1] ⟨1, ![n]⟩ X 0x00000000#32 hr (.inl rfl) rfl (ix1 p) = ∑ k : Fin 128, X (ix2 p k) := by
  refine (Ideal.multiReduction_add_single X 0x00000000#32 hr (.inl rfl) rfl (ix1 p)).trans ?_
  refine Finset.sum_congr rfl fun k _ => congrArg X (funext fun a => Fin.ext ?_)
  match a with
  | ⟨0, _⟩ => rfl
  | ⟨1, _⟩ => rfl

/-- A vector of `n` row statistics cast to a column `[n, 1]` reads, at `(p, u)`, the statistic of row `p`. -/
theorem shapeCast_a_a1_apply {α : Type} {n : Nat} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[n, 1]` broadcast along the channels reads, at `(p, c)`, the column's entry of row `p`. -/
theorem broadcastTo_a1_ab_apply {α : Type} {n b : Nat} (hb1 : b ≠ 1) (v : (⟨2, ![n, 1]⟩ : Shape).Idx → α)
    (h : (⟨2, ![n, 1]⟩ : Shape).Broadcasts ⟨2, ![n, b]⟩) (p : Fin n) (c : Fin b) :
    broadcastTo ⟨2, ![n, b]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- A `[1, m]` block's one row broadcast over `n` rows: every row of the result is that row. -/
theorem rowAt_broadcastRow {n m : Nat} (v : FVec Ideal ⟨2, ![1, m]⟩ .f32)
    (h : (⟨2, ![1, m]⟩ : Shape).Broadcasts ⟨2, ![n, m]⟩) (p : Fin n) :
    rowAt (broadcastTo ⟨2, ![n, m]⟩ v h) p = rowAt v 0 := by
  funext c
  exact broadcastTo_1b_ab_apply v h p c

/-! ## The normalisation of a block's rows -/

section Norm
variable {n : Nat} (X : FVec Ideal ⟨2, ![n, 128]⟩ .f32)
  (hr : (⟨2, ![n, 128]⟩ : Shape).Reduces [1] ⟨1, ![n]⟩) (hc : (⟨1, ![n]⟩ : Shape).ShapeCasts ⟨2, ![n, 1]⟩)
  (hb : (⟨2, ![n, 1]⟩ : Shape).Broadcasts ⟨2, ![n, 128]⟩)

/-- The column of a block's row means: row sums by a lane reduction, made a column, divided by 128. -/
def meanCol : FVec Ideal ⟨2, ![n, 1]⟩ .f32 :=
  divf (shapeCast ⟨2, ![n, 1]⟩ (multiReduction .add [1] ⟨1, ![n]⟩ X 0x00000000#32 hr (.inl rfl) rfl) hc)
    (broadcast ⟨2, ![n, 1]⟩ (Scalar.ofBits .f32 0x43000000#32))

/-- The block's deviation from its rows' means. -/
def devBlock : FVec Ideal ⟨2, ![n, 128]⟩ .f32 := subf X (broadcastTo ⟨2, ![n, 128]⟩ (meanCol X hr hc) hb)

/-- The column of row variances: the mean column of the squared deviation. -/
def varCol : FVec Ideal ⟨2, ![n, 1]⟩ .f32 :=
  divf (shapeCast ⟨2, ![n, 1]⟩ (multiReduction .add [1] ⟨1, ![n]⟩ (mulf (devBlock X hr hc hb) (devBlock X hr hc hb))
      0x00000000#32 hr (.inl rfl) rfl) hc)
    (broadcast ⟨2, ![n, 1]⟩ (Scalar.ofBits .f32 0x43000000#32))

/-- The body's normalisation of an `n × 128` block `X` with scale row `g` and shift row `b`, as the kernels spell it:
    the deviation times the reciprocal square root of the variance plus the offset, scaled and shifted. -/
def gnBlock (g b : FVec Ideal ⟨2, ![1, 128]⟩ .f32) (hg : (⟨2, ![1, 128]⟩ : Shape).Broadcasts ⟨2, ![n, 128]⟩) :
    FVec Ideal ⟨2, ![n, 128]⟩ .f32 :=
  addf (mulf (mulf (devBlock X hr hc hb)
      (broadcastTo ⟨2, ![n, 128]⟩ (rsqrt (addf (varCol X hr hc hb) (broadcast ⟨2, ![n, 1]⟩ (Scalar.ofBits .f32 0x3727C5AC#32)))) hb))
    (broadcastTo ⟨2, ![n, 128]⟩ g hg)) (broadcastTo ⟨2, ![n, 128]⟩ b hg)

theorem meanCol_apply (p : Fin n) : meanCol X hr hc (ix2 p (0 : Fin 1)) = mean (rowAt X p) :=
  congrArg (fun s => Ideal.div s c128) ((shapeCast_a_a1_apply _ hc p 0).trans (laneSum_apply X hr p))

theorem devBlock_apply (p : Fin n) (k : Fin 128) : devBlock X hr hc hb (ix2 p k) = rowAt X p k - mean (rowAt X p) :=
  congrArg (fun s => X (ix2 p k) - s)
    ((broadcastTo_a1_ab_apply (by decide) (meanCol X hr hc) hb p k).trans (meanCol_apply X hr hc p))

theorem varCol_apply (p : Fin n) : varCol X hr hc hb (ix2 p (0 : Fin 1))
    = Ideal.div (∑ k : Fin 128, (rowAt X p k - mean (rowAt X p)) * (rowAt X p k - mean (rowAt X p))) c128 :=
  congrArg (fun s => Ideal.div s c128) (((shapeCast_a_a1_apply _ hc p 0).trans
    (laneSum_apply (mulf (devBlock X hr hc hb) (devBlock X hr hc hb)) hr p)).trans
    (Finset.sum_congr rfl fun k _ => by
      show devBlock X hr hc hb (ix2 p k) * devBlock X hr hc hb (ix2 p k) = _
      rw [devBlock_apply]))

/-- Row `p` of the normalised block is the normalisation of row `p`. -/
theorem rowAt_gnBlock (g b : FVec Ideal ⟨2, ![1, 128]⟩ .f32) (hg : (⟨2, ![1, 128]⟩ : Shape).Broadcasts ⟨2, ![n, 128]⟩)
    (p : Fin n) : rowAt (gnBlock X hr hc hb g b hg) p = gn (rowAt X p) (rowAt g 0) (rowAt b 0) := by
  funext q
  show devBlock X hr hc hb (ix2 p q)
      * broadcastTo ⟨2, ![n, 128]⟩ (rsqrt (addf (varCol X hr hc hb) (broadcast ⟨2, ![n, 1]⟩ (Scalar.ofBits .f32 0x3727C5AC#32)))) hb (ix2 p q)
      * broadcastTo ⟨2, ![n, 128]⟩ g hg (ix2 p q) + broadcastTo ⟨2, ![n, 128]⟩ b hg (ix2 p q) = _
  rw [devBlock_apply, broadcastTo_a1_ab_apply (by decide), broadcastTo_1b_ab_apply, broadcastTo_1b_ab_apply]
  show (rowAt X p q - mean (rowAt X p)) * Ideal.rsqrt (varCol X hr hc hb (ix2 p (0 : Fin 1)) + eps) * g (ix2 (0 : Fin 1) q)
      + b (ix2 (0 : Fin 1) q) = _
  rw [varCol_apply]
  rfl

end Norm

end Cert.Rows

end
-- ==== Proof.KBody0.lean ====
/-
  THE FIRST BODY, ROW BY ROW, AT THE EXTENDED REALS.

  The first body computes two blocks of 2048 rows from its input blocks. One is a plain product: each row of a
  block times a weight matrix. The other is a product, a normalisation of each row by its own mean and variance
  (scaled and shifted), a maximum with zero, and a second product. Changes of format are the identity at the
  extended reals, and a cast of a matrix to its own shape is the identity, so each row of a result is the named row
  function (`Cert.Rows`) of the same row of the input.
-/
import proofs.«148702_j18734647345154_2_alg».proof.Proof.Gen.KernelIdeal.Skeleton
import proofs.«148702_j18734647345154_2_alg».proof.Proof.LibRows

noncomputable section

namespace Cert.KernelIdeal.BodyValue

open Idealize.ShloMosaic Idealize.SL.Sem Cert.KernelIdeal Cert.Rows

/-- The plain product: row `p` of the block is row `p` of the input block times the weight matrix. -/
theorem out0_8_row (x1 : Vec Ideal S2048x128 .f32) (x6 : Vec Ideal S128x128 .f32) (p : Fin 2048) :
    rowAt (Gen.k0_pay1 (F := Ideal) x1 x6) p = mv (rowAt x1 p) x6 := by
  refine (rowAt_matmul (φ₁ := .bf16) (φ₂ := .bf16) dot_S2048x128_S128x128_S2048x128_1_0_0_1_n_n rfl x1
    (shapeCast S128x128 x6 Gen.shapeCasts_S128x128_S128x128) p).trans ?_
  rw [shapeCast_self]

/-- The second block as a structured term: a product, the normalisation, the maximum with zero, a product. -/
theorem k0_pay2_eq (x0 : Vec Ideal S2048x128 .f32) (x2 : Vec Ideal S128x128 .f32) (x3 x4 : Vec Ideal S1x128 .f32)
    (x5 : Vec Ideal S128x128 .f32) :
    Gen.k0_pay2 (F := Ideal) x0 x2 x3 x4 x5
      = truncf .bf16 (matmul (F := Ideal) dot_S2048x128_S128x128_S2048x128_1_0_0_1_n_n none
          (truncf .bf16 (maximumf
            (gnBlock (n := 2048)
              (matmul (F := Ideal) dot_S2048x128_S128x128_S2048x128_1_0_0_1_n_n none
                (truncf .bf16 x0 Gen.bitsLt_bf16_f32) (truncf .bf16 x2 Gen.bitsLt_bf16_f32)
                (constant S2048x128 .f32 0x00000000#32))
              Gen.reduces_S2048x128_S2048 Gen.shapeCasts_S2048_S2048x1 Gen.broadcasts_S2048x1_S2048x128
              (shapeCast S1x128 x3 Gen.shapeCasts_S1x128_S1x128) (shapeCast S1x128 x4 Gen.shapeCasts_S1x128_S1x128)
              Gen.broadcasts_S1x128_S2048x128)
            (broadcast S2048x128 (Scalar.ofBits .f32 0x00000000#32))) Gen.bitsLt_bf16_f32)
          (truncf .bf16 (shapeCast S128x128 x5 Gen.shapeCasts_S128x128_S128x128) Gen.bitsLt_bf16_f32)
          (constant S2048x128 .f32 0x00000000#32))
          Gen.bitsLt_bf16_f32 := rfl

/-- Row `p` of the second block: the row times the first matrix, normalised, cut at zero, times the second matrix. -/
theorem out0_7_row (x0 : Vec Ideal S2048x128 .f32) (x2 : Vec Ideal S128x128 .f32) (x3 x4 : Vec Ideal S1x128 .f32)
    (x5 : Vec Ideal S128x128 .f32) (p : Fin 2048) :
    rowAt (Gen.k0_pay2 (F := Ideal) x0 x2 x3 x4 x5) p
      = mv (relu (gn (mv (rowAt x0 p) x2) (rowAt x3 0) (rowAt x4 0))) x5 := by
  rw [k0_pay2_eq, rowAt_truncf, rowAt_matmul dot_S2048x128_S128x128_S2048x128_1_0_0_1_n_n rfl, rowAt_truncf, rowAt_relu,
    rowAt_gnBlock, rowAt_matmul dot_S2048x128_S128x128_S2048x128_1_0_0_1_n_n rfl, rowAt_truncf,
    shapeCast_self, shapeCast_self, shapeCast_self]
  rfl

end Cert.KernelIdeal.BodyValue

end
-- ==== Proof.KArr0.lean ====
/-
  REGION 0, FROM BLOCKS TO ARRAYS. The first region has 8 points; point `t` reads rows `t · 2048 …` of the agent and
  context features and the whole weight arrays, and writes rows `t · 2048 …` of two per-node tables. Each written block is
  a function of the rows it covers alone, and the 8 blocks tile the 16384 rows, so each table ends as one row-by-row function
  of the arrays the region found: `tabQ` (a node's features through the query layer, then the middle band of the
  384-row matrix) and `tabC` (a node's context features times the last band).
-/
import proofs.«148702_j18734647345154_2_alg».proof.Proof.Patched.KernelIdealFrame
import proofs.«148702_j18734647345154_2_alg».proof.Proof.LibRows
import proofs.«148702_j18734647345154_2_alg».proof.Proof.KBody0
set_option maxRecDepth 16384

noncomputable section

namespace Cert.KernelIdeal.ArrValue

open Cert.KernelIdeal Cert.KernelIdeal.Gen Cert.KernelIdeal.BodyValue Cert.Rows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps, decided once over the grid: a row-blocked window moves with the point, a weight window stays. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- A row of window 0's block at point `t` is row `t · 2048 + p` of its array. -/
theorem row0_0 (c : Dev nD) (t : Fin cfg0.N) (p : Fin 2048) (h : t.val * 2048 + p.val < 16384) :
    rowAt (iblk0 V c 0 t) p = rowAt (n := 16384) (m := 128) (V c main_arg0) ⟨t.val * 2048 + p.val, h⟩ := by
  have e0 := (idx0 t).1
  have e1 := (idx0 t).2.1
  funext k
  show V c main_arg0 (((cfg0.win 0).blk t).view.emb (ix2 p k)) = V c main_arg0 (ix2 ⟨t.val * 2048 + p.val, h⟩ k)
  refine congrArg (V c main_arg0) (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

/-- A row of window 1's block at point `t` is row `t · 2048 + p` of its array. -/
theorem row0_1 (c : Dev nD) (t : Fin cfg0.N) (p : Fin 2048) (h : t.val * 2048 + p.val < 16384) :
    rowAt (iblk0 V c 1 t) p = rowAt (n := 16384) (m := 128) (V c main_arg1) ⟨t.val * 2048 + p.val, h⟩ := by
  have e0 := (idx0 t).2.2.1
  have e1 := (idx0 t).2.2.2.1
  funext k
  show V c main_arg1 (((cfg0.win 1).blk t).view.emb (ix2 p k)) = V c main_arg1 (ix2 ⟨t.val * 2048 + p.val, h⟩ k)
  refine congrArg (V c main_arg1) (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega

/-- Window 2's block is its whole array at every point. -/
theorem whole0_2 (c : Dev nD) (t : Fin cfg0.N) : iblk0 V c 2 t = V c main_arg11 := by
  have e0 := (idx0 t).2.2.2.2.1
  have e1 := (idx0 t).2.2.2.2.2.1
  funext y
  show V c main_arg11 (((cfg0.win 2).blk t).view.emb y) = V c main_arg11 y
  refine congrArg (V c main_arg11) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array at every point. -/
theorem whole0_3 (c : Dev nD) (t : Fin cfg0.N) : iblk0 V c 3 t = V c main_v18 := by
  have e0 := (idx0 t).2.2.2.2.2.2.1
  have e1 := (idx0 t).2.2.2.2.2.2.2.1
  funext y
  show V c main_v18 (((cfg0.win 3).blk t).view.emb y) = V c main_v18 y
  refine congrArg (V c main_v18) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is its whole array at every point. -/
theorem whole0_4 (c : Dev nD) (t : Fin cfg0.N) : iblk0 V c 4 t = V c main_v19 := by
  have e0 := (idx0 t).2.2.2.2.2.2.2.2.1
  have e1 := (idx0 t).2.2.2.2.2.2.2.2.2.1
  funext y
  show V c main_v19 (((cfg0.win 4).blk t).view.emb y) = V c main_v19 y
  refine congrArg (V c main_v19) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem whole0_5 (c : Dev nD) (t : Fin cfg0.N) : iblk0 V c 5 t = V c main_v16 := by
  have e0 := (idx0 t).2.2.2.2.2.2.2.2.2.2.1
  have e1 := (idx0 t).2.2.2.2.2.2.2.2.2.2.2.1
  funext y
  show V c main_v16 (((cfg0.win 5).blk t).view.emb y) = V c main_v16 y
  refine congrArg (V c main_v16) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every point. -/
theorem whole0_6 (c : Dev nD) (t : Fin cfg0.N) : iblk0 V c 6 t = V c main_v17 := by
  have e0 := (idx0 t).2.2.2.2.2.2.2.2.2.2.2.2.1
  have e1 := (idx0 t).2.2.2.2.2.2.2.2.2.2.2.2.2.1
  funext y
  show V c main_v17 (((cfg0.win 6).blk t).view.emb y) = V c main_v17 y
  refine congrArg (V c main_v17) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Where entry `(p, q)` of output window 7's block at point `t` sits in its array. -/
theorem emb0_7 (t : Fin cfg0.N) (p : Fin 2048) (q : Fin 128) (h : t.val * 2048 + p.val < 16384) :
    ((cfg0.win 7).blk t).view.emb (ix2 p q) = (ix2 ⟨t.val * 2048 + p.val, h⟩ q : S16384x128.Idx) := by
  have e0 := (idx0 t).2.2.2.2.2.2.2.2.2.2.2.2.2.2.1
  have e1 := (idx0 t).2.2.2.2.2.2.2.2.2.2.2.2.2.2.2.1
  funext a; apply Fin.ext
  match a with
  | ⟨0, _⟩ => show win0_7.index t (0 : Fin 2) * 2048 + 1 * p.val = t.val * 2048 + p.val; omega
  | ⟨1, _⟩ => show win0_7.index t (1 : Fin 2) * 128 + 1 * q.val = q.val; omega

/-- Where entry `(p, q)` of output window 8's block at point `t` sits in its array. -/
theorem emb0_8 (t : Fin cfg0.N) (p : Fin 2048) (q : Fin 128) (h : t.val * 2048 + p.val < 16384) :
    ((cfg0.win 8).blk t).view.emb (ix2 p q) = (ix2 ⟨t.val * 2048 + p.val, h⟩ q : S16384x128.Idx) := by
  have e0 := (idx0 t).2.2.2.2.2.2.2.2.2.2.2.2.2.2.2.2.1
  have e1 := (idx0 t).2.2.2.2.2.2.2.2.2.2.2.2.2.2.2.2.2
  funext a; apply Fin.ext
  match a with
  | ⟨0, _⟩ => show win0_8.index t (0 : Fin 2) * 2048 + 1 * p.val = t.val * 2048 + p.val; omega
  | ⟨1, _⟩ => show win0_8.index t (1 : Fin 2) * 128 + 1 * q.val = q.val; omega

/-- Row `r` of the agent-side table: the node's features through the query layer, then the middle band. -/
def rowQ (c : Dev nD) (r : Fin 16384) : Fin 128 → EReal :=
  mv (relu (gn (mv (rowAt (n := 16384) (m := 128) (V c main_arg0) r) (V c main_arg11))
    (rowAt (n := 1) (m := 128) (V c main_v18) 0) (rowAt (n := 1) (m := 128) (V c main_v19) 0))) (V c main_v16)

/-- Row `r` of the context-side table: the node's context features times the last band. -/
def rowC (c : Dev nD) (r : Fin 16384) : Fin 128 → EReal :=
  mv (rowAt (n := 16384) (m := 128) (V c main_arg1) r) (V c main_v17)

/-- A table given by its rows, as a function of the index. -/
def ofRows {n m : Nat} (f : Fin n → Fin m → EReal) : (⟨2, ![n, m]⟩ : Shape).Idx → EReal :=
  fun i => f ⟨(i 0).val, idx2_lt0 i⟩ ⟨(i 1).val, idx2_lt1 i⟩

theorem rowAt_ofRows {n m : Nat} (f : Fin n → Fin m → EReal) (r : Fin n) : rowAt (ofRows f) r = f r := rfl

/-- What point `t` writes back into the context-side table is block `t` of `rowC`. -/
theorem flushed0_8_eq (c : Dev nD) (t : Fin cfg0.N) :
    (dat0 (F := Ideal) V c).flushed 8 t = ((cfg0.win 8).blk t).view.read (Elt Ideal) (ofRows (rowC V c)) := by
  have ht : t.val < 8 := t.isLt
  show (cfg0.win 8).cut (grid0.coords t) ((dat0 V c).after 8 t) = _
  rw [after0_8]
  unfold out0_8
  rw [View.canon_unit_zero hz]
  simp only [View.ld_unit_zero (S := S2048x128) hz, View.ld_unit_zero (S := S128x128) hz]
  funext j
  obtain ⟨p, q, rfl⟩ : ∃ (p : Fin 2048) (q : Fin 128), j = ix2 p q := ⟨j 0, j 1, eq_ix2 j⟩
  have h : t.val * 2048 + p.val < 16384 := by have := p.isLt; omega
  show rowAt (k0_pay1 (iblk0 V c 1 t) (iblk0 V c 6 t)) p q = ofRows (rowC V c) (((cfg0.win 8).blk t).view.emb (ix2 p q))
  rw [emb0_8 t p q h, out0_8_row (iblk0 V c 1 t) (iblk0 V c 6 t) p, row0_1 V c t p h, whole0_6 V c t]
  rfl

/-- What point `t` writes back into the agent-side table is block `t` of `rowQ`. -/
theorem flushed0_7_eq (c : Dev nD) (t : Fin cfg0.N) :
    (dat0 (F := Ideal) V c).flushed 7 t = ((cfg0.win 7).blk t).view.read (Elt Ideal) (ofRows (rowQ V c)) := by
  have ht : t.val < 8 := t.isLt
  show (cfg0.win 7).cut (grid0.coords t) ((dat0 V c).after 7 t) = _
  rw [after0_7]
  unfold out0_7
  rw [View.canon_unit_zero hz]
  simp only [View.ld_unit_zero (S := S2048x128) hz, View.ld_unit_zero (S := S128x128) hz, View.ld_unit_zero (S := S1x128) hz]
  funext j
  obtain ⟨p, q, rfl⟩ : ∃ (p : Fin 2048) (q : Fin 128), j = ix2 p q := ⟨j 0, j 1, eq_ix2 j⟩
  have h : t.val * 2048 + p.val < 16384 := by have := p.isLt; omega
  show rowAt (k0_pay2 (iblk0 V c 0 t) (iblk0 V c 2 t) (iblk0 V c 3 t) (iblk0 V c 4 t) (iblk0 V c 5 t)) p q
    = ofRows (rowQ V c) (((cfg0.win 7).blk t).view.emb (ix2 p q))
  rw [emb0_7 t p q h, out0_7_row (iblk0 V c 0 t) (iblk0 V c 2 t) (iblk0 V c 3 t) (iblk0 V c 4 t) (iblk0 V c 5 t) p,
    row0_0 V c t p h, whole0_2 V c t, whole0_3 V c t, whole0_4 V c t, whole0_5 V c t]
  rfl

/-- An index of the array is in point `t`'s block of output window 7 iff each coordinate is in the block's range. -/
theorem mem_blk0_7 (t : Fin cfg0.N) (i : S16384x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v20_0).slice (win0_7.rect t)).set ↔ _
  rw [View.set_slice_whole, Rect.mem_set_unit]
  exact Iff.rfl

/-- Every index of the array is in the block of the point that its row falls under: row `r` under point `r / 2048`. -/
theorem cover0_7_all (i : S16384x128.Idx) :
    ∃ t : Fin cfg0.N, (cfg0.win 7).flush t = true ∧ i ∈ ((cfg0.win 7).blk t).view.set := by
  have hi0 : (i 0).val < 16384 := idx2_lt0 i
  have hi1 : (i 1).val < 128 := idx2_lt1 i
  have hq : (i 0).val / 2048 < 8 := by omega
  refine ⟨⟨(i 0).val / 2048, hq⟩, flush0_7 _, ?_⟩
  rw [mem_blk0_7]
  have e0 := (idx0 ⟨(i 0).val / 2048, hq⟩).2.2.2.2.2.2.2.2.2.2.2.2.2.2.1
  have e1 := (idx0 ⟨(i 0).val / 2048, hq⟩).2.2.2.2.2.2.2.2.2.2.2.2.2.2.2.1
  intro a
  match a with
  | ⟨0, _⟩ =>
    show win0_7.index ⟨(i 0).val / 2048, hq⟩ (0 : Fin 2) * 2048 ≤ (i 0).val
      ∧ (i 0).val < win0_7.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, hq⟩ (1 : Fin 2) * 128 ≤ (i 1).val
      ∧ (i 1).val < win0_7.index ⟨(i 0).val / 2048, hq⟩ (1 : Fin 2) * 128 + 128
    rw [e1]; omega

/-- An index of the array is in point `t`'s block of output window 8 iff each coordinate is in the block's range. -/
theorem mem_blk0_8 (t : Fin cfg0.N) (i : S16384x128.Idx) :
    i ∈ ((cfg0.win 8).blk t).view.set ↔ ∀ a : Fin 2, win0_8.index t a * S2048x128.size a ≤ (i a).val
      ∧ (i a).val < win0_8.index t a * S2048x128.size a + S2048x128.size a := by
  show i ∈ ((View.whole main_v20_1).slice (win0_8.rect t)).set ↔ _
  rw [View.set_slice_whole, Rect.mem_set_unit]
  exact Iff.rfl

/-- Every index of the array is in the block of the point that its row falls under: row `r` under point `r / 2048`. -/
theorem cover0_8_all (i : S16384x128.Idx) :
    ∃ t : Fin cfg0.N, (cfg0.win 8).flush t = true ∧ i ∈ ((cfg0.win 8).blk t).view.set := by
  have hi0 : (i 0).val < 16384 := idx2_lt0 i
  have hi1 : (i 1).val < 128 := idx2_lt1 i
  have hq : (i 0).val / 2048 < 8 := by omega
  refine ⟨⟨(i 0).val / 2048, hq⟩, flush0_8 _, ?_⟩
  rw [mem_blk0_8]
  have e0 := (idx0 ⟨(i 0).val / 2048, hq⟩).2.2.2.2.2.2.2.2.2.2.2.2.2.2.2.2.1
  have e1 := (idx0 ⟨(i 0).val / 2048, hq⟩).2.2.2.2.2.2.2.2.2.2.2.2.2.2.2.2.2
  intro a
  match a with
  | ⟨0, _⟩ =>
    show win0_8.index ⟨(i 0).val / 2048, hq⟩ (0 : Fin 2) * 2048 ≤ (i 0).val
      ∧ (i 0).val < win0_8.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win0_8.index ⟨(i 0).val / 2048, hq⟩ (1 : Fin 2) * 128 ≤ (i 1).val
      ∧ (i 1).val < win0_8.index ⟨(i 0).val / 2048, hq⟩ (1 : Fin 2) * 128 + 128
    rw [e1]; omega

/-- THE AGENT-SIDE TABLE after region 0, row by row. -/
theorem tabQ_eq (c : Dev nD) : (dat0 (F := Ideal) V c).arrAt 7 cfg0.N = ofRows (rowQ V c) :=
  (dat0 V c).arrAt_eq_of_cover 7 (ofRows (rowQ V c)) (fun t _ => flushed0_7_eq V c t) (cover0_7_all)

/-- THE CONTEXT-SIDE TABLE after region 0, row by row. -/
theorem tabC_eq (c : Dev nD) : (dat0 (F := Ideal) V c).arrAt 8 cfg0.N = ofRows (rowC V c) :=
  (dat0 V c).arrAt_eq_of_cover 8 (ofRows (rowC V c)) (fun t _ => flushed0_8_eq V c t) (cover0_8_all)

end Cert.KernelIdeal.ArrValue

end
-- ==== Proof.KBody1.lean ====
/-
  THE SECOND BODY, ROW BY ROW, AT THE EXTENDED REALS.

  The second body computes one block of 4096 rows: a product of two-channel rows with a 2 × 128 matrix plus a
  shift row, a maximum with zero, a product, the normalisation of each row by its own mean and variance (scaled and
  shifted), a maximum with zero, a product to which two further blocks are added, a second normalisation, a
  maximum with zero, and a last product. Changes of format and casts of a block to its own shape are the identity
  at the extended reals, so each row of the result is the named row function (`Cert.Rows`) of the same rows of the
  inputs.
-/
import proofs.«148702_j18734647345154_2_alg».proof.Proof.Gen.KernelIdeal.Skeleton
import proofs.«148702_j18734647345154_2_alg».proof.Proof.LibRows

noncomputable section

namespace Cert.KernelIdeal.BodyValue

open Idealize.ShloMosaic Idealize.SL.Sem Cert.KernelIdeal Cert.Rows

/-- The block as a structured term: the pieces of the two normalisations, which the body computes in parts, put
    together. -/
theorem k1_body_eq (x0 : Vec Ideal S4096x2 .f32) (x1 x2 : Vec Ideal S4096x128 .bf16) (x3 : Vec Ideal S2x128 .f32)
    (x4 : Vec Ideal S1x128 .f32) (x5 : Vec Ideal S128x128 .f32) (x6 x7 : Vec Ideal S1x128 .f32) (x8 : Vec Ideal S128x128 .f32)
    (x9 x10 : Vec Ideal S1x128 .f32) (x11 : Vec Ideal S128x128 .f32) :
    Gen.k1_pay1 (F := Ideal) (Gen.k1_pay5 (Gen.k1_pay2 x7) (Gen.k1_pay3 x0 x3 x4 x5) (Gen.k1_pay4 x6) x8 x1 x2 x9)
      (Gen.k1_pay6 x10) x11
      = matmul (F := Ideal) dot_S4096x128_S128x128_S4096x128_1_0_0_1_n_n none
        (truncf .bf16 (maximumf
          (gnBlock (n := 4096)
            (addf (addf
                (matmul (F := Ideal) dot_S4096x128_S128x128_S4096x128_1_0_0_1_n_n none
                  (truncf .bf16 (maximumf
                  (gnBlock (n := 4096)
                    (matmul (F := Ideal) dot_S4096x128_S128x128_S4096x128_1_0_0_1_n_n none
                      (truncf .bf16 (maximumf
                        (addf (matmul (F := Ideal) dot_S4096x2_S2x128_S4096x128_1_0_0_1_n_n none
                          (truncf .bf16 (shapeCast S4096x2 x0 Gen.shapeCasts_S4096x2_S4096x2) Gen.bitsLt_bf16_f32) (truncf .bf16 x3 Gen.bitsLt_bf16_f32) (constant S4096x128 .f32 0x00000000#32))
                          (broadcastTo S4096x128 (shapeCast S1x128 x4 Gen.shapeCasts_S1x128_S1x128) Gen.broadcasts_S1x128_S4096x128))
                        (broadcast S4096x128 (Scalar.ofBits .f32 0x00000000#32))) Gen.bitsLt_bf16_f32)
                      (truncf .bf16 x5 Gen.bitsLt_bf16_f32) (constant S4096x128 .f32 0x00000000#32))
                    Gen.reduces_S4096x128_S4096 Gen.shapeCasts_S4096_S4096x1 Gen.broadcasts_S4096x1_S4096x128
                    (shapeCast S1x128 x6 Gen.shapeCasts_S1x128_S1x128) (shapeCast S1x128 x7 Gen.shapeCasts_S1x128_S1x128) Gen.broadcasts_S1x128_S4096x128)
                  (broadcast S4096x128 (Scalar.ofBits .f32 0x00000000#32))) Gen.bitsLt_bf16_f32)
                  (truncf .bf16 (shapeCast S128x128 x8 Gen.shapeCasts_S128x128_S128x128) Gen.bitsLt_bf16_f32) (constant S4096x128 .f32 0x00000000#32))
                (extf .f32 (shapeCast S4096x128 x1 Gen.shapeCasts_S4096x128_S4096x128) Gen.bitsLt_bf16_f32))
              (extf .f32 (shapeCast S4096x128 x2 Gen.shapeCasts_S4096x128_S4096x128) Gen.bitsLt_bf16_f32))
            Gen.reduces_S4096x128_S4096 Gen.shapeCasts_S4096_S4096x1 Gen.broadcasts_S4096x1_S4096x128
            (shapeCast S1x128 x9 Gen.shapeCasts_S1x128_S1x128) (shapeCast S1x128 x10 Gen.shapeCasts_S1x128_S1x128) Gen.broadcasts_S1x128_S4096x128)
          (broadcast S4096x128 (Scalar.ofBits .f32 0x00000000#32))) Gen.bitsLt_bf16_f32)
        (truncf .bf16 x11 Gen.bitsLt_bf16_f32) (constant S4096x128 .f32 0x00000000#32) := rfl

/-- Row `p` of the block. -/
theorem out1_12_row (x0 : Vec Ideal S4096x2 .f32) (x1 x2 : Vec Ideal S4096x128 .bf16) (x3 : Vec Ideal S2x128 .f32)
    (x4 : Vec Ideal S1x128 .f32) (x5 : Vec Ideal S128x128 .f32) (x6 x7 : Vec Ideal S1x128 .f32) (x8 : Vec Ideal S128x128 .f32)
    (x9 x10 : Vec Ideal S1x128 .f32) (x11 : Vec Ideal S128x128 .f32) (p : Fin 4096) :
    rowAt (Gen.k1_pay1 (F := Ideal) (Gen.k1_pay5 (Gen.k1_pay2 x7) (Gen.k1_pay3 x0 x3 x4 x5) (Gen.k1_pay4 x6) x8 x1 x2 x9)
      (Gen.k1_pay6 x10) x11) p
      = mv (relu (gn (fun j => mv (relu (gn (mv (relu fun j => mv (rowAt x0 p) x3 j + rowAt x4 0 j) x5) (rowAt x6 0) (rowAt x7 0))) x8 j
            + rowAt x1 p j + rowAt x2 p j) (rowAt x9 0) (rowAt x10 0))) x11 := by
  rw [k1_body_eq, rowAt_matmul dot_S4096x128_S128x128_S4096x128_1_0_0_1_n_n rfl, rowAt_truncf, rowAt_relu, rowAt_gnBlock, rowAt_addf, rowAt_addf,
    rowAt_matmul dot_S4096x128_S128x128_S4096x128_1_0_0_1_n_n rfl, rowAt_truncf, rowAt_relu, rowAt_gnBlock,
    rowAt_matmul dot_S4096x128_S128x128_S4096x128_1_0_0_1_n_n rfl, rowAt_truncf, rowAt_relu, rowAt_addf,
    rowAt_matmul dot_S4096x2_S2x128_S4096x128_1_0_0_1_n_n rfl, rowAt_truncf, rowAt_broadcastRow, rowAt_extf, rowAt_extf,
    shapeCast_self, shapeCast_self, shapeCast_self, shapeCast_self, shapeCast_self, shapeCast_self, shapeCast_self,
    shapeCast_self, shapeCast_self]
  rfl

end Cert.KernelIdeal.BodyValue

end
-- ==== Proof.KArr1.lean ====
/-
  REGION 1, FROM BLOCKS TO THE MESSAGES. The second region has 128 points; point `t` reads rows `t · 4096 …` of the
  centres' differences and of the two gathered tables, and the whole weight arrays, and writes rows `t · 4096 …` of the
  message table. Each written block is a function of the rows it covers alone and the 128 blocks tile the 524288 edge rows:
  the message table ends as one row-by-row function (`rowMsg`) of the arrays the region found.
-/
import proofs.«148702_j18734647345154_2_alg».proof.Proof.Patched.KernelIdealFrame
import proofs.«148702_j18734647345154_2_alg».proof.Proof.LibRows
import proofs.«148702_j18734647345154_2_alg».proof.Proof.KBody1
import proofs.«148702_j18734647345154_2_alg».proof.Proof.KArr0
set_option maxRecDepth 16384

noncomputable section

namespace Cert.KernelIdeal.ArrValue

open Cert.KernelIdeal Cert.KernelIdeal.Gen Cert.KernelIdeal.BodyValue Cert.Rows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided once over the grid: a row-blocked window moves with the point, a weight window stays. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = t.val
    ∧ win1_12.index t (1 : Fin 2) = 0 :=
  (by decide +kernel : ∀ t : Fin grid1.N, _)

/-- A row of window 0's block at point `t` is row `t · 4096 + p` of its array. -/
theorem row1_0 (c : Dev nD) (t : Fin cfg1.N) (p : Fin 4096) (h : t.val * 4096 + p.val < 524288) :
    rowAt (iblk1 V c 0 t) p = rowAt (n := 524288) (m := 2) (V c main_v14) ⟨t.val * 4096 + p.val, h⟩ := by
  have e0 := (idx1 t).1
  have e1 := (idx1 t).2.1
  funext k
  show V c main_v14 (((cfg1.win 0).blk t).view.emb (ix2 p k)) = V c main_v14 (ix2 ⟨t.val * 4096 + p.val, h⟩ k)
  refine congrArg (V c main_v14) (funext fun a => Fin.ext ?_)
  match a with
  | ⟨0, _⟩ => show win1_0.index t (0 : Fin 2) * 4096 + 1 * p.val = t.val * 4096 + p.val; omega
  | ⟨1, _⟩ => show win1_0.index t (1 : Fin 2) * 2 + 1 * k.val = k.val; omega

/-- A row of window 1's block at point `t` is row `t · 4096 + p` of its array. -/
theorem row1_1 (c : Dev nD) (t : Fin cfg1.N) (p : Fin 4096) (h : t.val * 4096 + p.val < 524288) :
    rowAt (iblk1 V c 1 t) p = rowAt (n := 524288) (m := 128) (V c main_v27) ⟨t.val * 4096 + p.val, h⟩ := by
  have e0 := (idx1 t).2.2.1
  have e1 := (idx1 t).2.2.2.1
  funext k
  show V c main_v27 (((cfg1.win 1).blk t).view.emb (ix2 p k)) = V c main_v27 (ix2 ⟨t.val * 4096 + p.val, h⟩ k)
  refine congrArg (V c main_v27) (funext fun a => Fin.ext ?_)
  match a with
  | ⟨0, _⟩ => show win1_1.index t (0 : Fin 2) * 4096 + 1 * p.val = t.val * 4096 + p.val; omega
  | ⟨1, _⟩ => show win1_1.index t (1 : Fin 2) * 128 + 1 * k.val = k.val; omega

/-- A row of window 2's block at point `t` is row `t · 4096 + p` of its array. -/
theorem row1_2 (c : Dev nD) (t : Fin cfg1.N) (p : Fin 4096) (h : t.val * 4096 + p.val < 524288) :
    rowAt (iblk1 V c 2 t) p = rowAt (n := 524288) (m := 128) (V c main_v34) ⟨t.val * 4096 + p.val, h⟩ := by
  have e0 := (idx1 t).2.2.2.2.1
  have e1 := (idx1 t).2.2.2.2.2.1
  funext k
  show V c main_v34 (((cfg1.win 2).blk t).view.emb (ix2 p k)) = V c main_v34 (ix2 ⟨t.val * 4096 + p.val, h⟩ k)
  refine congrArg (V c main_v34) (funext fun a => Fin.ext ?_)
  match a with
  | ⟨0, _⟩ => show win1_2.index t (0 : Fin 2) * 4096 + 1 * p.val = t.val * 4096 + p.val; omega
  | ⟨1, _⟩ => show win1_2.index t (1 : Fin 2) * 128 + 1 * k.val = k.val; omega

/-- Window 3's block is its whole array at every point. -/
theorem whole1_3 (c : Dev nD) (t : Fin cfg1.N) : iblk1 V c 3 t = V c main_arg6 := by
  have e0 := (idx1 t).2.2.2.2.2.2.1
  have e1 := (idx1 t).2.2.2.2.2.2.2.1
  funext y
  show V c main_arg6 (((cfg1.win 3).blk t).view.emb y) = V c main_arg6 y
  refine congrArg (V c main_arg6) (funext fun a => Fin.ext ?_)
  match a with
  | ⟨0, _⟩ => show win1_3.index t (0 : Fin 2) * 2 + 1 * (y 0).val = (y 0).val; omega
  | ⟨1, _⟩ => show win1_3.index t (1 : Fin 2) * 128 + 1 * (y 1).val = (y 1).val; omega

/-- Window 4's block is its whole array at every point. -/
theorem whole1_4 (c : Dev nD) (t : Fin cfg1.N) : iblk1 V c 4 t = V c main_v35 := by
  have e0 := (idx1 t).2.2.2.2.2.2.2.2.1
  have e1 := (idx1 t).2.2.2.2.2.2.2.2.2.1
  funext y
  show V c main_v35 (((cfg1.win 4).blk t).view.emb y) = V c main_v35 y
  refine congrArg (V c main_v35) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array at every point. -/
theorem whole1_5 (c : Dev nD) (t : Fin cfg1.N) : iblk1 V c 5 t = V c main_arg8 := by
  have e0 := (idx1 t).2.2.2.2.2.2.2.2.2.2.1
  have e1 := (idx1 t).2.2.2.2.2.2.2.2.2.2.2.1
  funext y
  show V c main_arg8 (((cfg1.win 5).blk t).view.emb y) = V c main_arg8 y
  refine congrArg (V c main_arg8) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block is its whole array at every point. -/
theorem whole1_6 (c : Dev nD) (t : Fin cfg1.N) : iblk1 V c 6 t = V c main_v36 := by
  have e0 := (idx1 t).2.2.2.2.2.2.2.2.2.2.2.2.1
  have e1 := (idx1 t).2.2.2.2.2.2.2.2.2.2.2.2.2.1
  funext y
  show V c main_v36 (((cfg1.win 6).blk t).view.emb y) = V c main_v36 y
  refine congrArg (V c main_v36) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block is its whole array at every point. -/
theorem whole1_7 (c : Dev nD) (t : Fin cfg1.N) : iblk1 V c 7 t = V c main_v37 := by
  have e0 := (idx1 t).2.2.2.2.2.2.2.2.2.2.2.2.2.2.1
  have e1 := (idx1 t).2.2.2.2.2.2.2.2.2.2.2.2.2.2.2.1
  funext y
  show V c main_v37 (((cfg1.win 7).blk t).view.emb y) = V c main_v37 y
  refine congrArg (V c main_v37) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8's block is its whole array at every point. -/
theorem whole1_8 (c : Dev nD) (t : Fin cfg1.N) : iblk1 V c 8 t = V c main_v15 := by
  have e0 := (idx1 t).2.2.2.2.2.2.2.2.2.2.2.2.2.2.2.2.1
  have e1 := (idx1 t).2.2.2.2.2.2.2.2.2.2.2.2.2.2.2.2.2.1
  funext y
  show V c main_v15 (((cfg1.win 8).blk t).view.emb y) = V c main_v15 y
  refine congrArg (V c main_v15) (funext fun a => Fin.ext ?_)
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Window 9's block is its whole array at every point. -/
theorem whole1_9 (c : Dev nD) (t : Fin cfg1.N) : iblk1 V c 9 t = V c main_v38 := by
  have e0 := (idx1 t).2.2.2.2.2.2.2.2.2.2.2.2.2.2.2.2.2.2.1
  have e1 := (idx1 t).2.2.2.2.2.2.2.2.2.2.2.2.2.2.2.2.2.2.2.1
  funext y
  show V c main_v38 (((cfg1.win 9).blk t).view.emb y) = V c main_v38 y
  refine congrArg (V c main_v38) (funext fun a => Fin.ext ?_)
  match a with
  | ⟨0, _⟩ => show win1_9.index t (0 : Fin 2) * 1 + 1 * (y 0).val = (y 0).val; omega
  | ⟨1, _⟩ => show win1_9.index t (1 : Fin 2) * 128 + 1 * (y 1).val = (y 1).val; omega

/-- Window 10's block is its whole array at every point. -/
theorem whole1_10 (c : Dev nD) (t : Fin cfg1.N) : iblk1 V c 10 t = V c main_v39 := by
  have e0 := (idx1 t).2.2.2.2.2.2.2.2.2.2.2.2.2.2.2.2.2.2.2.2.1
  have e1 := (idx1 t).2.2.2.2.2.2.2.2.2.2.2.2.2.2.2.2.2.2.2.2.2.1
  funext y
  show V c main_v39 (((cfg1.win 10).blk t).view.emb y) = V c main_v39 y
  refine congrArg (V c main_v39) (funext fun a => Fin.ext ?_)
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- Window 11's block is its whole array at every point. -/
theorem whole1_11 (c : Dev nD) (t : Fin cfg1.N) : iblk1 V c 11 t = V c main_arg17 := by
  have e0 := (idx1 t).2.2.2.2.2.2.2.2.2.2.2.2.2.2.2.2.2.2.2.2.2.2.1
  have e1 := (idx1 t).2.2.2.2.2.2.2.2.2.2.2.2.2.2.2.2.2.2.2.2.2.2.2.1
  funext y
  show V c main_arg17 (((cfg1.win 11).blk t).view.emb y) = V c main_arg17 y
  refine congrArg (V c main_arg17) (funext fun a => Fin.ext ?_)
  match a with
  | ⟨0, _⟩ => show win1_11.index t (0 : Fin 2) * 128 + 1 * (y 0).val = (y 0).val; omega
  | ⟨1, _⟩ => show win1_11.index t (1 : Fin 2) * 128 + 1 * (y 1).val = (y 1).val; omega

/-- Where entry `(p, q)` of output window 12's block at point `t` sits in its array. -/
theorem emb1_12 (t : Fin cfg1.N) (p : Fin 4096) (q : Fin 128) (h : t.val * 4096 + p.val < 524288) :
    ((cfg1.win 12).blk t).view.emb (ix2 p q) = (ix2 ⟨t.val * 4096 + p.val, h⟩ q : S524288x128.Idx) := by
  have e0 := (idx1 t).2.2.2.2.2.2.2.2.2.2.2.2.2.2.2.2.2.2.2.2.2.2.2.2.1
  have e1 := (idx1 t).2.2.2.2.2.2.2.2.2.2.2.2.2.2.2.2.2.2.2.2.2.2.2.2.2
  funext a; apply Fin.ext
  match a with
  | ⟨0, _⟩ => show win1_12.index t (0 : Fin 2) * 4096 + 1 * p.val = t.val * 4096 + p.val; omega
  | ⟨1, _⟩ => show win1_12.index t (1 : Fin 2) * 128 + 1 * q.val = q.val; omega

/-- Row `e` of the message table: the centres' difference through the biased layer and the normalised layer, times the
    first band, plus the two gathered rows, normalised and cut at zero, times the last matrix. -/
def rowMsg (c : Dev nD) (e : Fin 524288) : Fin 128 → EReal :=
  mv (relu (gn (fun j => mv (relu (gn (mv (relu fun j => mv (rowAt (n := 524288) (m := 2) (V c main_v14) e) (V c main_arg6) j
        + rowAt (n := 1) (m := 128) (V c main_v35) 0 j) (V c main_arg8)) (rowAt (n := 1) (m := 128) (V c main_v36) 0) (rowAt (n := 1) (m := 128) (V c main_v37) 0))) (V c main_v15) j
      + rowAt (n := 524288) (m := 128) (V c main_v27) e j + rowAt (n := 524288) (m := 128) (V c main_v34) e j)
    (rowAt (n := 1) (m := 128) (V c main_v38) 0) (rowAt (n := 1) (m := 128) (V c main_v39) 0))) (V c main_arg17)

/-- What point `t` writes back into the message table is block `t` of `rowMsg`. -/
theorem flushed1_12_eq (c : Dev nD) (t : Fin cfg1.N) :
    (dat1 (F := Ideal) V c).flushed 12 t = ((cfg1.win 12).blk t).view.read (Elt Ideal) (ofRows (rowMsg V c)) := by
  have ht : t.val < 128 := t.isLt
  show (cfg1.win 12).cut (grid1.coords t) ((dat1 V c).after 12 t) = _
  rw [after1_12]
  unfold out1_12
  rw [View.canon_unit_zero hz]
  simp only [View.ld_unit_zero (S := S4096x2) hz, View.ld_unit_zero (S := S4096x128) hz, View.ld_unit_zero (S := S2x128) hz,
    View.ld_unit_zero (S := S128x128) hz, View.ld_unit_zero (S := S1x128) hz]
  funext j
  obtain ⟨p, q, rfl⟩ : ∃ (p : Fin 4096) (q : Fin 128), j = ix2 p q := ⟨j 0, j 1, eq_ix2 j⟩
  have h : t.val * 4096 + p.val < 524288 := by have := p.isLt; omega
  show rowAt (k1_pay1 (k1_pay5 (k1_pay2 (iblk1 V c 7 t)) (k1_pay3 (iblk1 V c 0 t) (iblk1 V c 3 t) (iblk1 V c 4 t) (iblk1 V c 5 t)) (k1_pay4 (iblk1 V c 6 t)) (iblk1 V c 8 t) (iblk1 V c 1 t) (iblk1 V c 2 t) (iblk1 V c 9 t))
      (k1_pay6 (iblk1 V c 10 t)) (iblk1 V c 11 t)) p q
    = ofRows (rowMsg V c) (((cfg1.win 12).blk t).view.emb (ix2 p q))
  rw [emb1_12 t p q h, out1_12_row (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p,
    row1_0 V c t p h, row1_1 V c t p h, row1_2 V c t p h, whole1_3 V c t, whole1_4 V c t, whole1_5 V c t, whole1_6 V c t, whole1_7 V c t,
    whole1_8 V c t, whole1_9 V c t, whole1_10 V c t, whole1_11 V c t]
  rfl

/-- An index of the array is in point `t`'s block of output window 12 iff each coordinate is in the block's range. -/
theorem mem_blk1_12 (t : Fin cfg1.N) (i : S524288x128.Idx) :
    i ∈ ((cfg1.win 12).blk t).view.set ↔ ∀ a : Fin 2, win1_12.index t a * S4096x128.size a ≤ (i a).val
      ∧ (i a).val < win1_12.index t a * S4096x128.size a + S4096x128.size a := by
  show i ∈ ((View.whole main_v40).slice (win1_12.rect t)).set ↔ _
  rw [View.set_slice_whole, Rect.mem_set_unit]
  exact Iff.rfl

/-- Every index of the array is in the block of the point that its row falls under: row `r` under point `r / 4096`. -/
theorem cover1_12_all (i : S524288x128.Idx) :
    ∃ t : Fin cfg1.N, (cfg1.win 12).flush t = true ∧ i ∈ ((cfg1.win 12).blk t).view.set := by
  have hi0 : (i 0).val < 524288 := idx2_lt0 i
  have hi1 : (i 1).val < 128 := idx2_lt1 i
  have hq : (i 0).val / 4096 < 128 := by omega
  refine ⟨⟨(i 0).val / 4096, hq⟩, flush1_12 _, ?_⟩
  rw [mem_blk1_12]
  have e0 := (idx1 ⟨(i 0).val / 4096, hq⟩).2.2.2.2.2.2.2.2.2.2.2.2.2.2.2.2.2.2.2.2.2.2.2.2.1
  have e1 := (idx1 ⟨(i 0).val / 4096, hq⟩).2.2.2.2.2.2.2.2.2.2.2.2.2.2.2.2.2.2.2.2.2.2.2.2.2
  intro a
  match a with
  | ⟨0, _⟩ =>
    show win1_12.index ⟨(i 0).val / 4096, hq⟩ (0 : Fin 2) * 4096 ≤ (i 0).val
      ∧ (i 0).val < win1_12.index ⟨(i 0).val / 4096, hq⟩ (0 : Fin 2) * 4096 + 4096
    rw [e0]; show (i 0).val / 4096 * 4096 ≤ (i 0).val ∧ (i 0).val < (i 0).val / 4096 * 4096 + 4096; omega
  | ⟨1, _⟩ =>
    show win1_12.index ⟨(i 0).val / 4096, hq⟩ (1 : Fin 2) * 128 ≤ (i 1).val
      ∧ (i 1).val < win1_12.index ⟨(i 0).val / 4096, hq⟩ (1 : Fin 2) * 128 + 128
    rw [e1]; omega

/-- THE MESSAGE TABLE after region 1, row by row. -/
theorem msg_eq (c : Dev nD) : (dat1 (F := Ideal) V c).arrAt 12 cfg1.N = ofRows (rowMsg V c) :=
  (dat1 V c).arrAt_eq_of_cover 12 (ofRows (rowMsg V c)) (fun t _ => flushed1_12_eq V c t) (cover1_12_all)

end Cert.KernelIdeal.ArrValue

end
-- ==== Proof.KBody2.lean ====
/-
  THE THIRD BODY, ROW BY ROW, AT THE EXTENDED REALS.

  The third body computes one block of 2048 rows: a product of a block's rows with a weight matrix plus a second
  block, the normalisation of each row by its own mean and variance (scaled and shifted), a maximum with zero, a
  second product, a second normalisation, the first block added back, and a maximum with zero. Changes of format
  and casts of a block to its own shape are the identity at the extended reals, so each row of the result is the
  named row function (`Cert.Rows`) of the same rows of the inputs.
-/
import proofs.«148702_j18734647345154_2_alg».proof.Proof.Gen.KernelIdeal.Skeleton
import proofs.«148702_j18734647345154_2_alg».proof.Proof.LibRows

noncomputable section

namespace Cert.KernelIdeal.BodyValue

open Idealize.ShloMosaic Idealize.SL.Sem Cert.KernelIdeal Cert.Rows

/-- The block as a structured term: product plus block, normalisation, maximum with zero, product, normalisation,
    the first block added, maximum with zero. -/
theorem k2_body_eq (x0 x1 : Vec Ideal S2048x128 .f32) (x2 : Vec Ideal S128x128 .f32) (x3 x4 : Vec Ideal S1x128 .f32)
    (x5 : Vec Ideal S128x128 .f32) (x6 x7 : Vec Ideal S1x128 .f32) :
    Gen.k2_pay1 (F := Ideal) (Gen.k2_pay2 x5) (Gen.k2_pay3 x0 x2 x1 x3 x4) (constant S2048x128 .f32 0x00000000#32) x6 x7 x0
      = maximumf (addf
          (gnBlock (n := 2048)
            (matmul (F := Ideal) dot_S2048x128_S128x128_S2048x128_1_0_0_1_n_n none
              (truncf .bf16 (maximumf
                (gnBlock (n := 2048)
                  (addf (matmul (F := Ideal) dot_S2048x128_S128x128_S2048x128_1_0_0_1_n_n none
                      (truncf .bf16 x0 Gen.bitsLt_bf16_f32) (truncf .bf16 x2 Gen.bitsLt_bf16_f32)
                      (constant S2048x128 .f32 0x00000000#32))
                    (shapeCast S2048x128 x1 Gen.shapeCasts_S2048x128_S2048x128))
                  Gen.reduces_S2048x128_S2048 Gen.shapeCasts_S2048_S2048x1 Gen.broadcasts_S2048x1_S2048x128
                  (shapeCast S1x128 x3 Gen.shapeCasts_S1x128_S1x128) (shapeCast S1x128 x4 Gen.shapeCasts_S1x128_S1x128)
                  Gen.broadcasts_S1x128_S2048x128)
                (broadcast S2048x128 (Scalar.ofBits .f32 0x00000000#32))) Gen.bitsLt_bf16_f32)
              (truncf .bf16 x5 Gen.bitsLt_bf16_f32)
              (constant S2048x128 .f32 0x00000000#32))
            Gen.reduces_S2048x128_S2048 Gen.shapeCasts_S2048_S2048x1 Gen.broadcasts_S2048x1_S2048x128
            (shapeCast S1x128 x6 Gen.shapeCasts_S1x128_S1x128) (shapeCast S1x128 x7 Gen.shapeCasts_S1x128_S1x128)
            Gen.broadcasts_S1x128_S2048x128)
          x0)
        (broadcast S2048x128 (Scalar.ofBits .f32 0x00000000#32)) := rfl

/-- Row `p` of the block. -/
theorem out2_8_row (x0 x1 : Vec Ideal S2048x128 .f32) (x2 : Vec Ideal S128x128 .f32) (x3 x4 : Vec Ideal S1x128 .f32)
    (x5 : Vec Ideal S128x128 .f32) (x6 x7 : Vec Ideal S1x128 .f32) (p : Fin 2048) :
    rowAt (Gen.k2_pay1 (F := Ideal) (Gen.k2_pay2 x5) (Gen.k2_pay3 x0 x2 x1 x3 x4) (constant S2048x128 .f32 0x00000000#32)
        x6 x7 x0) p
      = relu fun j => gn (mv (relu (gn (fun j => mv (rowAt x0 p) x2 j + rowAt x1 p j) (rowAt x3 0) (rowAt x4 0))) x5)
          (rowAt x6 0) (rowAt x7 0) j + rowAt x0 p j := by
  rw [k2_body_eq, rowAt_relu, rowAt_addf, rowAt_gnBlock, rowAt_matmul dot_S2048x128_S128x128_S2048x128_1_0_0_1_n_n rfl, rowAt_truncf, rowAt_relu,
    rowAt_gnBlock, rowAt_addf, rowAt_matmul dot_S2048x128_S128x128_S2048x128_1_0_0_1_n_n rfl, rowAt_truncf,
    shapeCast_self, shapeCast_self, shapeCast_self, shapeCast_self, shapeCast_self]
  rfl

end Cert.KernelIdeal.BodyValue

end
-- ==== Proof.KArr2.lean ====
/-
  REGION 2, FROM BLOCKS TO THE RESULT. The last region has 8 points; point `t` reads rows `t · 2048 …` of the agent
  features and of the scattered sum, and the whole weight arrays, and writes rows `t · 2048 …` of the result. Each written
  block is a function of the rows it covers alone and the 8 blocks tile the 16384 rows: the result ends as one row-by-row
  function (`rowOut`) of the arrays the region found.
-/
import proofs.«148702_j18734647345154_2_alg».proof.Proof.Patched.KernelIdealFrame
import proofs.«148702_j18734647345154_2_alg».proof.Proof.LibRows
import proofs.«148702_j18734647345154_2_alg».proof.Proof.KBody2
import proofs.«148702_j18734647345154_2_alg».proof.Proof.KArr0
set_option maxRecDepth 16384

noncomputable section

namespace Cert.KernelIdeal.ArrValue

open Cert.KernelIdeal Cert.KernelIdeal.Gen Cert.KernelIdeal.BodyValue Cert.Rows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided once over the grid: a row-blocked window moves with the point, a weight window stays. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

/-- A row of window 0's block at point `t` is row `t · 2048 + p` of its array. -/
theorem row2_0 (c : Dev nD) (t : Fin cfg2.N) (p : Fin 2048) (h : t.val * 2048 + p.val < 16384) :
    rowAt (iblk2 V c 0 t) p = rowAt (n := 16384) (m := 128) (V c main_arg0) ⟨t.val * 2048 + p.val, h⟩ := by
  have e0 := (idx2 t).1
  have e1 := (idx2 t).2.1
  funext k
  show V c main_arg0 (((cfg2.win 0).blk t).view.emb (ix2 p k)) = V c main_arg0 (ix2 ⟨t.val * 2048 + p.val, h⟩ k)
  refine congrArg (V c main_arg0) (funext fun a => Fin.ext ?_)
  match a with
  | ⟨0, _⟩ => show win2_0.index t (0 : Fin 2) * 2048 + 1 * p.val = t.val * 2048 + p.val; omega
  | ⟨1, _⟩ => show win2_0.index t (1 : Fin 2) * 128 + 1 * k.val = k.val; omega

/-- A row of window 1's block at point `t` is row `t · 2048 + p` of its array. -/
theorem row2_1 (c : Dev nD) (t : Fin cfg2.N) (p : Fin 2048) (h : t.val * 2048 + p.val < 16384) :
    rowAt (iblk2 V c 1 t) p = rowAt (n := 16384) (m := 128) (V c main_v48) ⟨t.val * 2048 + p.val, h⟩ := by
  have e0 := (idx2 t).2.2.1
  have e1 := (idx2 t).2.2.2.1
  funext k
  show V c main_v48 (((cfg2.win 1).blk t).view.emb (ix2 p k)) = V c main_v48 (ix2 ⟨t.val * 2048 + p.val, h⟩ k)
  refine congrArg (V c main_v48) (funext fun a => Fin.ext ?_)
  match a with
  | ⟨0, _⟩ => show win2_1.index t (0 : Fin 2) * 2048 + 1 * p.val = t.val * 2048 + p.val; omega
  | ⟨1, _⟩ => show win2_1.index t (1 : Fin 2) * 128 + 1 * k.val = k.val; omega

/-- Window 2's block is its whole array at every point. -/
theorem whole2_2 (c : Dev nD) (t : Fin cfg2.N) : iblk2 V c 2 t = V c main_arg18 := by
  have e0 := (idx2 t).2.2.2.2.1
  have e1 := (idx2 t).2.2.2.2.2.1
  funext y
  show V c main_arg18 (((cfg2.win 2).blk t).view.emb y) = V c main_arg18 y
  refine congrArg (V c main_arg18) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block is its whole array at every point. -/
theorem whole2_3 (c : Dev nD) (t : Fin cfg2.N) : iblk2 V c 3 t = V c main_v49 := by
  have e0 := (idx2 t).2.2.2.2.2.2.1
  have e1 := (idx2 t).2.2.2.2.2.2.2.1
  funext y
  show V c main_v49 (((cfg2.win 3).blk t).view.emb y) = V c main_v49 y
  refine congrArg (V c main_v49) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block is its whole array at every point. -/
theorem whole2_4 (c : Dev nD) (t : Fin cfg2.N) : iblk2 V c 4 t = V c main_v50 := by
  have e0 := (idx2 t).2.2.2.2.2.2.2.2.1
  have e1 := (idx2 t).2.2.2.2.2.2.2.2.2.1
  funext y
  show V c main_v50 (((cfg2.win 4).blk t).view.emb y) = V c main_v50 y
  refine congrArg (V c main_v50) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array at every point. -/
theorem whole2_5 (c : Dev nD) (t : Fin cfg2.N) : iblk2 V c 5 t = V c main_arg21 := by
  have e0 := (idx2 t).2.2.2.2.2.2.2.2.2.2.1
  have e1 := (idx2 t).2.2.2.2.2.2.2.2.2.2.2.1
  funext y
  show V c main_arg21 (((cfg2.win 5).blk t).view.emb y) = V c main_arg21 y
  refine congrArg (V c main_arg21) (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block is its whole array at every point. -/
theorem whole2_6 (c : Dev nD) (t : Fin cfg2.N) : iblk2 V c 6 t = V c main_v51 := by
  have e0 := (idx2 t).2.2.2.2.2.2.2.2.2.2.2.2.1
  have e1 := (idx2 t).2.2.2.2.2.2.2.2.2.2.2.2.2.1
  funext y
  show V c main_v51 (((cfg2.win 6).blk t).view.emb y) = V c main_v51 y
  refine congrArg (V c main_v51) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block is its whole array at every point. -/
theorem whole2_7 (c : Dev nD) (t : Fin cfg2.N) : iblk2 V c 7 t = V c main_v52 := by
  have e0 := (idx2 t).2.2.2.2.2.2.2.2.2.2.2.2.2.2.1
  have e1 := (idx2 t).2.2.2.2.2.2.2.2.2.2.2.2.2.2.2.1
  funext y
  show V c main_v52 (((cfg2.win 7).blk t).view.emb y) = V c main_v52 y
  refine congrArg (V c main_v52) (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Where entry `(p, q)` of output window 8's block at point `t` sits in its array. -/
theorem emb2_8 (t : Fin cfg2.N) (p : Fin 2048) (q : Fin 128) (h : t.val * 2048 + p.val < 16384) :
    ((cfg2.win 8).blk t).view.emb (ix2 p q) = (ix2 ⟨t.val * 2048 + p.val, h⟩ q : S16384x128.Idx) := by
  have e0 := (idx2 t).2.2.2.2.2.2.2.2.2.2.2.2.2.2.2.2.1
  have e1 := (idx2 t).2.2.2.2.2.2.2.2.2.2.2.2.2.2.2.2.2
  funext a; apply Fin.ext
  match a with
  | ⟨0, _⟩ => show win2_8.index t (0 : Fin 2) * 2048 + 1 * p.val = t.val * 2048 + p.val; omega
  | ⟨1, _⟩ => show win2_8.index t (1 : Fin 2) * 128 + 1 * q.val = q.val; omega

/-- Row `r` of the result: the node's own product plus its scattered sum, normalised and cut at zero, through the last
    layer, normalised, plus the node's features, cut at zero. -/
def rowOut (c : Dev nD) (r : Fin 16384) : Fin 128 → EReal :=
  relu fun j => gn (mv (relu (gn (fun j => mv (rowAt (n := 16384) (m := 128) (V c main_arg0) r) (V c main_arg18) j
      + rowAt (n := 16384) (m := 128) (V c main_v48) r j) (rowAt (n := 1) (m := 128) (V c main_v49) 0) (rowAt (n := 1) (m := 128) (V c main_v50) 0))) (V c main_arg21))
    (rowAt (n := 1) (m := 128) (V c main_v51) 0) (rowAt (n := 1) (m := 128) (V c main_v52) 0) j + rowAt (n := 16384) (m := 128) (V c main_arg0) r j

/-- What point `t` writes back into the result is block `t` of `rowOut`. -/
theorem flushed2_8_eq (c : Dev nD) (t : Fin cfg2.N) :
    (dat2 (F := Ideal) V c).flushed 8 t = ((cfg2.win 8).blk t).view.read (Elt Ideal) (ofRows (rowOut V c)) := by
  have ht : t.val < 8 := t.isLt
  show (cfg2.win 8).cut (grid2.coords t) ((dat2 V c).after 8 t) = _
  rw [after2_8]
  unfold out2_8
  rw [View.canon_unit_zero hz]
  simp only [View.ld_unit_zero (S := S2048x128) hz, View.ld_unit_zero (S := S128x128) hz, View.ld_unit_zero (S := S1x128) hz]
  funext j
  obtain ⟨p, q, rfl⟩ : ∃ (p : Fin 2048) (q : Fin 128), j = ix2 p q := ⟨j 0, j 1, eq_ix2 j⟩
  have h : t.val * 2048 + p.val < 16384 := by have := p.isLt; omega
  show rowAt (k2_pay1 (k2_pay2 (iblk2 V c 5 t)) (k2_pay3 (iblk2 V c 0 t) (iblk2 V c 2 t) (iblk2 V c 1 t) (iblk2 V c 3 t) (iblk2 V c 4 t))
      (constant S2048x128 .f32 0x00000000#32) (iblk2 V c 6 t) (iblk2 V c 7 t) (iblk2 V c 0 t)) p q
    = ofRows (rowOut V c) (((cfg2.win 8).blk t).view.emb (ix2 p q))
  rw [emb2_8 t p q h, out2_8_row (iblk2 V c 0 t) (iblk2 V c 1 t) (iblk2 V c 2 t) (iblk2 V c 3 t) (iblk2 V c 4 t) (iblk2 V c 5 t)
      (iblk2 V c 6 t) (iblk2 V c 7 t) p,
    row2_0 V c t p h, row2_1 V c t p h, whole2_2 V c t, whole2_3 V c t, whole2_4 V c t, whole2_5 V c t, whole2_6 V c t, whole2_7 V c t]
  rfl

/-- An index of the array is in point `t`'s block of output window 8 iff each coordinate is in the block's range. -/
theorem mem_blk2_8 (t : Fin cfg2.N) (i : S16384x128.Idx) :
    i ∈ ((cfg2.win 8).blk t).view.set ↔ ∀ a : Fin 2, win2_8.index t a * S2048x128.size a ≤ (i a).val
      ∧ (i a).val < win2_8.index t a * S2048x128.size a + S2048x128.size a := by
  show i ∈ ((View.whole main_v53).slice (win2_8.rect t)).set ↔ _
  rw [View.set_slice_whole, Rect.mem_set_unit]
  exact Iff.rfl

/-- Every index of the array is in the block of the point that its row falls under: row `r` under point `r / 2048`. -/
theorem cover2_8_all (i : S16384x128.Idx) :
    ∃ t : Fin cfg2.N, (cfg2.win 8).flush t = true ∧ i ∈ ((cfg2.win 8).blk t).view.set := by
  have hi0 : (i 0).val < 16384 := idx2_lt0 i
  have hi1 : (i 1).val < 128 := idx2_lt1 i
  have hq : (i 0).val / 2048 < 8 := by omega
  refine ⟨⟨(i 0).val / 2048, hq⟩, flush2_8 _, ?_⟩
  rw [mem_blk2_8]
  have e0 := (idx2 ⟨(i 0).val / 2048, hq⟩).2.2.2.2.2.2.2.2.2.2.2.2.2.2.2.2.1
  have e1 := (idx2 ⟨(i 0).val / 2048, hq⟩).2.2.2.2.2.2.2.2.2.2.2.2.2.2.2.2.2
  intro a
  match a with
  | ⟨0, _⟩ =>
    show win2_8.index ⟨(i 0).val / 2048, hq⟩ (0 : Fin 2) * 2048 ≤ (i 0).val
      ∧ (i 0).val < win2_8.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win2_8.index ⟨(i 0).val / 2048, hq⟩ (1 : Fin 2) * 128 ≤ (i 1).val
      ∧ (i 1).val < win2_8.index ⟨(i 0).val / 2048, hq⟩ (1 : Fin 2) * 128 + 128
    rw [e1]; omega

/-- THE RESULT after region 2, row by row. -/
theorem out_eq (c : Dev nD) : (dat2 (F := Ideal) V c).arrAt 8 cfg2.N = ofRows (rowOut V c) :=
  (dat2 V c).arrAt_eq_of_cover 8 (ofRows (rowOut V c)) (fun t _ => flushed2_8_eq V c t) (cover2_8_all)

end Cert.KernelIdeal.ArrValue

end
-- ==== Proof.Spec.lean ====
/-
  THE SPECIFICATION, row by row.

  An edge `e` joins agent node `hi[e]` and context node `wi[e]` (a negative word counts from the end; a gather
  clamps the row number into the table, a scatter drops a row number outside it). Per edge: the difference of the
  two nodes' centres goes through a two-layer map (`dRow`); the agent node's features through a one-layer map
  (`qRow`); these two rows and the context node's features, side by side, are multiplied by a 384-row matrix,
  normalised, cut at zero and multiplied once more (`cRow`). Per agent node: its own features times a matrix plus
  the sum of `cRow` over the edges that name it (`aRow`), then two more normalised layers and the residual
  (`outRow`).

  The product with the 384-row matrix is written in two arrangements: as one product of the joined row
  (`preJoined`), and as the sum of three products with the matrix's three 128-row bands (`preBands`). They are equal
  because a sum over 384 = 128 + 128 + 128 terms is the sum of its three consecutive parts; no other law is used,
  so nothing here asks the inputs to be finite.
-/
import proofs.«148702_j18734647345154_2_alg».proof.Proof.LibRows

noncomputable section

open scoped BigOperators

namespace Cert.Spec

open Idealize.ShloMosaic Idealize.ShloMosaic.ValueIdx Cert.Rows

/-- An index word made a row number of a 16384-row table: a negative word counts from the end. -/
def rowWord (h : BitVec 32) : BitVec 32 := Scalar.select (IntOp.cmpi .slt h 0#32) (IntOp.addi h 16384#32) h

/-- The row a gather reads for an index word: the row number, read signed and clamped into the table. -/
def gRow (h : BitVec 32) : Fin 16384 := ⟨min (rowWord h).toInt.toNat (16384 - 1), by omega⟩

/-- Three rows of 128 side by side. -/
def join3 (a b c : Fin 128 → EReal) : Fin 384 → EReal := fun k =>
  if h : k.val < 128 then a ⟨k.val, h⟩ else if h' : k.val < 256 then b ⟨k.val - 128, by omega⟩ else c ⟨k.val - 256, by omega⟩

/-- A band of 128 consecutive rows of the 384-row matrix, from row `o`. -/
def band (o : Nat) (ho : o + 128 ≤ 384) (W : (⟨2, ![384, 128]⟩ : Shape).Idx → EReal) : (⟨2, ![128, 128]⟩ : Shape).Idx → EReal :=
  fun i => W (ix2 ⟨o + (i 0).val, by have := (i 0).isLt; simp at this; omega⟩ ⟨(i 1).val, by have := (i 1).isLt; simpa using this⟩)

section
variable (agts ctx : (⟨2, ![16384, 128]⟩ : Shape).Idx → EReal) (actr cctr : (⟨2, ![16384, 2]⟩ : Shape).Idx → EReal)
  (hi wi : IVec ⟨1, ![524288]⟩ 32)
  (w1 : (⟨2, ![2, 128]⟩ : Shape).Idx → EReal) (b1 : (⟨1, ![128]⟩ : Shape).Idx → EReal)
  (w2 : (⟨2, ![128, 128]⟩ : Shape).Idx → EReal) (g2 b2 : (⟨1, ![128]⟩ : Shape).Idx → EReal)
  (qw : (⟨2, ![128, 128]⟩ : Shape).Idx → EReal) (qg qb : (⟨1, ![128]⟩ : Shape).Idx → EReal)
  (cw1 : (⟨2, ![384, 128]⟩ : Shape).Idx → EReal) (cg1 cb1 : (⟨1, ![128]⟩ : Shape).Idx → EReal)
  (cw2 aw : (⟨2, ![128, 128]⟩ : Shape).Idx → EReal) (ng nb : (⟨1, ![128]⟩ : Shape).Idx → EReal)
  (lw : (⟨2, ![128, 128]⟩ : Shape).Idx → EReal) (lg lb : (⟨1, ![128]⟩ : Shape).Idx → EReal)

/-- The agent-side row of a node: its features through one normalised layer. -/
def qRow (a : Fin 128 → EReal) : Fin 128 → EReal := relu (gn (mv a qw) (vecOf qg) (vecOf qb))

/-- The difference of the two centres of edge `e`. -/
def ctrDiff (e : Fin 524288) : Fin 2 → EReal :=
  fun k => rowAt actr (gRow (hi (ix1 e))) k - rowAt cctr (gRow (wi (ix1 e))) k

/-- The distance row of edge `e`: the centres' difference through a biased layer and a normalised layer. -/
def dRow (e : Fin 524288) : Fin 128 → EReal :=
  relu (gn (mv (relu fun j => mv (ctrDiff actr cctr hi wi e) w1 j + vecOf b1 j) w2) (vecOf g2) (vecOf b2))

/-- The 384-row product of edge `e` as ONE product of the joined row. -/
def preJoined (e : Fin 524288) : Fin 128 → EReal :=
  mv (join3 (dRow actr cctr hi wi w1 b1 w2 g2 b2 e) (qRow qw qg qb (rowAt agts (gRow (hi (ix1 e)))))
    (rowAt ctx (gRow (wi (ix1 e))))) cw1

/-- The same as the SUM of three products with the matrix's bands. -/
def preBands (e : Fin 524288) : Fin 128 → EReal := fun j =>
  mv (dRow actr cctr hi wi w1 b1 w2 g2 b2 e) (band 0 (by omega) cw1) j
    + mv (qRow qw qg qb (rowAt agts (gRow (hi (ix1 e))))) (band 128 (by omega) cw1) j
    + mv (rowAt ctx (gRow (wi (ix1 e)))) (band 256 (by omega) cw1) j

/-- The message of edge `e`, from either arrangement `pre` of the 384-row product. -/
def cRow (pre : Fin 524288 → Fin 128 → EReal) (e : Fin 524288) : Fin 128 → EReal :=
  mv (relu (gn (pre e) (vecOf cg1) (vecOf cb1))) cw2

/-- Node `r` before its normalisation: its own product plus the messages of the edges that name it. -/
def aRow (pre : Fin 524288 → Fin 128 → EReal) (r : Fin 16384) : Fin 128 → EReal := fun j =>
  mv (rowAt agts r) aw j
    + ∑ e ∈ Finset.univ.filter (fun e : Fin 524288 => (rowWord (hi (ix1 e))).toInt = (r.val : Int)), cRow cg1 cb1 cw2 pre e j

/-- Node `r` of the result. -/
def outRow (pre : Fin 524288 → Fin 128 → EReal) (r : Fin 16384) : Fin 128 → EReal :=
  relu fun j => gn (mv (relu (gn (aRow agts hi cg1 cb1 cw2 aw pre r) (vecOf ng) (vecOf nb))) lw) (vecOf lg) (vecOf lb) j
    + rowAt agts r j

end

/-! ## The one law: a sum over 384 terms is the sum of its three consecutive parts -/

theorem sum_384 (f : Fin 384 → EReal) :
    ∑ k : Fin 384, f k = (∑ k : Fin 128, f ⟨k.val, by omega⟩) + (∑ k : Fin 128, f ⟨128 + k.val, by omega⟩)
      + ∑ k : Fin 128, f ⟨256 + k.val, by omega⟩ := by
  have h1 := Fin.sum_univ_add (M := EReal) (a := 256) (b := 128) (fun k : Fin (256 + 128) => f ⟨k.val, k.isLt⟩)
  have h2 := Fin.sum_univ_add (M := EReal) (a := 128) (b := 128) (fun k : Fin (128 + 128) => f ⟨k.val, by have := k.isLt; omega⟩)
  calc ∑ k : Fin 384, f k = ∑ k : Fin (256 + 128), f ⟨k.val, k.isLt⟩ := rfl
    _ = _ := by
      rw [h1]
      have h3 : (∑ i : Fin 256, f ⟨(Fin.castAdd 128 i).val, (Fin.castAdd 128 i).isLt⟩)
          = ∑ k : Fin (128 + 128), f ⟨k.val, by have := k.isLt; omega⟩ := rfl
      rw [h3, h2]
      rfl

/-- The joined row on its first band. -/
theorem join3_lo (a b c : Fin 128 → EReal) (k : Fin 128) : join3 a b c ⟨k.val, by omega⟩ = a k := by
  show (if h : k.val < 128 then a ⟨k.val, h⟩ else if h' : k.val < 256 then b ⟨k.val - 128, by omega⟩ else c ⟨k.val - 256, by omega⟩) = a k
  rw [dif_pos k.isLt]

/-- The joined row on its second band. -/
theorem join3_mid (a b c : Fin 128 → EReal) (k : Fin 128) : join3 a b c ⟨128 + k.val, by omega⟩ = b k := by
  show (if h : 128 + k.val < 128 then a ⟨128 + k.val, h⟩ else if h' : 128 + k.val < 256 then b ⟨128 + k.val - 128, by omega⟩
    else c ⟨128 + k.val - 256, by omega⟩) = b k
  rw [dif_neg (by omega), dif_pos (by omega)]
  exact congrArg b (Fin.ext (Nat.add_sub_cancel_left 128 k.val))

/-- The joined row on its third band. -/
theorem join3_hi (a b c : Fin 128 → EReal) (k : Fin 128) : join3 a b c ⟨256 + k.val, by omega⟩ = c k := by
  show (if h : 256 + k.val < 128 then a ⟨256 + k.val, h⟩ else if h' : 256 + k.val < 256 then b ⟨256 + k.val - 128, by omega⟩
    else c ⟨256 + k.val - 256, by omega⟩) = c k
  rw [dif_neg (by omega), dif_neg (by omega)]
  exact congrArg c (Fin.ext (Nat.add_sub_cancel_left 256 k.val))

/-- A band read at an entry: the matrix `o` rows further down. -/
theorem band_apply (o : Nat) (ho : o + 128 ≤ 384) (W : (⟨2, ![384, 128]⟩ : Shape).Idx → EReal) (k j : Fin 128) :
    band o ho W (ix2 k j) = W (ix2 ⟨o + k.val, by omega⟩ j) := rfl

/-- The two arrangements of the 384-row product agree. -/
theorem mv_join3 (a b c : Fin 128 → EReal) (W : (⟨2, ![384, 128]⟩ : Shape).Idx → EReal) (j : Fin 128) :
    mv (join3 a b c) W j = mv a (band 0 (by omega) W) j + mv b (band 128 (by omega) W) j + mv c (band 256 (by omega) W) j := by
  show ∑ k : Fin 384, join3 a b c k * W (ix2 k j)
    = (∑ k : Fin 128, a k * band 0 (by omega) W (ix2 k j)) + (∑ k : Fin 128, b k * band 128 (by omega) W (ix2 k j))
      + ∑ k : Fin 128, c k * band 256 (by omega) W (ix2 k j)
  rw [sum_384]
  have e1 : (∑ k : Fin 128, join3 a b c ⟨k.val, by omega⟩ * W (ix2 ⟨k.val, by omega⟩ j))
      = ∑ k : Fin 128, a k * band 0 (by omega) W (ix2 k j) :=
    Finset.sum_congr rfl fun k _ => by
      rw [join3_lo, band_apply]
      exact congrArg (fun i => a k * W (ix2 i j)) (Fin.ext (Nat.zero_add _).symm)
  have e2 : (∑ k : Fin 128, join3 a b c ⟨128 + k.val, by omega⟩ * W (ix2 ⟨128 + k.val, by omega⟩ j))
      = ∑ k : Fin 128, b k * band 128 (by omega) W (ix2 k j) :=
    Finset.sum_congr rfl fun k _ => by rw [join3_mid, band_apply]
  have e3 : (∑ k : Fin 128, join3 a b c ⟨256 + k.val, by omega⟩ * W (ix2 ⟨256 + k.val, by omega⟩ j))
      = ∑ k : Fin 128, c k * band 256 (by omega) W (ix2 k j) :=
    Finset.sum_congr rfl fun k _ => by rw [join3_hi, band_apply]
  rw [e1, e2, e3]

end Cert.Spec

end
-- ==== Proof.LibRowOps.lean ====
/-
  WHOLE-ROW GATHER AND WHOLE-ROW SCATTER-ADD OF A 2-D TABLE, READ AT AN INDEX.

  Two host operations on a table of shape `[N, C]` addressed by a column `[E, 1]` of row numbers:

  * the gather of whole rows (`rowGather`: offset axis 1, collapsed axis 0, start index map `[0]`, index vector axis 1,
    slice sizes `[1, C]`): result element `(e, c)` is the table's element `(ρ, c)`, where `ρ` is row number `e` read as a
    signed integer and clamped into `[0, N − 1]` (`gather_rows_apply`);

  * the scatter-add of whole rows (`rowScatter`: update window axis 1, inserted window axis 0, scatter axis map `[0]`,
    index vector axis 1) at the extended reals: result element `(r, c)` is the operand's element `(r, c)` plus the sum
    of the updates' elements `(e, c)` over exactly those `e` whose row number, read as a signed integer and NOT clamped,
    equals `r` (`scatterAdd_rows_apply`). A row number that is negative or at least `N` names no row: that update row
    is dropped, which the condition "equals `r`" with `r < N` already says.

  On the way: the coordinates of the scatter's start and window on each operand axis (`start_rows_zero`,
  `start_rows_one`, `window_rows_zero`, `window_rows_one`) and where an update element lands (`resultIdx?_rows`).
  All sizes `N E C` are generic; nothing enumerates an index range.
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The gather of whole rows -/

/-- gather of whole rows: operand [N, C], start indices [E, 1], result [E, C] -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: the table at row `idx[e, 0]`, read signed and clamped into `[0, N − 1]`, and column `c`.
    On axis 0 the operand coordinate is the clamped start alone (the axis is collapsed: no offset; nothing is batching);
    on axis 1 the start is `0` (the start index map does not name it) and the offset is the result's column. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    -- the start index of result element (e, c) is read at [e, 0]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    unfold GatherDims.start
    rw [dif_neg (show (1 : Fin 2) ∉ (rowGather N E C wf).startIndexMap from
      fun h => absurd (List.mem_singleton.mp h) (show ¬((1 : Fin 2) = 0) by decide))]
    simp only [Nat.zero_add, Nat.add_zero]
    rfl

/-! ## The scatter-add of whole rows -/

/-- scatter-add of whole rows: operand [N, C], scatter indices [E, 1], updates [E, C] -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coords
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On operand axis 0 the window of update element `(e, c')` starts at row number `idx[e, 0]`, read signed. -/
theorem start_rows_zero : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the scatter axis map does not name, the window starts at `0`. -/
theorem start_rows_one : (rowScatter N E C wf).start (ix2 e c') idx 1 = 0 := by
  unfold ScatterDims.start
  rw [dif_neg (show (1 : Fin 2) ∉ (rowScatter N E C wf).scatterDimsToOperandDims from
    fun h => absurd (List.mem_singleton.mp h) (show ¬((1 : Fin 2) = 0) by decide))]

/-- Operand axis 0 is an inserted window axis: the window coordinate there is `0`. -/
theorem window_rows_zero : (rowScatter N E C wf).window (ix2 e c') 0 = 0 := rfl

/-- On operand axis 1 the window coordinate is the update's column. -/
theorem window_rows_one : (rowScatter N E C wf).window (ix2 e c') 1 = c'.val := rfl

/-- WHERE AN UPDATE ELEMENT LANDS: update element `(e, c')` lands at operand element `(r, c)` exactly when its row number,
    read signed, is `r` and its column is `c`. (When the row number is outside `[0, N)` the element lands nowhere, and no
    `r < N` equals it.) -/
theorem resultIdx?_rows (r : Fin N) (c : Fin C) :
    (rowScatter N E C wf).resultIdx? (ix2 e c') idx = some (ix2 r c)
      ↔ (idx (ix2 e (0 : Fin 1))).toInt = (r.val : Int) ∧ c' = c := by
  have h0 := start_rows_zero wf idx e c'
  have h1 := start_rows_one wf idx e c'
  have w0 := window_rows_zero wf e c'
  have w1 := window_rows_one wf e c'
  have hr : r.val < N := r.isLt
  have hc : c'.val < C := c'.isLt
  unfold ScatterDims.resultIdx?
  split
  · -- the landing point is inside the operand: compare it with (r, c) coordinate by coordinate
    rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = r.val at e0
        omega
      · change ((0 : Int) + (c'.val : Int)).toNat = c.val at e1
        omega
    · rintro ⟨hi, rfl⟩
      funext a
      refine Fin.ext ?_
      match a with
      | ⟨0, _⟩ =>
        change ((rowScatter N E C wf).start (ix2 e c') idx 0 + ((rowScatter N E C wf).window (ix2 e c') 0 : Nat)).toNat = r.val
        rw [h0, w0, hi]; omega
      | ⟨1, _⟩ =>
        change ((rowScatter N E C wf).start (ix2 e c') idx 1 + ((rowScatter N E C wf).window (ix2 e c') 1 : Nat)).toNat = c'.val
        rw [h1, w1]; omega
  · -- the landing point is outside the operand: then the row number is no r < N
    rename_i h
    constructor
    · intro hf; cases hf
    · rintro ⟨hi, rfl⟩
      exfalso; apply h
      intro a
      match a with
      | ⟨0, _⟩ =>
        change 0 ≤ (rowScatter N E C wf).start (ix2 e c') idx 0 + ((rowScatter N E C wf).window (ix2 e c') 0 : Nat)
          ∧ (rowScatter N E C wf).start (ix2 e c') idx 0 + ((rowScatter N E C wf).window (ix2 e c') 0 : Nat) < (N : Int)
        rw [h0, w0, hi]; omega
      | ⟨1, _⟩ =>
        change 0 ≤ (rowScatter N E C wf).start (ix2 e c') idx 1 + ((rowScatter N E C wf).window (ix2 e c') 1 : Nat)
          ∧ (rowScatter N E C wf).start (ix2 e c') idx 1 + ((rowScatter N E C wf).window (ix2 e c') 1 : Nat) < (C : Int)
        rw [h1, w1]; omega

end Coords

/-- THE SCATTER-ADD READ AT `(r, c)`: the operand's element plus the updates' column `c` summed over the rows `e` whose row
    number, read signed, is `r`. The sum over update elements `(e, c')` landing at `(r, c)` is split by coordinates; for
    each `e` the inner sum over `c'` keeps the one term `c' = c`, and that only when row `e`'s number is `r`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (rowScatter N E C wf) x idx upd (ix2 r c)
      = x (ix2 r c) + ∑ e ∈ Finset.univ.filter (fun e : Fin E => (idx (ix2 e (0 : Fin 1))).toInt = (r.val : Int)),
          upd (ix2 e c) := by
  show Ideal.hostScatterAdd (rowScatter N E C wf) x idx upd (ix2 r c) = _
  unfold Ideal.hostScatterAdd
  congr 1
  rw [Finset.sum_filter, Finset.sum_filter, sum_idx2]
  refine Finset.sum_congr rfl fun e _ => ?_
  simp only [resultIdx?_rows]
  by_cases hi : (idx (ix2 e (0 : Fin 1))).toInt = (r.val : Int)
  · simp only [hi, true_and, if_true]
    rw [Finset.sum_ite_eq' Finset.univ c (fun c' => upd (ix2 e c'))]
    simp only [Finset.mem_univ, if_true]
  · simp only [hi, false_and, if_false, Finset.sum_const_zero]

end Idealize.ShloMosaic.RowOps

end
-- ==== Proof.KGather.lean ====
/-
  THE HOST OPERATIONS BETWEEN THE REGIONS, ROW BY ROW, AT THE EXTENDED REALS.

  Between the regions the program gathers whole rows of node tables by a column of row numbers, scatter-adds whole
  rows of an edge table into a zero node table by the same column, slices the 384-row matrix into its three bands,
  and reshapes scale and shift vectors to one-row tables. The column of row numbers is an index vector with each
  negative word counted from the end of a 16384-row table. Each operation is read at a row: a gathered row is the
  table's row the index word names (read signed, clamped into the table); a scattered row is the sum of the update
  rows whose row number is that row; a band is the matrix so many rows further down.
-/
import proofs.«148702_j18734647345154_2_alg».proof.Proof.KHost
import proofs.«148702_j18734647345154_2_alg».proof.Proof.LibRows
import proofs.«148702_j18734647345154_2_alg».proof.Proof.Spec
import proofs.«148702_j18734647345154_2_alg».proof.Proof.LibRowOps

noncomputable section

open scoped BigOperators

namespace Cert.KernelIdeal.GatherValue

open Idealize.ShloMosaic Idealize.ShloMosaic.ValueIdx Idealize.SL.Sem Cert.KernelIdeal Cert.KernelIdeal.HostValue Cert.Rows Cert.Spec

/-- The column of row numbers at edge `e`: the index word made a row number. -/
theorem idxCol_apply (h : (⟨S524288, .i32⟩ : BufTy).Contents (Elt Ideal)) (e : Fin 524288) :
    idxCol (F := Ideal) h (ix2 e (0 : Fin 1)) = rowWord (h (ix1 e)) := by
  unfold idxCol
  refine (broadcastInDim_apply _ _ _ _ (ix1 e) ?_).trans ?_
  · intro a
    match a with
    | ⟨0, _⟩ => rfl
  · rfl

/-- A gather of whole rows of a 128-channel table by the column of row numbers: row `e` of the result is the table's
    row named by edge `e`'s index word. -/
theorem gather128_row (X : S16384x128.Idx → EReal) (h : (⟨S524288, .i32⟩ : BufTy).Contents (Elt Ideal)) (e : Fin 524288) :
    rowAt (Host.gather gather_S16384x128_S524288x1_S524288x128_1_0_n_n_0_1_1128 X (idxCol (F := Ideal) h)) e = rowAt X (gRow (h (ix1 e))) := by
  funext c
  refine (RowOps.gather_rows_apply (by decide) Gen.gather_S16384x128_S524288x1_S524288x128_1_0_n_n_0_1_1128_wf X (idxCol (F := Ideal) h) e c).trans ?_
  exact congrArg (fun w : BitVec 32 => X (ix2 (⟨min w.toInt.toNat (16384 - 1), by omega⟩ : Fin 16384) c)) (idxCol_apply h e)

/-- The same for a 2-channel table. -/
theorem gather2_row (X : S16384x2.Idx → EReal) (h : (⟨S524288, .i32⟩ : BufTy).Contents (Elt Ideal)) (e : Fin 524288) :
    rowAt (Host.gather gather_S16384x2_S524288x1_S524288x2_1_0_n_n_0_1_12 X (idxCol (F := Ideal) h)) e = rowAt X (gRow (h (ix1 e))) := by
  funext c
  refine (RowOps.gather_rows_apply (by decide) Gen.gather_S16384x2_S524288x1_S524288x2_1_0_n_n_0_1_12_wf X (idxCol (F := Ideal) h) e c).trans ?_
  exact congrArg (fun w : BitVec 32 => X (ix2 (⟨min w.toInt.toNat (16384 - 1), by omega⟩ : Fin 16384) c)) (idxCol_apply h e)

/-- A scatter-add of whole rows by the column of row numbers: row `r` of the result is the operand's row plus the sum
    of the update rows of the edges whose row number, read signed, is `r`. -/
theorem scatter_row (X : S16384x128.Idx → EReal) (h : (⟨S524288, .i32⟩ : BufTy).Contents (Elt Ideal))
    (U : S524288x128.Idx → EReal) (r : Fin 16384) :
    rowAt (Host.scatterAdd (F := Ideal) (φ := .f32) scatter_S16384x128_S524288x1_S524288x128_1_0_0_1 X (idxCol (F := Ideal) h) U) r
      = fun j => rowAt X r j
          + ∑ e ∈ Finset.univ.filter (fun e : Fin 524288 => (rowWord (h (ix1 e))).toInt = (r.val : Int)), rowAt U e j := by
  funext j
  refine (RowOps.scatterAdd_rows_apply Gen.scatter_S16384x128_S524288x1_S524288x128_1_0_0_1_wf X (idxCol (F := Ideal) h) U r j).trans ?_
  have hf : (Finset.univ.filter fun e : Fin 524288 => (idxCol (F := Ideal) h (ix2 e (0 : Fin 1))).toInt = (r.val : Int))
      = Finset.univ.filter fun e : Fin 524288 => (rowWord (h (ix1 e))).toInt = (r.val : Int) :=
    Finset.filter_congr fun e _ => by rw [idxCol_apply]
  rw [hf]
  rfl

/-- The zero table the scatter-add starts from. -/
theorem zeros_row (r : Fin 16384) (j : Fin 128) :
    rowAt (broadcastInDim S16384x128 (![] : Fin S_.rank → Fin S16384x128.rank) Gen.bcast_S_S16384x128
      (constant (F := Ideal) S_ .f32 0x00000000#32)) r j = 0 :=
  Ideal.ofBits_zero_f32

/-- A slice of 128 consecutive rows of the 384-row matrix is its band. -/
theorem band_eq_0 (W : S384x128.Idx → EReal) :
    extractStridedSlice S128x128 ![0, 0] W Gen.slices_S384x128_S128x128_0_0 = band 0 (by omega) W := by
  funext i
  obtain ⟨a, b, rfl⟩ : ∃ a b : Fin 128, i = ix2 a b := ⟨i 0, i 1, eq_ix2 i⟩
  exact (slice2_axis0_apply 0 W Gen.slices_S384x128_S128x128_0_0 a b ⟨0 + a.val, by omega⟩ rfl).trans
    (band_apply 0 (by omega) W a b).symm
theorem band_eq_128 (W : S384x128.Idx → EReal) :
    extractStridedSlice S128x128 ![128, 0] W Gen.slices_S384x128_S128x128_128_0 = band 128 (by omega) W := by
  funext i
  obtain ⟨a, b, rfl⟩ : ∃ a b : Fin 128, i = ix2 a b := ⟨i 0, i 1, eq_ix2 i⟩
  exact (slice2_axis0_apply 128 W Gen.slices_S384x128_S128x128_128_0 a b ⟨128 + a.val, by omega⟩ rfl).trans
    (band_apply 128 (by omega) W a b).symm
theorem band_eq_256 (W : S384x128.Idx → EReal) :
    extractStridedSlice S128x128 ![256, 0] W Gen.slices_S384x128_S128x128_256_0 = band 256 (by omega) W := by
  funext i
  obtain ⟨a, b, rfl⟩ : ∃ a b : Fin 128, i = ix2 a b := ⟨i 0, i 1, eq_ix2 i⟩
  exact (slice2_axis0_apply 256 W Gen.slices_S384x128_S128x128_256_0 a b ⟨256 + a.val, by omega⟩ rfl).trans
    (band_apply 256 (by omega) W a b).symm

/-- A vector of 128 channels reshaped to a one-row table: its row is the vector. -/
theorem reshape_row (g : S128.Idx → EReal) :
    rowAt (shapeCast S1x128 g Gen.shapeCasts_S128_S1x128) (0 : Fin 1) = vecOf g := by
  funext i
  exact shapeCast_a_1a_apply g Gen.shapeCasts_S128_S1x128 0 i

end Cert.KernelIdeal.GatherValue

end
-- ==== Proof.KValue.lean ====
/-
  THE KERNEL'S VALUE. The result buffer ends at the last region's write-backs; reading the three regions' tables row by
  row at what each region found, and each found array through the host stretch that made it, gives every row of the
  result as the specification's `outRow` of the launch arrays, with the 384-row product in its three-band arrangement:
  the per-node tables are `qRow` and the context features times the middle and last bands; an edge's message row is
  `cRow` of the banded product (the first band times the distance row, plus the two tables' rows gathered at the edge's
  nodes); a node's scattered sum starts from zero, so it adds nothing to the sum of its edges' messages.
-/
import proofs.«148702_j18734647345154_2_alg».proof.Proof.KHost
import proofs.«148702_j18734647345154_2_alg».proof.Proof.KArr0
import proofs.«148702_j18734647345154_2_alg».proof.Proof.KArr1
import proofs.«148702_j18734647345154_2_alg».proof.Proof.KArr2
import proofs.«148702_j18734647345154_2_alg».proof.Proof.KGather
import proofs.«148702_j18734647345154_2_alg».proof.Proof.Spec

set_option maxRecDepth 16384

noncomputable section

namespace Cert.KernelIdeal.KValue

open Cert.KernelIdeal Cert.KernelIdeal.Gen Cert.KernelIdeal.HostValue Cert.KernelIdeal.ArrValue Cert.KernelIdeal.GatherValue
open Cert.Rows Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-! ## What region 0 finds, in the launch arrays -/

theorem v18_row : rowAt (n := 1) (m := 128) (V1 m ρ c main_v18) 0 = vecOf (m ((c : Thread nD τ).loc main_arg12)) :=
  (congrArg (fun X => rowAt (n := 1) (m := 128) X 0) (W1_v18 m ρ c)).trans (reshape_row _)
theorem v19_row : rowAt (n := 1) (m := 128) (V1 m ρ c main_v19) 0 = vecOf (m ((c : Thread nD τ).loc main_arg13)) :=
  (congrArg (fun X => rowAt (n := 1) (m := 128) X 0) (W1_v19 m ρ c)).trans (reshape_row _)

/-- A row of the agent-side table: the query layer of the node's features, times the middle band. -/
theorem rowQ_launch (n : Fin 16384) :
    rowQ (V1 m ρ) c n = mv (qRow (m ((c : Thread nD τ).loc main_arg11)) (m ((c : Thread nD τ).loc main_arg12)) (m ((c : Thread nD τ).loc main_arg13)) (rowAt (n := 16384) (m := 128) (m ((c : Thread nD τ).loc main_arg0)) n)) (band 128 (by omega) (m ((c : Thread nD τ).loc main_arg14))) := by
  unfold rowQ qRow
  rw [v18_row, v19_row, show V1 m ρ c main_arg0 = _ from W1_arg0 m ρ c, show V1 m ρ c main_arg11 = _ from W1_arg11 m ρ c,
    show V1 m ρ c main_v16 = band 128 (by omega) (m ((c : Thread nD τ).loc main_arg14)) from (W1_v16 m ρ c).trans (band_eq_128 _)]

/-- A row of the context-side table: the node's context features times the last band. -/
theorem rowC_launch (n : Fin 16384) :
    rowC (V1 m ρ) c n = mv (rowAt (n := 16384) (m := 128) (m ((c : Thread nD τ).loc main_arg1)) n) (band 256 (by omega) (m ((c : Thread nD τ).loc main_arg14))) := by
  unfold rowC
  rw [show V1 m ρ c main_arg1 = _ from W1_arg1 m ρ c, show V1 m ρ c main_v17 = band 256 (by omega) (m ((c : Thread nD τ).loc main_arg14)) from (W1_v17 m ρ c).trans (band_eq_256 _)]

/-! ## What region 1 finds, in the launch arrays -/

theorem v35_row : rowAt (n := 1) (m := 128) (V3 m ρ c main_v35) 0 = vecOf (m ((c : Thread nD τ).loc main_arg7)) :=
  (congrArg (fun X => rowAt (n := 1) (m := 128) X 0) (W3_v35 m ρ c)).trans (reshape_row _)
theorem v36_row : rowAt (n := 1) (m := 128) (V3 m ρ c main_v36) 0 = vecOf (m ((c : Thread nD τ).loc main_arg9)) :=
  (congrArg (fun X => rowAt (n := 1) (m := 128) X 0) (W3_v36 m ρ c)).trans (reshape_row _)
theorem v37_row : rowAt (n := 1) (m := 128) (V3 m ρ c main_v37) 0 = vecOf (m ((c : Thread nD τ).loc main_arg10)) :=
  (congrArg (fun X => rowAt (n := 1) (m := 128) X 0) (W3_v37 m ρ c)).trans (reshape_row _)
theorem v38_row : rowAt (n := 1) (m := 128) (V3 m ρ c main_v38) 0 = vecOf (m ((c : Thread nD τ).loc main_arg15)) :=
  (congrArg (fun X => rowAt (n := 1) (m := 128) X 0) (W3_v38 m ρ c)).trans (reshape_row _)
theorem v39_row : rowAt (n := 1) (m := 128) (V3 m ρ c main_v39) 0 = vecOf (m ((c : Thread nD τ).loc main_arg16)) :=
  (congrArg (fun X => rowAt (n := 1) (m := 128) X 0) (W3_v39 m ρ c)).trans (reshape_row _)

/-- The gathered agent-side row of edge `e`. -/
theorem v27_row (e : Fin 524288) : rowAt (n := 524288) (m := 128) (V3 m ρ c main_v27) e
    = mv (qRow (m ((c : Thread nD τ).loc main_arg11)) (m ((c : Thread nD τ).loc main_arg12)) (m ((c : Thread nD τ).loc main_arg13)) (rowAt (n := 16384) (m := 128) (m ((c : Thread nD τ).loc main_arg0)) (gRow ((m ((c : Thread nD τ).loc main_arg4)) (ix1 e))))) (band 128 (by omega) (m ((c : Thread nD τ).loc main_arg14))) := by
  rw [show V3 m ρ c main_v27 = _ from W3_v27 m ρ c,
    gather128_row ((dat0 (V1 m ρ) c).arrAt 7 cfg0.N) (m ((c : Thread nD τ).loc main_arg4)) e, tabQ_eq (V1 m ρ) c]
  exact rowQ_launch m ρ c (gRow ((m ((c : Thread nD τ).loc main_arg4)) (ix1 e)))

/-- The gathered context-side row of edge `e`. -/
theorem v34_row (e : Fin 524288) : rowAt (n := 524288) (m := 128) (V3 m ρ c main_v34) e
    = mv (rowAt (n := 16384) (m := 128) (m ((c : Thread nD τ).loc main_arg1)) (gRow ((m ((c : Thread nD τ).loc main_arg5)) (ix1 e)))) (band 256 (by omega) (m ((c : Thread nD τ).loc main_arg14))) := by
  rw [show V3 m ρ c main_v34 = _ from W3_v34 m ρ c,
    gather128_row ((dat0 (V1 m ρ) c).arrAt 8 cfg0.N) (m ((c : Thread nD τ).loc main_arg5)) e, tabC_eq (V1 m ρ) c]
  exact rowC_launch m ρ c (gRow ((m ((c : Thread nD τ).loc main_arg5)) (ix1 e)))

/-- The centres' difference of edge `e`. -/
theorem v14_row (e : Fin 524288) : rowAt (n := 524288) (m := 2) (V3 m ρ c main_v14) e
    = ctrDiff (m ((c : Thread nD τ).loc main_arg2)) (m ((c : Thread nD τ).loc main_arg3)) (m ((c : Thread nD τ).loc main_arg4)) (m ((c : Thread nD τ).loc main_arg5)) e := by
  refine (congrArg (fun X => rowAt (n := 524288) (m := 2) X e) ((W3_v14 m ρ c).trans (W1_v14 m ρ c))).trans ?_
  funext k
  show rowAt (Host.gather gather_S16384x2_S524288x1_S524288x2_1_0_n_n_0_1_12 (m ((c : Thread nD τ).loc main_arg2)) (idxCol (m ((c : Thread nD τ).loc main_arg4)))) e k
      - rowAt (Host.gather gather_S16384x2_S524288x1_S524288x2_1_0_n_n_0_1_12 (m ((c : Thread nD τ).loc main_arg3)) (idxCol (m ((c : Thread nD τ).loc main_arg5)))) e k = _
  rw [gather2_row, gather2_row]
  rfl

/-- The launch arrays' banded 384-row product, the arrangement the kernel computes. -/
abbrev pre : Fin 524288 → Fin 128 → EReal :=
  preBands (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- A row of the message table is the specification's message of the banded product. -/
theorem rowMsg_launch (e : Fin 524288) :
    rowMsg (V3 m ρ) c e = cRow (m ((c : Thread nD τ).loc main_arg15)) (m ((c : Thread nD τ).loc main_arg16)) (m ((c : Thread nD τ).loc main_arg17)) (pre m c) e := by
  unfold rowMsg
  rw [v14_row, v27_row, v34_row, v35_row, v36_row, v37_row, v38_row, v39_row,
    show V3 m ρ c main_arg6 = _ from W3_arg6 m ρ c, show V3 m ρ c main_arg8 = _ from W3_arg8 m ρ c, show V3 m ρ c main_arg17 = _ from W3_arg17 m ρ c,
    show V3 m ρ c main_v15 = band 0 (by omega) (m ((c : Thread nD τ).loc main_arg14)) from ((W3_v15 m ρ c).trans (W1_v15 m ρ c)).trans (band_eq_0 _)]
  rfl

/-! ## What region 2 finds, in the launch arrays -/

theorem v49_row : rowAt (n := 1) (m := 128) (V5 m ρ c main_v49) 0 = vecOf (m ((c : Thread nD τ).loc main_arg19)) :=
  (congrArg (fun X => rowAt (n := 1) (m := 128) X 0) (W5_v49 m ρ c)).trans (reshape_row _)
theorem v50_row : rowAt (n := 1) (m := 128) (V5 m ρ c main_v50) 0 = vecOf (m ((c : Thread nD τ).loc main_arg20)) :=
  (congrArg (fun X => rowAt (n := 1) (m := 128) X 0) (W5_v50 m ρ c)).trans (reshape_row _)
theorem v51_row : rowAt (n := 1) (m := 128) (V5 m ρ c main_v51) 0 = vecOf (m ((c : Thread nD τ).loc main_arg22)) :=
  (congrArg (fun X => rowAt (n := 1) (m := 128) X 0) (W5_v51 m ρ c)).trans (reshape_row _)
theorem v52_row : rowAt (n := 1) (m := 128) (V5 m ρ c main_v52) 0 = vecOf (m ((c : Thread nD τ).loc main_arg23)) :=
  (congrArg (fun X => rowAt (n := 1) (m := 128) X 0) (W5_v52 m ρ c)).trans (reshape_row _)

/-- A node's scattered sum: it starts from zero, so it is the sum of the messages of the edges that name the node. -/
theorem v48_row (r : Fin 16384) : rowAt (n := 16384) (m := 128) (V5 m ρ c main_v48) r
    = fun j => ∑ e ∈ Finset.univ.filter (fun e : Fin 524288 => (rowWord ((m ((c : Thread nD τ).loc main_arg4)) (ix1 e))).toInt = (r.val : Int)),
        cRow (m ((c : Thread nD τ).loc main_arg15)) (m ((c : Thread nD τ).loc main_arg16)) (m ((c : Thread nD τ).loc main_arg17)) (pre m c) e j := by
  refine (congrArg (fun X => rowAt (n := 16384) (m := 128) X r) (W5_v48 m ρ c)).trans ?_
  refine (scatter_row _ _ _ r).trans ?_
  funext j
  rw [zeros_row, zero_add]
  refine Finset.sum_congr rfl fun e _ => ?_
  refine (congrArg (fun X => rowAt (n := 524288) (m := 128) X e j) (msg_eq (V3 m ρ) c)).trans ?_
  exact congrFun (rowMsg_launch m ρ c e) j

/-- A row of the result is the specification's row of the launch arrays, in the banded arrangement. -/
theorem rowOut_launch (r : Fin 16384) :
    rowOut (V5 m ρ) c r = outRow (m ((c : Thread nD τ).loc main_arg0)) (m ((c : Thread nD τ).loc main_arg4)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (pre m c) r := by
  unfold rowOut
  rw [v48_row, v49_row, v50_row, v51_row, v52_row,
    show V5 m ρ c main_arg0 = _ from W5_arg0 m ρ c, show V5 m ρ c main_arg18 = _ from W5_arg18 m ρ c, show V5 m ρ c main_arg21 = _ from W5_arg21 m ρ c]
  rfl

/-- THE KERNEL'S RESULT, row by row: what the run leaves in the result buffer. -/
theorem result_rows (r : Fin 16384) :
    rowAt (n := 16384) (m := 128) (W6 m ρ c (Proc.devRef .tc main_v53)) r
      = outRow (m ((c : Thread nD τ).loc main_arg0)) (m ((c : Thread nD τ).loc main_arg4)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (pre m c) r :=
  (congrArg (fun X => rowAt (n := 16384) (m := 128) X r)
      ((W6_arr m ρ c 8 : W6 m ρ c (Proc.devRef .tc main_v53) = _).trans (out_eq (V5 m ρ) c))).trans (rowOut_launch m ρ c r)

end Cert.KernelIdeal.KValue

end
-- ==== Proof.RefLib.lean ====
/-
  HOST OPERATIONS ON A TABLE, READ AT A ROW, AT THE EXTENDED REALS.

  The reference program spells a row-wise normalisation with host operations: a sum along the channels from the zero
  word, made a column by a broadcast, divided by the word of 128; the column broadcast along the channels and
  subtracted; the same once more for the squared deviation; the variance offset, the reciprocal square root, the
  scale and shift vectors broadcast to one row and then to every row. `hostGn` is that spelling over a table of any
  number of rows, and `rowAt_hostGn` reads it at a row: the row function `gn` of the table's row. Also: a maximum with
  the broadcast zero constant is the row's `relu`; a vector broadcast to one row and then to every row reads the vector;
  an index whose two coordinates are known is `ix2` of them. All extents are generic; nothing enumerates an index range.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«148702_j18734647345154_2_alg».proof.Proof.LibRows

noncomputable section

open scoped BigOperators

namespace Cert.ReferenceIdeal.RefValue

open Idealize.ShloMosaic Idealize.ShloMosaic.ValueIdx Cert.Rows

/-! ## Indices by their coordinates -/

/-- A rank-2 index with first coordinate `p` and second `q` is `ix2 p q`. -/
theorem idx2_eq {n m : Nat} (f : (⟨2, ![n, m]⟩ : Shape).Idx) (p : Fin n) (q : Fin m)
    (h0 : (f 0).val = p.val) (h1 : (f 1).val = q.val) : f = ix2 p q :=
  funext fun a => Fin.ext (by
    match a with
    | ⟨0, _⟩ => exact h0
    | ⟨1, _⟩ => exact h1)

/-- A rank-1 index with coordinate `p` is `ix1 p`. -/
theorem idx1_eq {n : Nat} (f : (⟨1, ![n]⟩ : Shape).Idx) (p : Fin n) (h0 : (f 0).val = p.val) : f = ix1 p :=
  funext fun a => Fin.ext (by
    match a with
    | ⟨0, _⟩ => exact h0)

/-! ## Broadcasts read at an index -/

/-- A vector of `n` entries made a column `[n, 1]` reads, at `(p, u)`, entry `p`. -/
theorem bcast_col_apply {α : Type} {n : Nat} (v : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h v (ix2 p u) = v (ix1 p) :=
  broadcastInDim_apply _ h v (ix2 p u) (ix1 p) fun a => by
    match a with
    | ⟨0, _⟩ =>
      show p.val = if n = 1 then 0 else p.val
      split
      · have := p.isLt; omega
      · rfl

/-- A column `[n, 1]` broadcast along `m` channels reads, at `(p, q)`, the column's entry of row `p`. -/
theorem bcast_full_apply {α : Type} {n m : Nat} (v : (⟨2, ![n, 1]⟩ : Shape).Idx → α)
    (h : (⟨2, ![n, 1]⟩ : Shape).BroadcastsInDim ⟨2, ![n, m]⟩ (![0, 1] : Fin 2 → Fin 2)) (p : Fin n) (q : Fin m) :
    broadcastInDim ⟨2, ![n, m]⟩ ![0, 1] h v (ix2 p q) = v (ix2 p (0 : Fin 1)) :=
  broadcastInDim_apply _ h v (ix2 p q) (ix2 p (0 : Fin 1)) fun a => by
    match a with
    | ⟨0, _⟩ =>
      show p.val = if n = 1 then 0 else p.val
      split
      · have := p.isLt; omega
      · rfl
    | ⟨1, _⟩ =>
      show 0 = if (1 : Nat) = 1 then 0 else q.val
      rw [if_pos rfl]

/-- A vector of `m` channels (`m` not one) broadcast to one row and then to `n` rows reads, at `(p, q)`, channel `q`. -/
theorem bcast_vec_apply {α : Type} {n m : Nat} (hm : m ≠ 1) (g : (⟨1, ![m]⟩ : Shape).Idx → α)
    (hv : (⟨1, ![m]⟩ : Shape).BroadcastsInDim ⟨2, ![1, m]⟩ (![1] : Fin 1 → Fin 2))
    (hrow : (⟨2, ![1, m]⟩ : Shape).BroadcastsInDim ⟨2, ![n, m]⟩ (![0, 1] : Fin 2 → Fin 2)) (p : Fin n) (q : Fin m) :
    broadcastInDim ⟨2, ![n, m]⟩ ![0, 1] hrow (broadcastInDim ⟨2, ![1, m]⟩ ![1] hv g) (ix2 p q) = g (ix1 q) := by
  refine (broadcastInDim_apply _ hrow _ (ix2 p q) (ix2 (0 : Fin 1) q) fun a => ?_).trans
    (broadcastInDim_apply _ hv g (ix2 (0 : Fin 1) q) (ix1 q) fun a => ?_)
  · match a with
    | ⟨0, _⟩ =>
      show 0 = if (1 : Nat) = 1 then 0 else p.val
      rw [if_pos rfl]
    | ⟨1, _⟩ =>
      show q.val = if m = 1 then 0 else q.val
      rw [if_neg hm]
  · match a with
    | ⟨0, _⟩ =>
      show q.val = if m = 1 then 0 else q.val
      rw [if_neg hm]

/-! ## A host sum along the channels -/

/-- The host's sum of an `n × 128` table along its channels, from the zero word, at row `p`: the sum of that row. -/
theorem hostRowSum_apply {n : Nat} (X : FVec Ideal ⟨2, ![n, 128]⟩ .f32)
    (hred : (⟨2, ![n, 128]⟩ : Shape).ReducesTo [1] ⟨1, ![n]⟩) (hr : (⟨2, ![n, 128]⟩ : Shape).Reduces [1] ⟨1, ![n]⟩)
    (h0 : 0 < (⟨0, ![]⟩ : Shape).numel) (p : Fin n) :
    Host.reduceAdd X (constant ⟨0, ![]⟩ .f32 0x00000000#32) hred h0 (ix1 p) = ∑ k : Fin 128, X (ix2 p k) := by
  show Ideal.hostReduceAdd hred X (Ideal.ofBits .f32 0x00000000#32) (ix1 p) = _
  refine (Ideal.hostReduceAdd_single hred hr X _ (ix1 p)).trans ?_
  rw [Ideal.ofBits_zero_f32, zero_add]
  refine Finset.sum_congr rfl fun k _ => congrArg X (funext fun a => Fin.ext ?_)
  match a with
  | ⟨0, _⟩ => rfl
  | ⟨1, _⟩ => rfl

/-! ## The host spelling of a row-wise normalisation -/

section HostGn
variable {n : Nat} (X : FVec Ideal ⟨2, ![n, 128]⟩ .f32) (g b : FVec Ideal ⟨1, ![128]⟩ .f32)
  (hred : (⟨2, ![n, 128]⟩ : Shape).ReducesTo [1] ⟨1, ![n]⟩) (h0 : 0 < (⟨0, ![]⟩ : Shape).numel)
  (hcol : (⟨1, ![n]⟩ : Shape).BroadcastsInDim ⟨2, ![n, 1]⟩ (![0] : Fin 1 → Fin 2))
  (hs1 : (⟨0, ![]⟩ : Shape).BroadcastsInDim ⟨2, ![n, 1]⟩ (![] : Fin 0 → Fin 2))
  (hfull : (⟨2, ![n, 1]⟩ : Shape).BroadcastsInDim ⟨2, ![n, 128]⟩ (![0, 1] : Fin 2 → Fin 2))
  (hv : (⟨1, ![128]⟩ : Shape).BroadcastsInDim ⟨2, ![1, 128]⟩ (![1] : Fin 1 → Fin 2))
  (hrow : (⟨2, ![1, 128]⟩ : Shape).BroadcastsInDim ⟨2, ![n, 128]⟩ (![0, 1] : Fin 2 → Fin 2))

/-- The column of row means: the host sum made a column, divided by the word of 128. -/
def hostMeanCol : FVec Ideal ⟨2, ![n, 1]⟩ .f32 :=
  Host.divf (broadcastInDim ⟨2, ![n, 1]⟩ ![0] hcol (Host.reduceAdd X (constant ⟨0, ![]⟩ .f32 0x00000000#32) hred h0))
    (broadcastInDim ⟨2, ![n, 1]⟩ ![] hs1 (constant ⟨0, ![]⟩ .f32 0x43000000#32))

/-- The table's deviation from its rows' means. -/
def hostDev : FVec Ideal ⟨2, ![n, 128]⟩ .f32 :=
  subf X (broadcastInDim ⟨2, ![n, 128]⟩ ![0, 1] hfull (hostMeanCol X hred h0 hcol hs1))

/-- The column of row variances: the mean column of the squared deviation. -/
def hostVarCol : FVec Ideal ⟨2, ![n, 1]⟩ .f32 :=
  Host.divf (broadcastInDim ⟨2, ![n, 1]⟩ ![0] hcol
      (Host.reduceAdd (mulf (hostDev X hred h0 hcol hs1 hfull) (hostDev X hred h0 hcol hs1 hfull))
        (constant ⟨0, ![]⟩ .f32 0x00000000#32) hred h0))
    (broadcastInDim ⟨2, ![n, 1]⟩ ![] hs1 (constant ⟨0, ![]⟩ .f32 0x43000000#32))

/-- The reference's normalisation of an `n × 128` table with scale vector `g` and shift vector `b`. -/
def hostGn : FVec Ideal ⟨2, ![n, 128]⟩ .f32 :=
  addf (mulf (mulf (hostDev X hred h0 hcol hs1 hfull)
      (broadcastInDim ⟨2, ![n, 128]⟩ ![0, 1] hfull
        (Host.rsqrt (addf (hostVarCol X hred h0 hcol hs1 hfull)
          (broadcastInDim ⟨2, ![n, 1]⟩ ![] hs1 (constant ⟨0, ![]⟩ .f32 0x3727C5AC#32))))))
    (broadcastInDim ⟨2, ![n, 128]⟩ ![0, 1] hrow (broadcastInDim ⟨2, ![1, 128]⟩ ![1] hv g)))
    (broadcastInDim ⟨2, ![n, 128]⟩ ![0, 1] hrow (broadcastInDim ⟨2, ![1, 128]⟩ ![1] hv b))

variable (hr : (⟨2, ![n, 128]⟩ : Shape).Reduces [1] ⟨1, ![n]⟩)
include hr

theorem hostMeanCol_apply (p : Fin n) : hostMeanCol X hred h0 hcol hs1 (ix2 p (0 : Fin 1)) = mean (rowAt X p) :=
  congrArg (fun s => Ideal.div s c128) ((bcast_col_apply _ hcol p 0).trans (hostRowSum_apply X hred hr h0 p))

theorem hostDev_apply (p : Fin n) (k : Fin 128) :
    hostDev X hred h0 hcol hs1 hfull (ix2 p k) = rowAt X p k - mean (rowAt X p) :=
  congrArg (fun s => X (ix2 p k) - s)
    ((bcast_full_apply (hostMeanCol X hred h0 hcol hs1) hfull p k).trans (hostMeanCol_apply X hred h0 hcol hs1 hr p))

theorem hostVarCol_apply (p : Fin n) : hostVarCol X hred h0 hcol hs1 hfull (ix2 p (0 : Fin 1))
    = Ideal.div (∑ k : Fin 128, (rowAt X p k - mean (rowAt X p)) * (rowAt X p k - mean (rowAt X p))) c128 :=
  congrArg (fun s => Ideal.div s c128) (((bcast_col_apply _ hcol p 0).trans
    (hostRowSum_apply (mulf (hostDev X hred h0 hcol hs1 hfull) (hostDev X hred h0 hcol hs1 hfull)) hred hr h0 p)).trans
    (Finset.sum_congr rfl fun k _ => by
      show hostDev X hred h0 hcol hs1 hfull (ix2 p k) * hostDev X hred h0 hcol hs1 hfull (ix2 p k) = _
      rw [hostDev_apply X hred h0 hcol hs1 hfull hr]))

/-- Row `p` of the normalised table is the normalisation of row `p`. -/
theorem rowAt_hostGn (p : Fin n) :
    rowAt (hostGn X g b hred h0 hcol hs1 hfull hv hrow) p = gn (rowAt X p) (vecOf g) (vecOf b) := by
  funext q
  show hostDev X hred h0 hcol hs1 hfull (ix2 p q)
      * broadcastInDim ⟨2, ![n, 128]⟩ ![0, 1] hfull
          (Host.rsqrt (addf (hostVarCol X hred h0 hcol hs1 hfull)
            (broadcastInDim ⟨2, ![n, 1]⟩ ![] hs1 (constant ⟨0, ![]⟩ .f32 0x3727C5AC#32)))) (ix2 p q)
      * broadcastInDim ⟨2, ![n, 128]⟩ ![0, 1] hrow (broadcastInDim ⟨2, ![1, 128]⟩ ![1] hv g) (ix2 p q)
      + broadcastInDim ⟨2, ![n, 128]⟩ ![0, 1] hrow (broadcastInDim ⟨2, ![1, 128]⟩ ![1] hv b) (ix2 p q) = _
  rw [hostDev_apply X hred h0 hcol hs1 hfull hr, bcast_full_apply, bcast_vec_apply (by decide), bcast_vec_apply (by decide)]
  show (rowAt X p q - mean (rowAt X p)) * Ideal.rsqrt (hostVarCol X hred h0 hcol hs1 hfull (ix2 p (0 : Fin 1)) + eps) * g (ix1 q)
      + b (ix1 q) = _
  rw [hostVarCol_apply X hred h0 hcol hs1 hfull hr]
  rfl

end HostGn

/-! ## A maximum with the broadcast zero constant -/

/-- The reference's `relu`: a maximum with the zero constant broadcast to the table's shape. -/
theorem rowAt_hostRelu {n m : Nat} (X : FVec Ideal ⟨2, ![n, m]⟩ .f32)
    (h : (⟨0, ![]⟩ : Shape).BroadcastsInDim ⟨2, ![n, m]⟩ (![] : Fin 0 → Fin 2)) (p : Fin n) :
    rowAt (maximumf X (broadcastInDim ⟨2, ![n, m]⟩ ![] h (constant ⟨0, ![]⟩ .f32 0x00000000#32))) p = relu (rowAt X p) := by
  funext k
  show max (X (ix2 p k)) (Ideal.ofBits .f32 0x00000000#32) = max (X (ix2 p k)) 0
  rw [Ideal.ofBits_zero_f32]

end Cert.ReferenceIdeal.RefValue

end
-- ==== Proof.RefGather.lean ====
/-
  WHOLE-ROW GATHER, WHOLE-ROW SCATTER-ADD AND A THREE-PIECE CONCATENATION, READ AT A ROW.

  A table's rows gathered at a column of row numbers: row `e` of the result is the table's row `gRow h`, where `h` is the
  index word the column's entry `e` was made from (`rowWord h`). A scatter-add of rows: row `r` of the result is the
  operand's row plus the sum of the update rows whose row number, read signed, is `r`. Three tables of 128 channels side by
  side: row `e` of the result is the three rows joined.
-/
import Idealize.ShloMosaic.Lib.Pipeline.Value
import proofs.«148702_j18734647345154_2_alg».proof.Proof.LibRows
import proofs.«148702_j18734647345154_2_alg».proof.Proof.Spec
import proofs.«148702_j18734647345154_2_alg».proof.Proof.LibRowOps
import proofs.«148702_j18734647345154_2_alg».proof.Proof.RefLib

noncomputable section

open scoped BigOperators

namespace Cert.ReferenceIdeal.RefValue

open Idealize.ShloMosaic Idealize.ShloMosaic.ValueIdx Cert.Rows Cert.Spec

/-- Row `e` of a whole-row gather at a column whose entry `e` is the row number made from the index word `h`. -/
theorem gatherRows_row {C : Nat}
    (wf : GatherDims.WF ⟨2, ![16384, C]⟩ ⟨2, ![524288, 1]⟩ ⟨2, ![524288, C]⟩ [1] [0] [] [0] [] 1 ![1, C])
    (x : (⟨2, ![16384, C]⟩ : Shape).Idx → EReal) (idx : IVec ⟨2, ![524288, 1]⟩ 32) (h : BitVec 32) (e : Fin 524288)
    (hidx : idx (ix2 e (0 : Fin 1)) = rowWord h) :
    rowAt (Host.gather (RowOps.rowGather 16384 524288 C wf) x idx) e = rowAt x (gRow h) := by
  funext c
  refine (RowOps.gather_rows_apply (by decide) wf x idx e c).trans ?_
  show x (ix2 _ c) = x (ix2 (gRow h) c)
  refine congrArg x (congrArg (fun r => ix2 r c) (Fin.ext ?_))
  show min (idx (ix2 e (0 : Fin 1))).toInt.toNat (16384 - 1) = min (rowWord h).toInt.toNat (16384 - 1)
  rw [hidx]

/-- Row `r` of a whole-row scatter-add at a column whose entry `e` is the word `hw e`: the operand's row plus the sum of
    the update rows whose word, read signed, is `r`. -/
theorem scatterRows_row (wf : ScatterDims.WF ⟨2, ![16384, 128]⟩ ⟨2, ![524288, 1]⟩ ⟨2, ![524288, 128]⟩ [1] [0] [0] 1)
    (x : (⟨2, ![16384, 128]⟩ : Shape).Idx → EReal) (idx : IVec ⟨2, ![524288, 1]⟩ 32)
    (upd : (⟨2, ![524288, 128]⟩ : Shape).Idx → EReal) (hw : Fin 524288 → BitVec 32)
    (hidx : hw = fun e => idx (ix2 e (0 : Fin 1))) (r : Fin 16384) :
    rowAt (Host.scatterAdd (F := Ideal) (φ := .f32) (RowOps.rowScatter 16384 524288 128 wf) x idx upd) r
      = fun j => rowAt x r j
          + ∑ e ∈ Finset.univ.filter (fun e : Fin 524288 => (hw e).toInt = (r.val : Int)), rowAt upd e j := by
  subst hidx
  funext j
  exact RowOps.scatterAdd_rows_apply wf x idx upd r j

/-- Row `e` of three tables of 128 channels set side by side is the three rows joined. -/
theorem concat3_row {n : Nat} (A B C : (⟨2, ![n, 128]⟩ : Shape).Idx → EReal)
    (h : Shape.Concatenates [(⟨2, ![n, 128]⟩ : Shape), ⟨2, ![n, 128]⟩, ⟨2, ![n, 128]⟩] ⟨2, ![n, 384]⟩ 1) (e : Fin n) :
    rowAt (concatenate ⟨2, ![n, 384]⟩ 1 [⟨⟨2, ![n, 128]⟩, A⟩, ⟨⟨2, ![n, 128]⟩, B⟩, ⟨⟨2, ![n, 128]⟩, C⟩] h) e
      = join3 (rowAt A e) (rowAt B e) (rowAt C e) := by
  funext c
  unfold join3
  by_cases h1 : c.val < 128
  · rw [dif_pos h1]
    show concatenate ⟨2, ![n, 384]⟩ 1 [⟨⟨2, ![n, 128]⟩, A⟩, ⟨⟨2, ![n, 128]⟩, B⟩, ⟨⟨2, ![n, 128]⟩, C⟩] h (ix2 e c)
      = A (ix2 e ⟨c.val, h1⟩)
    refine concatenate_apply_piece _ _ _ (ix2 e c) 0 (by show (0 : Nat) < 3; omega) ⟨2, ![n, 128]⟩ A rfl rfl 0 rfl (ix2 e ⟨c.val, h1⟩)
      (fun b hb => ?_) ?_
    · match b with
      | ⟨0, _⟩ => rfl
      | ⟨1, _⟩ => exact absurd (Fin.ext rfl) hb
    · show 0 + c.val = c.val
      omega
  · rw [dif_neg h1]
    by_cases h2 : c.val < 256
    · rw [dif_pos h2]
      show concatenate ⟨2, ![n, 384]⟩ 1 [⟨⟨2, ![n, 128]⟩, A⟩, ⟨⟨2, ![n, 128]⟩, B⟩, ⟨⟨2, ![n, 128]⟩, C⟩] h (ix2 e c)
        = B (ix2 e ⟨c.val - 128, by omega⟩)
      refine concatenate_apply_piece _ _ _ (ix2 e c) 1 (by show (1 : Nat) < 3; omega) ⟨2, ![n, 128]⟩ B rfl rfl 128 rfl
        (ix2 e ⟨c.val - 128, by omega⟩) (fun b hb => ?_) ?_
      · match b with
        | ⟨0, _⟩ => rfl
        | ⟨1, _⟩ => exact absurd (Fin.ext rfl) hb
      · show 128 + (c.val - 128) = c.val
        omega
    · rw [dif_neg h2]
      have h3 : c.val < 384 := c.isLt
      show concatenate ⟨2, ![n, 384]⟩ 1 [⟨⟨2, ![n, 128]⟩, A⟩, ⟨⟨2, ![n, 128]⟩, B⟩, ⟨⟨2, ![n, 128]⟩, C⟩] h (ix2 e c)
        = C (ix2 e ⟨c.val - 256, by omega⟩)
      refine concatenate_apply_piece _ _ _ (ix2 e c) 2 (by show (2 : Nat) < 3; omega) ⟨2, ![n, 128]⟩ C rfl rfl 256 rfl
        (ix2 e ⟨c.val - 256, by omega⟩) (fun b hb => ?_) ?_
      · match b with
        | ⟨0, _⟩ => rfl
        | ⟨1, _⟩ => exact absurd (Fin.ext rfl) hb
      · show 256 + (c.val - 256) = c.val
        omega

end Cert.ReferenceIdeal.RefValue

end
-- ==== Proof.RefEdge.lean ====
/-
  THE REFERENCE'S EDGE STAGES, READ AT A ROW.

  One lemma per stage of the reference program on the edge side, each an equality of ROWS proved from the previous
  stage's: the index columns are the row numbers made from the index words; the gathers read the named rows; the
  distance branch (difference of centres, a biased layer, a normalised layer) is `dRow`; the agent branch is `qRow` of
  the gathered agent row; the three rows side by side times the 384-row matrix is `preJoined`; a normalised layer and a
  product more give the message `cRow`.
-/
import proofs.«148702_j18734647345154_2_alg».proof.Proof.Patched.ReferenceIdealRead
import proofs.«148702_j18734647345154_2_alg».proof.Proof.LibRows
import proofs.«148702_j18734647345154_2_alg».proof.Proof.Spec
import proofs.«148702_j18734647345154_2_alg».proof.Proof.LibRowOps
import proofs.«148702_j18734647345154_2_alg».proof.Proof.RefLib
import proofs.«148702_j18734647345154_2_alg».proof.Proof.RefGather

noncomputable section

open scoped BigOperators

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.Rows Cert.Spec

variable (x0 : (⟨S16384x128, .f32⟩ : BufTy).Contents (Elt Ideal))
  (x1 : (⟨S16384x128, .f32⟩ : BufTy).Contents (Elt Ideal))
  (x2 : (⟨S16384x2, .f32⟩ : BufTy).Contents (Elt Ideal))
  (x3 : (⟨S16384x2, .f32⟩ : BufTy).Contents (Elt Ideal))
  (x4 : (⟨S524288, .i32⟩ : BufTy).Contents (Elt Ideal))
  (x5 : (⟨S524288, .i32⟩ : BufTy).Contents (Elt Ideal))
  (x6 : (⟨S2x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S128, .f32⟩ : BufTy).Contents (Elt Ideal))
  (x14 : (⟨S384x128, .f32⟩ : BufTy).Contents (Elt Ideal))
  (x15 : (⟨S128, .f32⟩ : BufTy).Contents (Elt Ideal))
  (x16 : (⟨S128, .f32⟩ : BufTy).Contents (Elt Ideal))
  (x17 : (⟨S128x128, .f32⟩ : BufTy).Contents (Elt Ideal))
  (x18 : (⟨S128x128, .f32⟩ : BufTy).Contents (Elt Ideal))
  (x19 : (⟨S128, .f32⟩ : BufTy).Contents (Elt Ideal))
  (x20 : (⟨S128, .f32⟩ : BufTy).Contents (Elt Ideal))
  (x21 : (⟨S128x128, .f32⟩ : BufTy).Contents (Elt Ideal))
  (x22 : (⟨S128, .f32⟩ : BufTy).Contents (Elt Ideal))
  (x23 : (⟨S128, .f32⟩ : BufTy).Contents (Elt Ideal))

/-! ## The index columns: the row numbers made from the index words -/

theorem col_v5 (e : Fin 524288) (u : Fin 1) : val_main_v5 (F := Ideal) x4 (ix2 e u) = rowWord (x4 (ix1 e)) :=
  (val_main_v5_apply x4 (ix2 e u)).trans (congrArg (val_main_v4 (F := Ideal) x4) (idx1_eq _ e rfl))

theorem col_v12 (e : Fin 524288) (u : Fin 1) : val_main_v12 (F := Ideal) x5 (ix2 e u) = rowWord (x5 (ix1 e)) :=
  (val_main_v12_apply x5 (ix2 e u)).trans (congrArg (val_main_v11 (F := Ideal) x5) (idx1_eq _ e rfl))

theorem col_v51 (e : Fin 524288) (u : Fin 1) : val_main_v51 (F := Ideal) x4 (ix2 e u) = rowWord (x4 (ix1 e)) :=
  (val_main_v51_apply x4 (ix2 e u)).trans (congrArg (val_main_v50 (F := Ideal) x4) (idx1_eq _ e rfl))

theorem col_v84 (e : Fin 524288) (u : Fin 1) : val_main_v84 (F := Ideal) x5 (ix2 e u) = rowWord (x5 (ix1 e)) :=
  (val_main_v84_apply x5 (ix2 e u)).trans (congrArg (val_main_v83 (F := Ideal) x5) (idx1_eq _ e rfl))

theorem col_v120 (e : Fin 524288) (u : Fin 1) : val_main_v120 (F := Ideal) x4 (ix2 e u) = rowWord (x4 (ix1 e)) :=
  (val_main_v120_apply x4 (ix2 e u)).trans (congrArg (val_main_v119 (F := Ideal) x4) (idx1_eq _ e rfl))

/-! ## The distance branch -/

theorem row_v6 (e : Fin 524288) : rowAt (val_main_v6 (F := Ideal) x2 x4) e = rowAt x2 (gRow (x4 (ix1 e))) :=
  gatherRows_row gather_S16384x2_S524288x1_S524288x2_1_0_n_n_0_1_12_wf x2 (val_main_v5 (F := Ideal) x4) (x4 (ix1 e)) e (col_v5 x4 e 0)

theorem row_v13 (e : Fin 524288) : rowAt (val_main_v13 (F := Ideal) x3 x5) e = rowAt x3 (gRow (x5 (ix1 e))) :=
  gatherRows_row gather_S16384x2_S524288x1_S524288x2_1_0_n_n_0_1_12_wf x3 (val_main_v12 (F := Ideal) x5) (x5 (ix1 e)) e (col_v12 x5 e 0)

theorem row_v14 (e : Fin 524288) : rowAt (val_main_v14 (F := Ideal) x2 x3 x4 x5) e = ctrDiff x2 x3 x4 x5 e := by
  funext k
  show (val_main_v6 (F := Ideal) x2 x4) (ix2 e k) - (val_main_v13 (F := Ideal) x3 x5) (ix2 e k) = rowAt x2 (gRow (x4 (ix1 e))) k - rowAt x3 (gRow (x5 (ix1 e))) k
  exact congrArg₂ (· - ·) (congrFun (row_v6 x2 x4 e) k) (congrFun (row_v13 x3 x5 e) k)

theorem row_v15 (e : Fin 524288) : rowAt (val_main_v15 (F := Ideal) x2 x3 x4 x5 x6) e = mv (ctrDiff x2 x3 x4 x5 e) x6 := by
  refine Eq.trans ?_ (congrArg (fun r => mv r x6) (row_v14 x2 x3 x4 x5 e))
  funext j
  refine (val_main_v15_apply x2 x3 x4 x5 x6 (ix2 e j)).trans (Finset.sum_congr rfl fun k _ => ?_)
  exact congrArg₂ (· * ·) (congrArg (val_main_v14 (F := Ideal) x2 x3 x4 x5) (idx2_eq _ e k rfl rfl)) (congrArg x6 (idx2_eq _ k j rfl rfl))

theorem row_v18 (e : Fin 524288) : rowAt (val_main_v18 (F := Ideal) x2 x3 x4 x5 x6 x7) e = fun j => mv (ctrDiff x2 x3 x4 x5 e) x6 j + vecOf x7 j := by
  funext j
  show (val_main_v15 (F := Ideal) x2 x3 x4 x5 x6) (ix2 e j) + (val_main_v17 (F := Ideal) x7) (ix2 e j) = mv (ctrDiff x2 x3 x4 x5 e) x6 j + vecOf x7 j
  exact congrArg₂ (· + ·) (congrFun (row_v15 x2 x3 x4 x5 x6 e) j)
    (bcast_vec_apply (by decide) x7 bcast_S128_S1x128_1 bcast_S1x128_S524288x128_0_1 e j)

theorem row_v19 (e : Fin 524288) : rowAt (val_main_v19 (F := Ideal) x2 x3 x4 x5 x6 x7) e = relu (fun j => mv (ctrDiff x2 x3 x4 x5 e) x6 j + vecOf x7 j) :=
  (rowAt_hostRelu (val_main_v18 (F := Ideal) x2 x3 x4 x5 x6 x7) bcast_S_S524288x128 e).trans (congrArg relu (row_v18 x2 x3 x4 x5 x6 x7 e))

theorem row_v20 (e : Fin 524288) : rowAt (val_main_v20 (F := Ideal) x2 x3 x4 x5 x6 x7 x8) e = mv (relu (fun j => mv (ctrDiff x2 x3 x4 x5 e) x6 j + vecOf x7 j)) x8 := by
  refine Eq.trans ?_ (congrArg (fun r => mv r x8) (row_v19 x2 x3 x4 x5 x6 x7 e))
  funext j
  refine (val_main_v20_apply x2 x3 x4 x5 x6 x7 x8 (ix2 e j)).trans (Finset.sum_congr rfl fun k _ => ?_)
  exact congrArg₂ (· * ·) (congrArg (val_main_v19 (F := Ideal) x2 x3 x4 x5 x6 x7) (idx2_eq _ e k rfl rfl)) (congrArg x8 (idx2_eq _ k j rfl rfl))

theorem row_v44 (e : Fin 524288) : rowAt (val_main_v44 (F := Ideal) x2 x3 x4 x5 x6 x7 x8 x9 x10) e = gn (mv (relu (fun j => mv (ctrDiff x2 x3 x4 x5 e) x6 j + vecOf x7 j)) x8) (vecOf x9) (vecOf x10) :=
  (rowAt_hostGn (val_main_v20 (F := Ideal) x2 x3 x4 x5 x6 x7 x8) x9 x10 reducesTo_S524288x128_S524288_d1 h_S_ bcast_S524288_S524288x1_0 bcast_S_S524288x1
    bcast_S524288x1_S524288x128_0_1 bcast_S128_S1x128_1 bcast_S1x128_S524288x128_0_1 (by decide) e).trans
    (congrArg (fun r => gn r (vecOf x9) (vecOf x10)) (row_v20 x2 x3 x4 x5 x6 x7 x8 e))

theorem row_v45 (e : Fin 524288) : rowAt (val_main_v45 (F := Ideal) x2 x3 x4 x5 x6 x7 x8 x9 x10) e = dRow x2 x3 x4 x5 x6 x7 x8 x9 x10 e :=
  (rowAt_hostRelu (val_main_v44 (F := Ideal) x2 x3 x4 x5 x6 x7 x8 x9 x10) bcast_S_S524288x128 e).trans (congrArg relu (row_v44 x2 x3 x4 x5 x6 x7 x8 x9 x10 e))

/-! ## The agent branch -/

theorem row_v52 (e : Fin 524288) : rowAt (val_main_v52 (F := Ideal) x0 x4) e = rowAt x0 (gRow (x4 (ix1 e))) :=
  gatherRows_row gather_S16384x128_S524288x1_S524288x128_1_0_n_n_0_1_1128_wf x0 (val_main_v51 (F := Ideal) x4) (x4 (ix1 e)) e (col_v51 x4 e 0)

theorem row_v53 (e : Fin 524288) : rowAt (val_main_v53 (F := Ideal) x0 x4 x11) e = mv (rowAt x0 (gRow (x4 (ix1 e)))) x11 := by
  refine Eq.trans ?_ (congrArg (fun r => mv r x11) (row_v52 x0 x4 e))
  funext j
  refine (val_main_v53_apply x0 x4 x11 (ix2 e j)).trans (Finset.sum_congr rfl fun k _ => ?_)
  exact congrArg₂ (· * ·) (congrArg (val_main_v52 (F := Ideal) x0 x4) (idx2_eq _ e k rfl rfl)) (congrArg x11 (idx2_eq _ k j rfl rfl))

theorem row_v77 (e : Fin 524288) : rowAt (val_main_v77 (F := Ideal) x0 x4 x11 x12 x13) e = gn (mv (rowAt x0 (gRow (x4 (ix1 e)))) x11) (vecOf x12) (vecOf x13) :=
  (rowAt_hostGn (val_main_v53 (F := Ideal) x0 x4 x11) x12 x13 reducesTo_S524288x128_S524288_d1 h_S_ bcast_S524288_S524288x1_0 bcast_S_S524288x1
    bcast_S524288x1_S524288x128_0_1 bcast_S128_S1x128_1 bcast_S1x128_S524288x128_0_1 (by decide) e).trans
    (congrArg (fun r => gn r (vecOf x12) (vecOf x13)) (row_v53 x0 x4 x11 e))

theorem row_v78 (e : Fin 524288) : rowAt (val_main_v78 (F := Ideal) x0 x4 x11 x12 x13) e = qRow x11 x12 x13 (rowAt x0 (gRow (x4 (ix1 e)))) :=
  (rowAt_hostRelu (val_main_v77 (F := Ideal) x0 x4 x11 x12 x13) bcast_S_S524288x128 e).trans (congrArg relu (row_v77 x0 x4 x11 x12 x13 e))

/-! ## The joined row, the 384-row product, and the message -/

theorem row_v85 (e : Fin 524288) : rowAt (val_main_v85 (F := Ideal) x1 x5) e = rowAt x1 (gRow (x5 (ix1 e))) :=
  gatherRows_row gather_S16384x128_S524288x1_S524288x128_1_0_n_n_0_1_1128_wf x1 (val_main_v84 (F := Ideal) x5) (x5 (ix1 e)) e (col_v84 x5 e 0)

theorem row_v86 (e : Fin 524288) : rowAt (val_main_v86 (F := Ideal) x0 x1 x2 x3 x4 x5 x6 x7 x8 x9 x10 x11 x12 x13) e = join3 (dRow x2 x3 x4 x5 x6 x7 x8 x9 x10 e) (qRow x11 x12 x13 (rowAt x0 (gRow (x4 (ix1 e))))) (rowAt x1 (gRow (x5 (ix1 e)))) := by
  refine (concat3_row (val_main_v45 (F := Ideal) x2 x3 x4 x5 x6 x7 x8 x9 x10) (val_main_v78 (F := Ideal) x0 x4 x11 x12 x13) (val_main_v85 (F := Ideal) x1 x5)
    concatenates_S524288x128_S524288x128_S524288x128_S524288x384_d1 e).trans ?_
  rw [row_v45 x2 x3 x4 x5 x6 x7 x8 x9 x10 e, row_v78 x0 x4 x11 x12 x13 e, row_v85 x1 x5 e]

theorem row_v87 (e : Fin 524288) : rowAt (val_main_v87 (F := Ideal) x0 x1 x2 x3 x4 x5 x6 x7 x8 x9 x10 x11 x12 x13 x14) e = preJoined x0 x1 x2 x3 x4 x5 x6 x7 x8 x9 x10 x11 x12 x13 x14 e := by
  refine Eq.trans ?_ (congrArg (fun r => mv r x14) (row_v86 x0 x1 x2 x3 x4 x5 x6 x7 x8 x9 x10 x11 x12 x13 e))
  funext j
  refine (val_main_v87_apply x0 x1 x2 x3 x4 x5 x6 x7 x8 x9 x10 x11 x12 x13 x14 (ix2 e j)).trans (Finset.sum_congr rfl fun k _ => ?_)
  exact congrArg₂ (· * ·) (congrArg (val_main_v86 (F := Ideal) x0 x1 x2 x3 x4 x5 x6 x7 x8 x9 x10 x11 x12 x13) (idx2_eq _ e k rfl rfl)) (congrArg x14 (idx2_eq _ k j rfl rfl))

theorem row_v111 (e : Fin 524288) : rowAt (val_main_v111 (F := Ideal) x0 x1 x2 x3 x4 x5 x6 x7 x8 x9 x10 x11 x12 x13 x14 x15 x16) e = gn (preJoined x0 x1 x2 x3 x4 x5 x6 x7 x8 x9 x10 x11 x12 x13 x14 e) (vecOf x15) (vecOf x16) :=
  (rowAt_hostGn (val_main_v87 (F := Ideal) x0 x1 x2 x3 x4 x5 x6 x7 x8 x9 x10 x11 x12 x13 x14) x15 x16 reducesTo_S524288x128_S524288_d1 h_S_ bcast_S524288_S524288x1_0 bcast_S_S524288x1
    bcast_S524288x1_S524288x128_0_1 bcast_S128_S1x128_1 bcast_S1x128_S524288x128_0_1 (by decide) e).trans
    (congrArg (fun r => gn r (vecOf x15) (vecOf x16)) (row_v87 x0 x1 x2 x3 x4 x5 x6 x7 x8 x9 x10 x11 x12 x13 x14 e))

theorem row_v112 (e : Fin 524288) : rowAt (val_main_v112 (F := Ideal) x0 x1 x2 x3 x4 x5 x6 x7 x8 x9 x10 x11 x12 x13 x14 x15 x16) e = relu (gn (preJoined x0 x1 x2 x3 x4 x5 x6 x7 x8 x9 x10 x11 x12 x13 x14 e) (vecOf x15) (vecOf x16)) :=
  (rowAt_hostRelu (val_main_v111 (F := Ideal) x0 x1 x2 x3 x4 x5 x6 x7 x8 x9 x10 x11 x12 x13 x14 x15 x16) bcast_S_S524288x128 e).trans (congrArg relu (row_v111 x0 x1 x2 x3 x4 x5 x6 x7 x8 x9 x10 x11 x12 x13 x14 x15 x16 e))

theorem row_v113 (e : Fin 524288) : rowAt (val_main_v113 (F := Ideal) x0 x1 x2 x3 x4 x5 x6 x7 x8 x9 x10 x11 x12 x13 x14 x15 x16 x17) e = cRow x15 x16 x17 (preJoined x0 x1 x2 x3 x4 x5 x6 x7 x8 x9 x10 x11 x12 x13 x14) e := by
  refine Eq.trans ?_ (congrArg (fun r => mv r x17) (row_v112 x0 x1 x2 x3 x4 x5 x6 x7 x8 x9 x10 x11 x12 x13 x14 x15 x16 e))
  funext j
  refine (val_main_v113_apply x0 x1 x2 x3 x4 x5 x6 x7 x8 x9 x10 x11 x12 x13 x14 x15 x16 x17 (ix2 e j)).trans (Finset.sum_congr rfl fun k _ => ?_)
  exact congrArg₂ (· * ·) (congrArg (val_main_v112 (F := Ideal) x0 x1 x2 x3 x4 x5 x6 x7 x8 x9 x10 x11 x12 x13 x14 x15 x16) (idx2_eq _ e k rfl rfl)) (congrArg x17 (idx2_eq _ k j rfl rfl))

end Cert.ReferenceIdeal.RefValue

end
-- ==== Proof.RefNode.lean ====
/-
  THE REFERENCE'S NODE STAGES, READ AT A ROW, AND THE RESULT.

  The agent table times a matrix; the scatter-add of the edges' messages onto it (`aRow`: a node's own product plus the
  messages of the edges that name it); two normalised layers, the residual and the cut at zero (`outRow`).
-/
import proofs.«148702_j18734647345154_2_alg».proof.Proof.Patched.ReferenceIdealRead
import proofs.«148702_j18734647345154_2_alg».proof.Proof.LibRows
import proofs.«148702_j18734647345154_2_alg».proof.Proof.Spec
import proofs.«148702_j18734647345154_2_alg».proof.Proof.LibRowOps
import proofs.«148702_j18734647345154_2_alg».proof.Proof.RefLib
import proofs.«148702_j18734647345154_2_alg».proof.Proof.RefGather
import proofs.«148702_j18734647345154_2_alg».proof.Proof.RefEdge

noncomputable section

open scoped BigOperators

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.Rows Cert.Spec

variable (x0 : (⟨S16384x128, .f32⟩ : BufTy).Contents (Elt Ideal))
  (x1 : (⟨S16384x128, .f32⟩ : BufTy).Contents (Elt Ideal))
  (x2 : (⟨S16384x2, .f32⟩ : BufTy).Contents (Elt Ideal))
  (x3 : (⟨S16384x2, .f32⟩ : BufTy).Contents (Elt Ideal))
  (x4 : (⟨S524288, .i32⟩ : BufTy).Contents (Elt Ideal))
  (x5 : (⟨S524288, .i32⟩ : BufTy).Contents (Elt Ideal))
  (x6 : (⟨S2x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S128, .f32⟩ : BufTy).Contents (Elt Ideal))
  (x14 : (⟨S384x128, .f32⟩ : BufTy).Contents (Elt Ideal))
  (x15 : (⟨S128, .f32⟩ : BufTy).Contents (Elt Ideal))
  (x16 : (⟨S128, .f32⟩ : BufTy).Contents (Elt Ideal))
  (x17 : (⟨S128x128, .f32⟩ : BufTy).Contents (Elt Ideal))
  (x18 : (⟨S128x128, .f32⟩ : BufTy).Contents (Elt Ideal))
  (x19 : (⟨S128, .f32⟩ : BufTy).Contents (Elt Ideal))
  (x20 : (⟨S128, .f32⟩ : BufTy).Contents (Elt Ideal))
  (x21 : (⟨S128x128, .f32⟩ : BufTy).Contents (Elt Ideal))
  (x22 : (⟨S128, .f32⟩ : BufTy).Contents (Elt Ideal))
  (x23 : (⟨S128, .f32⟩ : BufTy).Contents (Elt Ideal))

theorem row_v114 (r : Fin 16384) : rowAt (val_main_v114 (F := Ideal) x0 x18) r = mv (rowAt x0 r) x18 := by
  funext j
  refine (val_main_v114_apply x0 x18 (ix2 r j)).trans (Finset.sum_congr rfl fun k _ => ?_)
  exact congrArg₂ (· * ·) (congrArg x0 (idx2_eq _ r k rfl rfl)) (congrArg x18 (idx2_eq _ k j rfl rfl))

theorem row_v121 (r : Fin 16384) : rowAt (val_main_v121 (F := Ideal) x0 x1 x2 x3 x4 x5 x6 x7 x8 x9 x10 x11 x12 x13 x14 x15 x16 x17 x18) r = aRow x0 x4 x15 x16 x17 x18 (preJoined x0 x1 x2 x3 x4 x5 x6 x7 x8 x9 x10 x11 x12 x13 x14) r := by
  refine (scatterRows_row scatter_S16384x128_S524288x1_S524288x128_1_0_0_1_wf (val_main_v114 (F := Ideal) x0 x18) (val_main_v120 (F := Ideal) x4) (val_main_v113 (F := Ideal) x0 x1 x2 x3 x4 x5 x6 x7 x8 x9 x10 x11 x12 x13 x14 x15 x16 x17)
    (fun e => rowWord (x4 (ix1 e))) (funext fun e => (col_v120 x4 e 0).symm) r).trans ?_
  funext j
  show rowAt (val_main_v114 (F := Ideal) x0 x18) r j + ∑ e ∈ Finset.univ.filter (fun e : Fin 524288 => (rowWord (x4 (ix1 e))).toInt = (r.val : Int)), rowAt (val_main_v113 (F := Ideal) x0 x1 x2 x3 x4 x5 x6 x7 x8 x9 x10 x11 x12 x13 x14 x15 x16 x17) e j
    = mv (rowAt x0 r) x18 j + ∑ e ∈ Finset.univ.filter (fun e : Fin 524288 => (rowWord (x4 (ix1 e))).toInt = (r.val : Int)), cRow x15 x16 x17 (preJoined x0 x1 x2 x3 x4 x5 x6 x7 x8 x9 x10 x11 x12 x13 x14) e j
  exact congrArg₂ (· + ·) (congrFun (row_v114 x0 x18 r) j)
    (Finset.sum_congr rfl fun e _ => congrFun (row_v113 x0 x1 x2 x3 x4 x5 x6 x7 x8 x9 x10 x11 x12 x13 x14 x15 x16 x17 e) j)

theorem row_v145 (r : Fin 16384) : rowAt (val_main_v145 (F := Ideal) x0 x1 x2 x3 x4 x5 x6 x7 x8 x9 x10 x11 x12 x13 x14 x15 x16 x17 x18 x19 x20) r = gn (aRow x0 x4 x15 x16 x17 x18 (preJoined x0 x1 x2 x3 x4 x5 x6 x7 x8 x9 x10 x11 x12 x13 x14) r) (vecOf x19) (vecOf x20) :=
  (rowAt_hostGn (val_main_v121 (F := Ideal) x0 x1 x2 x3 x4 x5 x6 x7 x8 x9 x10 x11 x12 x13 x14 x15 x16 x17 x18) x19 x20 reducesTo_S16384x128_S16384_d1 h_S_ bcast_S16384_S16384x1_0 bcast_S_S16384x1
    bcast_S16384x1_S16384x128_0_1 bcast_S128_S1x128_1 bcast_S1x128_S16384x128_0_1 (by decide) r).trans
    (congrArg (fun r => gn r (vecOf x19) (vecOf x20)) (row_v121 x0 x1 x2 x3 x4 x5 x6 x7 x8 x9 x10 x11 x12 x13 x14 x15 x16 x17 x18 r))

theorem row_v146 (r : Fin 16384) : rowAt (val_main_v146 (F := Ideal) x0 x1 x2 x3 x4 x5 x6 x7 x8 x9 x10 x11 x12 x13 x14 x15 x16 x17 x18 x19 x20) r = relu (gn (aRow x0 x4 x15 x16 x17 x18 (preJoined x0 x1 x2 x3 x4 x5 x6 x7 x8 x9 x10 x11 x12 x13 x14) r) (vecOf x19) (vecOf x20)) :=
  (rowAt_hostRelu (val_main_v145 (F := Ideal) x0 x1 x2 x3 x4 x5 x6 x7 x8 x9 x10 x11 x12 x13 x14 x15 x16 x17 x18 x19 x20) bcast_S_S16384x128 r).trans (congrArg relu (row_v145 x0 x1 x2 x3 x4 x5 x6 x7 x8 x9 x10 x11 x12 x13 x14 x15 x16 x17 x18 x19 x20 r))

theorem row_v147 (r : Fin 16384) : rowAt (val_main_v147 (F := Ideal) x0 x1 x2 x3 x4 x5 x6 x7 x8 x9 x10 x11 x12 x13 x14 x15 x16 x17 x18 x19 x20 x21) r = mv (relu (gn (aRow x0 x4 x15 x16 x17 x18 (preJoined x0 x1 x2 x3 x4 x5 x6 x7 x8 x9 x10 x11 x12 x13 x14) r) (vecOf x19) (vecOf x20))) x21 := by
  refine Eq.trans ?_ (congrArg (fun r => mv r x21) (row_v146 x0 x1 x2 x3 x4 x5 x6 x7 x8 x9 x10 x11 x12 x13 x14 x15 x16 x17 x18 x19 x20 r))
  funext j
  refine (val_main_v147_apply x0 x1 x2 x3 x4 x5 x6 x7 x8 x9 x10 x11 x12 x13 x14 x15 x16 x17 x18 x19 x20 x21 (ix2 r j)).trans (Finset.sum_congr rfl fun k _ => ?_)
  exact congrArg₂ (· * ·) (congrArg (val_main_v146 (F := Ideal) x0 x1 x2 x3 x4 x5 x6 x7 x8 x9 x10 x11 x12 x13 x14 x15 x16 x17 x18 x19 x20) (idx2_eq _ r k rfl rfl)) (congrArg x21 (idx2_eq _ k j rfl rfl))

theorem row_v171 (r : Fin 16384) : rowAt (val_main_v171 (F := Ideal) x0 x1 x2 x3 x4 x5 x6 x7 x8 x9 x10 x11 x12 x13 x14 x15 x16 x17 x18 x19 x20 x21 x22 x23) r = gn (mv (relu (gn (aRow x0 x4 x15 x16 x17 x18 (preJoined x0 x1 x2 x3 x4 x5 x6 x7 x8 x9 x10 x11 x12 x13 x14) r) (vecOf x19) (vecOf x20))) x21) (vecOf x22) (vecOf x23) :=
  (rowAt_hostGn (val_main_v147 (F := Ideal) x0 x1 x2 x3 x4 x5 x6 x7 x8 x9 x10 x11 x12 x13 x14 x15 x16 x17 x18 x19 x20 x21) x22 x23 reducesTo_S16384x128_S16384_d1 h_S_ bcast_S16384_S16384x1_0 bcast_S_S16384x1
    bcast_S16384x1_S16384x128_0_1 bcast_S128_S1x128_1 bcast_S1x128_S16384x128_0_1 (by decide) r).trans
    (congrArg (fun r => gn r (vecOf x22) (vecOf x23)) (row_v147 x0 x1 x2 x3 x4 x5 x6 x7 x8 x9 x10 x11 x12 x13 x14 x15 x16 x17 x18 x19 x20 x21 r))

theorem row_v172 (r : Fin 16384) : rowAt (val_main_v172 (F := Ideal) x0 x1 x2 x3 x4 x5 x6 x7 x8 x9 x10 x11 x12 x13 x14 x15 x16 x17 x18 x19 x20 x21 x22 x23) r = fun j => gn (mv (relu (gn (aRow x0 x4 x15 x16 x17 x18 (preJoined x0 x1 x2 x3 x4 x5 x6 x7 x8 x9 x10 x11 x12 x13 x14) r) (vecOf x19) (vecOf x20))) x21) (vecOf x22) (vecOf x23) j + rowAt x0 r j := by
  funext j
  show (val_main_v171 (F := Ideal) x0 x1 x2 x3 x4 x5 x6 x7 x8 x9 x10 x11 x12 x13 x14 x15 x16 x17 x18 x19 x20 x21 x22 x23) (ix2 r j) + x0 (ix2 r j) = gn (mv (relu (gn (aRow x0 x4 x15 x16 x17 x18 (preJoined x0 x1 x2 x3 x4 x5 x6 x7 x8 x9 x10 x11 x12 x13 x14) r) (vecOf x19) (vecOf x20))) x21) (vecOf x22) (vecOf x23) j + rowAt x0 r j
  exact congrArg (· + x0 (ix2 r j)) (congrFun (row_v171 x0 x1 x2 x3 x4 x5 x6 x7 x8 x9 x10 x11 x12 x13 x14 x15 x16 x17 x18 x19 x20 x21 x22 x23 r) j)

theorem row_v173 (r : Fin 16384) : rowAt (val_main_v173 (F := Ideal) x0 x1 x2 x3 x4 x5 x6 x7 x8 x9 x10 x11 x12 x13 x14 x15 x16 x17 x18 x19 x20 x21 x22 x23) r = outRow x0 x4 x15 x16 x17 x18 x19 x20 x21 x22 x23 (preJoined x0 x1 x2 x3 x4 x5 x6 x7 x8 x9 x10 x11 x12 x13 x14) r :=
  (rowAt_hostRelu (val_main_v172 (F := Ideal) x0 x1 x2 x3 x4 x5 x6 x7 x8 x9 x10 x11 x12 x13 x14 x15 x16 x17 x18 x19 x20 x21 x22 x23) bcast_S_S16384x128 r).trans (congrArg relu (row_v172 x0 x1 x2 x3 x4 x5 x6 x7 x8 x9 x10 x11 x12 x13 x14 x15 x16 x17 x18 x19 x20 x21 x22 x23 r))

end Cert.ReferenceIdeal.RefValue

namespace Cert.ReferenceIdeal.RefValue

open Idealize.ShloMosaic Idealize.ShloMosaic.ValueIdx Idealize.SL.Sem Cert.ReferenceIdeal

/-- THE REFERENCE READ ROW BY ROW: row `r` of the reference's result is the specification's row `outRow` over the joined
    arrangement of the 384-row product. -/
theorem ref_out (x0 : (⟨S16384x128, .f32⟩ : BufTy).Contents (Elt Ideal))
    (x1 : (⟨S16384x128, .f32⟩ : BufTy).Contents (Elt Ideal))
    (x2 : (⟨S16384x2, .f32⟩ : BufTy).Contents (Elt Ideal))
    (x3 : (⟨S16384x2, .f32⟩ : BufTy).Contents (Elt Ideal))
    (x4 : (⟨S524288, .i32⟩ : BufTy).Contents (Elt Ideal))
    (x5 : (⟨S524288, .i32⟩ : BufTy).Contents (Elt Ideal))
    (x6 : (⟨S2x128, .f32⟩ : BufTy).Contents (Elt Ideal))
    (x7 : (⟨S128, .f32⟩ : BufTy).Contents (Elt Ideal))
    (x8 : (⟨S128x128, .f32⟩ : BufTy).Contents (Elt Ideal))
    (x9 : (⟨S128, .f32⟩ : BufTy).Contents (Elt Ideal))
    (x10 : (⟨S128, .f32⟩ : BufTy).Contents (Elt Ideal))
    (x11 : (⟨S128x128, .f32⟩ : BufTy).Contents (Elt Ideal))
    (x12 : (⟨S128, .f32⟩ : BufTy).Contents (Elt Ideal))
    (x13 : (⟨S128, .f32⟩ : BufTy).Contents (Elt Ideal))
    (x14 : (⟨S384x128, .f32⟩ : BufTy).Contents (Elt Ideal))
    (x15 : (⟨S128, .f32⟩ : BufTy).Contents (Elt Ideal))
    (x16 : (⟨S128, .f32⟩ : BufTy).Contents (Elt Ideal))
    (x17 : (⟨S128x128, .f32⟩ : BufTy).Contents (Elt Ideal))
    (x18 : (⟨S128x128, .f32⟩ : BufTy).Contents (Elt Ideal))
    (x19 : (⟨S128, .f32⟩ : BufTy).Contents (Elt Ideal))
    (x20 : (⟨S128, .f32⟩ : BufTy).Contents (Elt Ideal))
    (x21 : (⟨S128x128, .f32⟩ : BufTy).Contents (Elt Ideal))
    (x22 : (⟨S128, .f32⟩ : BufTy).Contents (Elt Ideal))
    (x23 : (⟨S128, .f32⟩ : BufTy).Contents (Elt Ideal))
    (r : Fin 16384) :
    Cert.Rows.rowAt (Cert.ReferenceIdeal.Read.val_main_v173 (F := Ideal) x0 x1 x2 x3 x4 x5 x6 x7 x8 x9 x10 x11 x12 x13 x14 x15 x16 x17 x18 x19 x20 x21 x22 x23) r
      = Cert.Spec.outRow x0 x4 x15 x16 x17 x18 x19 x20 x21 x22 x23
          (Cert.Spec.preJoined x0 x1 x2 x3 x4 x5 x6 x7 x8 x9 x10 x11 x12 x13 x14) r :=
  row_v173 x0 x1 x2 x3 x4 x5 x6 x7 x8 x9 x10 x11 x12 x13 x14 x15 x16 x17 x18 x19 x20 x21 x22 x23 r

end Cert.ReferenceIdeal.RefValue

end
-- ==== Proof.Bridge.lean ====
/-
  THE TWO RESULTS ARE ONE ARRAY. Row by row the kernel's result is the specification's `outRow` with the 384-row product
  taken band by band, and the reference's last stage is `outRow` with that product taken of the joined row. The two
  arrangements agree for every edge and channel — a sum over 384 = 128 + 128 + 128 terms is the sum of its three
  consecutive parts (`Spec.mv_join3`), which holds in the extended reals without any finiteness — so the arrays agree at
  every index.
-/
import proofs.«148702_j18734647345154_2_alg».proof.Proof.KValue
import proofs.«148702_j18734647345154_2_alg».proof.Proof.RefNode

set_option maxRecDepth 16384

noncomputable section

namespace Cert.Bridge

open Cert.Rows Cert.Spec
open Idealize.ShloMosaic Idealize.ShloMosaic.TcCoe Idealize.ShloMosaic.ValueIdx
open Idealize.SL Idealize.SL.Sem

/-- The banded and the joined arrangement of the 384-row product are the same function of the edge and the channel. -/
theorem pre_eq (agts ctx : (⟨2, ![16384, 128]⟩ : Shape).Idx → EReal) (actr cctr : (⟨2, ![16384, 2]⟩ : Shape).Idx → EReal)
    (hi wi : IVec ⟨1, ![524288]⟩ 32) (w1 : (⟨2, ![2, 128]⟩ : Shape).Idx → EReal) (b1 : (⟨1, ![128]⟩ : Shape).Idx → EReal)
    (w2 : (⟨2, ![128, 128]⟩ : Shape).Idx → EReal) (g2 b2 : (⟨1, ![128]⟩ : Shape).Idx → EReal)
    (qw : (⟨2, ![128, 128]⟩ : Shape).Idx → EReal) (qg qb : (⟨1, ![128]⟩ : Shape).Idx → EReal)
    (cw1 : (⟨2, ![384, 128]⟩ : Shape).Idx → EReal) :
    preBands agts ctx actr cctr hi wi w1 b1 w2 g2 b2 qw qg qb cw1 = preJoined agts ctx actr cctr hi wi w1 b1 w2 g2 b2 qw qg qb cw1 :=
  funext fun e => funext fun j => (mv_join3 _ _ _ cw1 j).symm

/-- What the kernel's run leaves in its result buffer is the reference's last stage of the same launch arrays. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W6 m ρ c (Proc.devRef .tc Cert.KernelIdeal.main_v53) : (⟨2, ![16384, 128]⟩ : Shape).Idx → EReal)
      = Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  funext i
  obtain ⟨r, j, rfl⟩ : ∃ (r : Fin 16384) (j : Fin 128), i = ix2 r j := ⟨i 0, i 1, eq_ix2 i⟩
  show rowAt (n := 16384) (m := 128) (Cert.KernelIdeal.Gen.W6 m ρ c (Proc.devRef .tc Cert.KernelIdeal.main_v53)) r j
    = rowAt (n := 16384) (m := 128) (Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) r j
  rw [Cert.KernelIdeal.KValue.result_rows, Cert.ReferenceIdeal.RefValue.ref_out]
  unfold Cert.KernelIdeal.KValue.pre
  rw [pre_eq]

end Cert.Bridge

end
-- ==== Proof.lean ====
/-
  The certificate of `Cert.Claim`: the three frames, the (empty) idealization ledger, and the equality of the idealized
  kernel's and the idealized reference's results at the extended reals.

  THE MATHEMATICS. The program passes messages along 524288 edges between 16384 agent nodes and 16384 context nodes, every
  array a table of rows acted on row by row (LibRows.lean names the row functions; Spec.lean states the result). The
  reference gathers, per edge, the agent node's features and the context node's, pushes the first through a normalised layer,
  joins them with the distance row and multiplies the joined row of 384 by one matrix. The kernel does the per-node work
  once per NODE instead: a first region computes, for every node, the query layer times the middle band of that matrix and
  the context features times its last band; the host gathers those two tables' rows per edge; a second region adds them to
  the distance row times the first band. Row by row the two agree because a gather commutes with a row-wise map and a sum
  over 384 terms is the sum of its three parts (Bridge.lean). The reference then scatter-adds the messages onto the agent
  product; the kernel scatter-adds them onto zero and a third region adds the agent product: the same sum. Nothing divides
  or cancels across a sum, so the equality needs no finiteness of the inputs and the precondition is never opened.

  THE PARTS. The kernels' frames are the generated frame certificates (three regions, each body run symbolically). The
  kernel's run with its result kept is KRun.lean; what each region finds is KHost.lean; the three bodies at a row are
  KBody0/1/2.lean; from blocks to whole arrays KArr0/1/2.lean; the gathers, the scatter and the bands at a row
  KGather.lean; their composition KValue.lean. The reference's run over its stages is RefRun.lean and its stages at a row
  RefLib/RefGather/RefEdge/RefNode.lean.
-/
import proofs.«148702_j18734647345154_2_alg».proof.Defs
import proofs.«148702_j18734647345154_2_alg».proof.Proof.Gen.Kernel
import proofs.«148702_j18734647345154_2_alg».proof.Proof.Gen.KernelIdeal
import proofs.«148702_j18734647345154_2_alg».proof.Proof.Gen.ReferenceIdeal
import proofs.«148702_j18734647345154_2_alg».proof.Proof.Gen.Pre_finite_inputs
import proofs.«148702_j18734647345154_2_alg».proof.Proof.Patched.KernelFrame
import proofs.«148702_j18734647345154_2_alg».proof.Proof.Patched.KernelIdealFrame
import proofs.«148702_j18734647345154_2_alg».proof.Proof.KRun
import proofs.«148702_j18734647345154_2_alg».proof.Proof.RefRun
import proofs.«148702_j18734647345154_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs run from memories agreeing on the arguments; the kernel ends with its result buffer at the fold of its
    regions' write-backs, the reference with its result at its last stage; the two are one array (`Bridge.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.KernelIdeal.Gen.W6 m g c (Proc.devRef .tc Cert.KernelIdeal.main_v53),
    Cert.KernelIdeal.RunValue.run_named m g, ?_⟩
  refine (θ_run Cert.ReferenceIdeal.defs _ _).mono (fun _ h c => ⟨(h c).1.trans ?_, (h c).2⟩)
    (Cert.ReferenceIdeal.RefRun.run (F := Ideal) m' g')
  obtain ⟨h0, h1, h2, h3, h4, h5, h6, h7, h8, h9, h10, h11, h12, h13, h14, h15, h16, h17, h18, h19, h20, h21, h22, h23⟩ := hagree c
  rw [h0, h1, h2, h3, h4, h5, h6, h7, h8, h9, h10, h11, h12, h13, h14, h15, h16, h17, h18, h19, h20, h21, h22, h23]
  exact (Cert.Bridge.result_eq m g c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
